-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3x3200000 : Shape := ⟨2, ![3, 3200000]⟩
abbrev S16x512 : Shape := ⟨2, ![16, 512]⟩
abbrev S512x16 : Shape := ⟨2, ![512, 16]⟩
abbrev S1x16 : Shape := ⟨2, ![1, 16]⟩
abbrev S1x512 : Shape := ⟨2, ![1, 512]⟩
abbrev S_ : Shape := ⟨0, ![]⟩
abbrev S1x3200000 : Shape := ⟨2, ![1, 3200000]⟩
abbrev S3200000 : Shape := ⟨1, ![3200000]⟩
abbrev S100000x32 : Shape := ⟨2, ![100000, 32]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_
  bcast_S_S512x16 : S_.BroadcastsInDim S512x16 (![] : Fin 0 → Fin S512x16.rank)
  reducesTo_S512x16_S_d0_1 : S512x16.ReducesTo [0, 1] S_
  bcast_S_S1x16 : S_.BroadcastsInDim S1x16 (![] : Fin 0 → Fin S1x16.rank)
  reducesTo_S1x16_S_d0_1 : S1x16.ReducesTo [0, 1] S_
  bcast_S_S1x512 : S_.BroadcastsInDim S1x512 (![] : Fin 0 → Fin S1x512.rank)
  reducesTo_S1x512_S_d0_1 : S1x512.ReducesTo [0, 1] S_
  slices_S3x3200000_S1x3200000_2_0 : S3x3200000.Slices ![2, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_
  slices_S3x3200000_S1x3200000_1_0 : S3x3200000.Slices ![1, 0] S1x3200000
  shapeCasts_S3200000_S100000x32 : S3200000.ShapeCasts S100000x32
  reducesTo_S100000x32_S_d0_1 : S100000x32.ReducesTo [0, 1] S_

variable [Facts]

def fn_part2 {F : FTy → Type} [FloatOps F] (main_arg1 : IVec S3x3200000 32) (main_v28 : IVec S_ 1) (main_v32 : IVec S3200000 1) (main_v34 : IVec S3200000 32) : IVec S_ 1 :=
  let main_c_11 : IVec S_ 32 := constantI S_ 32 1#32
  let main_v35 : IVec S3200000 32 := broadcastInDim S3200000 ![] bcast_S_S3200000 main_c_11
  let main_v36 : IVec S3200000 1 := cmpi .eq main_v34 main_v35
  let main_v37 : IVec S3200000 1 := ori main_v32 main_v36
  let main_c_12 : IVec S_ 1 := constantI S_ 1 1#1
  let main_v38 : IVec S_ 1 := (fun x v => Host.reduce IntOp.andi x v reducesTo_S3200000_S_d0 h_S_) main_v37 main_c_12
  let main_v39 : IVec S_ 1 := andi main_v28 main_v38
  let main_v40 : IVec S1x3200000 32 := (extractStridedSlice S1x3200000 ![1, 0] · slices_S3x3200000_S1x3200000_1_0) main_arg1
  let main_v41 : IVec S3200000 32 := shapeCast S3200000 main_v40 shapeCasts_S1x3200000_S3200000
  let main_v42 : IVec S100000x32 32 := shapeCast S100000x32 main_v41 shapeCasts_S3200000_S100000x32
  let main_v43 : IVec S100000x32 32 := iotaInDim S100000x32 32 0
  let main_v44 : IVec S100000x32 1 := cmpi .eq main_v42 main_v43
  let main_c_13 : IVec S_ 1 := constantI S_ 1 1#1
  let main_v45 : IVec S_ 1 := (fun x v => Host.reduce IntOp.andi x v reducesTo_S100000x32_S_d0_1 h_S_) main_v44 main_c_13
  let main_v46 : IVec S_ 1 := andi main_v39 main_v45
  main_v46

def fn_part1 {F : FTy → Type} [FloatOps F] (main_arg1 : IVec S3x3200000 32) (main_arg5 : FVec F S1x16 .f32) (main_arg6 : FVec F S1x512 .f32) (main_v13 : IVec S_ 1) (main_v16 : IVec S512x16 1) : IVec S_ 1 :=
  let main_c_5 : IVec S_ 1 := constantI S_ 1 1#1
  let main_v17 : IVec S_ 1 := (fun x v => Host.reduce IntOp.andi x v reducesTo_S512x16_S_d0_1 h_S_) main_v16 main_c_5
  let main_v18 : IVec S_ 1 := andi main_v13 main_v17
  let main_v19 : FVec F S1x16 .f32 := Host.absf main_arg5
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1x512 .f32 := Host.absf main_arg6
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : IVec S1x3200000 32 := (extractStridedSlice S1x3200000 ![2, 0] · slices_S3x3200000_S1x3200000_2_0) main_arg1
  let main_v30 : IVec S3200000 32 := shapeCast S3200000 main_v29 shapeCasts_S1x3200000_S3200000
  let main_c_10 : IVec S_ 32 := constantI S_ 32 0#32
  let main_v31 : IVec S3200000 32 := broadcastInDim S3200000 ![] bcast_S_S3200000 main_c_10
  let main_v32 : IVec S3200000 1 := cmpi .eq main_v30 main_v31
  let main_v33 : IVec S1x3200000 32 := (extractStridedSlice S1x3200000 ![2, 0] · slices_S3x3200000_S1x3200000_2_0) main_arg1
  let main_v34 : IVec S3200000 32 := shapeCast S3200000 main_v33 shapeCasts_S1x3200000_S3200000
  fn_part2 (F := F) main_arg1 main_v28 main_v32 main_v34

def fn {F : FTy → Type} [FloatOps F] (main_arg0 : FVec F S100000x512 .f32) (main_arg1 : IVec S3x3200000 32) (main_arg2 : FVec F S16x512 .f32) (main_arg3 : FVec F S16x512 .f32) (main_arg4 : FVec F S512x16 .f32) (main_arg5 : FVec F S1x16 .f32) (main_arg6 : FVec F S1x512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S16x512 .f32 := Host.absf main_arg2
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x512 .f32 := Host.absf main_arg3
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_v14 : FVec F S512x16 .f32 := Host.absf main_arg4
  let main_cst_4 : FVec F S_ .f32 := constant S_ .f32 0x7F800000#32
  let main_v15 : FVec F S512x16 .f32 := broadcastInDim S512x16 ![] bcast_S_S512x16 main_cst_4
  let main_v16 : IVec S512x16 1 := cmpf .olt main_v14 main_v15
  fn_part1 (F := F) main_arg1 main_arg5 main_arg6 main_v13 main_v16
-- ==== Kernel.lean ====
abbrev S100000x512 : Shape := ⟨2, ![100000, 512]⟩
abbrev S3x3200000 : Shape := ⟨2, ![3, 3200000]⟩
abbrev S16x512 : Shape := ⟨2, ![16, 512]⟩
abbrev S512x16 : Shape := ⟨2, ![512, 16]⟩
abbrev S1x16 : Shape := ⟨2, ![1, 16]⟩
abbrev S1x512 : Shape := ⟨2, ![1, 512]⟩
abbrev S_ : Shape := ⟨0, ![]⟩
abbrev S100000x16 : Shape := ⟨2, ![100000, 16]⟩
abbrev S4000x512 : Shape := ⟨2, ![4000, 512]⟩
abbrev S4000x16 : Shape := ⟨2, ![4000, 16]⟩
abbrev S1x3200000 : Shape := ⟨2, ![1, 3200000]⟩
abbrev S3200000 : Shape := ⟨1, ![3200000]⟩
abbrev S3200000x1 : Shape := ⟨2, ![3200000, 1]⟩
abbrev S3200000x16 : Shape := ⟨2, ![3200000, 16]⟩
abbrev S100000x32x16 : Shape := ⟨3, ![100000, 32, 16]⟩
abbrev S100000x32 : Shape := ⟨2, ![100000, 32]⟩
abbrev S100000 : Shape := ⟨1, ![100000]⟩
abbrev S100000x1 : Shape := ⟨2, ![100000, 1]⟩

abbrev nBuf : Space → Nat
  | .hbm => 149
  | .vmem => 17
  | .smem => 0
  | _ => 0

abbrev hbmTy0_0 (i : Nat) : BufTy := match i % 128 with
  | 0 => ⟨S100000x512, .f32⟩
  | 1 => ⟨S3x3200000, .i32⟩
  | 2 => ⟨S16x512, .f32⟩
  | 3 => ⟨S16x512, .f32⟩
  | 4 => ⟨S512x16, .f32⟩
  | 5 => ⟨S1x16, .f32⟩
  | 6 => ⟨S1x512, .f32⟩
  | 7 => ⟨S_, .f32⟩
  | 8 => ⟨S16x512, .f32⟩
  | 9 => ⟨S16x512, .i1⟩
  | 10 => ⟨S_, .f32⟩
  | 11 => ⟨S16x512, .f32⟩
  | 12 => ⟨S16x512, .i1⟩
  | 13 => ⟨S_, .f32⟩
  | 14 => ⟨S_, .f32⟩
  | 15 => ⟨S16x512, .f32⟩
  | 16 => ⟨S16x512, .f32⟩
  | 17 => ⟨S16x512, .f32⟩
  | 18 => ⟨S_, .f32⟩
  | 19 => ⟨S16x512, .f32⟩
  | 20 => ⟨S16x512, .f32⟩
  | 21 => ⟨S16x512, .f32⟩
  | 22 => ⟨S_, .f32⟩
  | 23 => ⟨S16x512, .f32⟩
  | 24 => ⟨S16x512, .f32⟩
  | 25 => ⟨S512x16, .f32⟩
  | 26 => ⟨S512x16, .bf16⟩
  | 27 => ⟨S_, .f32⟩
  | 28 => ⟨S16x512, .f32⟩
  | 29 => ⟨S16x512, .i1⟩
  | 30 => ⟨S_, .f32⟩
  | 31 => ⟨S16x512, .f32⟩
  | 32 => ⟨S16x512, .i1⟩
  | 33 => ⟨S_, .f32⟩
  | 34 => ⟨S_, .f32⟩
  | 35 => ⟨S16x512, .f32⟩
  | 36 => ⟨S16x512, .f32⟩
  | 37 => ⟨S16x512, .f32⟩
  | 38 => ⟨S_, .f32⟩
  | 39 => ⟨S16x512, .f32⟩
  | 40 => ⟨S16x512, .f32⟩
  | 41 => ⟨S16x512, .f32⟩
  | 42 => ⟨S_, .f32⟩
  | 43 => ⟨S16x512, .f32⟩
  | 44 => ⟨S16x512, .f32⟩
  | 45 => ⟨S512x16, .f32⟩
  | 46 => ⟨S512x16, .bf16⟩
  | 47 => ⟨S_, .f32⟩
  | 48 => ⟨S512x16, .f32⟩
  | 49 => ⟨S512x16, .i1⟩
  | 50 => ⟨S_, .f32⟩
  | 51 => ⟨S512x16, .f32⟩
  | 52 => ⟨S512x16, .i1⟩
  | 53 => ⟨S_, .f32⟩
  | 54 => ⟨S_, .f32⟩
  | 55 => ⟨S512x16, .f32⟩
  | 56 => ⟨S512x16, .f32⟩
  | 57 => ⟨S512x16, .f32⟩
  | 58 => ⟨S_, .f32⟩
  | 59 => ⟨S512x16, .f32⟩
  | 60 => ⟨S512x16, .f32⟩
  | 61 => ⟨S512x16, .f32⟩
  | 62 => ⟨S_, .f32⟩
  | 63 => ⟨S512x16, .f32⟩
  | 64 => ⟨S512x16, .f32⟩
  | 65 => ⟨S16x512, .f32⟩
  | 66 => ⟨S16x512, .bf16⟩
  | 67 => ⟨S_, .f32⟩
  | 68 => ⟨S1x16, .f32⟩
  | 69 => ⟨S1x16, .i1⟩
  | 70 => ⟨S_, .f32⟩
  | 71 => ⟨S1x16, .f32⟩
  | 72 => ⟨S1x16, .i1⟩
  | 73 => ⟨S_, .f32⟩
  | 74 => ⟨S_, .f32⟩
  | 75 => ⟨S1x16, .f32⟩
  | 76 => ⟨S1x16, .f32⟩
  | 77 => ⟨S1x16, .f32⟩
  | 78 => ⟨S_, .f32⟩
  | 79 => ⟨S1x16, .f32⟩
  | 80 => ⟨S1x16, .f32⟩
  | 81 => ⟨S1x16, .f32⟩
  | 82 => ⟨S_, .f32⟩
  | 83 => ⟨S1x16, .f32⟩
  | 84 => ⟨S1x16, .f32⟩
  | 85 => ⟨S_, .f32⟩
  | 86 => ⟨S1x512, .f32⟩
  | 87 => ⟨S1x512, .i1⟩
  | 88 => ⟨S_, .f32⟩
  | 89 => ⟨S1x512, .f32⟩
  | 90 => ⟨S1x512, .i1⟩
  | 91 => ⟨S_, .f32⟩
  | 92 => ⟨S_, .f32⟩
  | 93 => ⟨S1x512, .f32⟩
  | 94 => ⟨S1x512, .f32⟩
  | 95 => ⟨S1x512, .f32⟩
  | 96 => ⟨S_, .f32⟩
  | 97 => ⟨S1x512, .f32⟩
  | 98 => ⟨S1x512, .f32⟩
  | 99 => ⟨S1x512, .f32⟩
  | 100 => ⟨S_, .f32⟩
  | 101 => ⟨S1x512, .f32⟩
  | 102 => ⟨S1x512, .f32⟩
  | 103 => ⟨S100000x16, .f32⟩
  | 104 => ⟨S100000x16, .f32⟩
  | 105 => ⟨S100000x16, .f32⟩
  | 106 => ⟨S1x3200000, .i32⟩
  | 107 => ⟨S3200000, .i32⟩
  | 108 => ⟨S1x3200000, .i32⟩
  | 109 => ⟨S3200000, .i32⟩
  | 110 => ⟨S_, .i32⟩
  | 111 => ⟨S3200000, .i32⟩
  | 112 => ⟨S3200000, .i1⟩
  | 113 => ⟨S3200000, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S3200000x16, .f32⟩
  | 123 => ⟨S3200000x1, .f32⟩
  | 124 => ⟨S3200000x16, .f32⟩
  | 125 => ⟨S3200000x16, .f32⟩
  | 126 => ⟨S100000x32x16, .f32⟩
  | 127 => ⟨S_, .f32⟩
  | _ => ⟨S100000x512, .f32⟩

abbrev hbmTy0_1 (i : Nat) : BufTy := match i % 128 with
  | 0 => ⟨S100000x16, .f32⟩
  | 1 => ⟨S100000x32, .f32⟩
  | 2 => ⟨S_, .f32⟩
  | 3 => ⟨S100000, .f32⟩
  | 4 => ⟨S100000x16, .f32⟩
  | 5 => ⟨S100000x1, .f32⟩
  | 6 => ⟨S_, .f32⟩
  | 7 => ⟨S100000x1, .f32⟩
  | 8 => ⟨S100000x1, .f32⟩
  | 9 => ⟨S100000x16, .f32⟩
  | 10 => ⟨S100000x16, .f32⟩
  | 11 => ⟨S100000x16, .f32⟩
  | 12 => ⟨S_, .f32⟩
  | 13 => ⟨S100000, .f32⟩
  | 14 => ⟨S100000x1, .f32⟩
  | 15 => ⟨S_, .f32⟩
  | 16 => ⟨S100000x1, .f32⟩
  | 17 => ⟨S100000x1, .f32⟩
  | 18 => ⟨S100000x16, .f32⟩
  | 19 => ⟨S100000x16, .f32⟩
  | 20 => ⟨S100000x512, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x16, .bf16⟩
  | .local _ .vmem, ⟨3, _⟩ => ⟨S512x16, .bf16⟩
  | .local _ .vmem, ⟨4, _⟩ => ⟨S1x16, .f32⟩
  | .local _ .vmem, ⟨5, _⟩ => ⟨S4000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S4000x16, .f32⟩
  | .local _ .vmem, ⟨10, _⟩ => ⟨S4000x16, .f32⟩
  | .local _ .vmem, ⟨11, _⟩ => ⟨S4000x16, .f32⟩
  | .local _ .vmem, ⟨12, _⟩ => ⟨S4000x16, .f32⟩
  | .local _ .vmem, ⟨13, _⟩ => ⟨S16x512, .bf16⟩
  | .local _ .vmem, ⟨14, _⟩ => ⟨S1x512, .f32⟩
  | .local _ .vmem, ⟨15, _⟩ => ⟨S4000x512, .f32⟩
  | .local _ .vmem, ⟨16, _⟩ => ⟨S4000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_cst_0 : Ref sig .tc := ⟨.hbm, 10, rfl⟩
abbrev main_call0_v2 : Ref sig .tc := ⟨.hbm, 11, rfl⟩
abbrev main_call0_v3 : Ref sig .tc := ⟨.hbm, 12, rfl⟩
abbrev main_call0_cst_1 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_v4 : Ref sig .tc := ⟨.hbm, 16, rfl⟩
abbrev main_call0_v5 : Ref sig .tc := ⟨.hbm, 17, rfl⟩
abbrev main_call0_cst_2 : Ref sig .tc := ⟨.hbm, 18, rfl⟩
abbrev main_call0_v6 : Ref sig .tc := ⟨.hbm, 19, rfl⟩
abbrev main_call0_v7 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_cst_0 : Ref sig .tc := ⟨.hbm, 30, rfl⟩
abbrev main_call1_v2 : Ref sig .tc := ⟨.hbm, 31, rfl⟩
abbrev main_call1_v3 : Ref sig .tc := ⟨.hbm, 32, rfl⟩
abbrev main_call1_cst_1 : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_v4 : Ref sig .tc := ⟨.hbm, 36, rfl⟩
abbrev main_call1_v5 : Ref sig .tc := ⟨.hbm, 37, rfl⟩
abbrev main_call1_cst_2 : Ref sig .tc := ⟨.hbm, 38, rfl⟩
abbrev main_call1_v6 : Ref sig .tc := ⟨.hbm, 39, rfl⟩
abbrev main_call1_v7 : Ref sig .tc := ⟨.hbm, 40, rfl⟩
abbrev main_v5 : Ref sig .tc := ⟨.hbm, 41, rfl⟩
abbrev main_cst_0 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_cst_0 : Ref sig .tc := ⟨.hbm, 50, rfl⟩
abbrev main_call2_v2 : Ref sig .tc := ⟨.hbm, 51, rfl⟩
abbrev main_call2_v3 : Ref sig .tc := ⟨.hbm, 52, rfl⟩
abbrev main_call2_cst_1 : Ref sig .tc := ⟨.hbm, 53, rfl⟩
abbrev main_call2_call0_v0 : Ref sig .tc := ⟨.hbm, 54, rfl⟩
abbrev main_call2_call0_v1 : Ref sig .tc := ⟨.hbm, 55, rfl⟩
abbrev main_call2_v4 : Ref sig .tc := ⟨.hbm, 56, rfl⟩
abbrev main_call2_v5 : Ref sig .tc := ⟨.hbm, 57, rfl⟩
abbrev main_call2_cst_2 : Ref sig .tc := ⟨.hbm, 58, rfl⟩
abbrev main_call2_v6 : Ref sig .tc := ⟨.hbm, 59, rfl⟩
abbrev main_call2_v7 : Ref sig .tc := ⟨.hbm, 60, rfl⟩
abbrev main_v10 : Ref sig .tc := ⟨.hbm, 61, rfl⟩
abbrev main_cst_1 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_call3_cst : Ref sig .tc := ⟨.hbm, 67, rfl⟩
abbrev main_call3_v0 : Ref sig .tc := ⟨.hbm, 68, rfl⟩
abbrev main_call3_v1 : Ref sig .tc := ⟨.hbm, 69, rfl⟩
abbrev main_call3_cst_0 : Ref sig .tc := ⟨.hbm, 70, rfl⟩
abbrev main_call3_v2 : Ref sig .tc := ⟨.hbm, 71, rfl⟩
abbrev main_call3_v3 : Ref sig .tc := ⟨.hbm, 72, rfl⟩
abbrev main_call3_cst_1 : Ref sig .tc := ⟨.hbm, 73, rfl⟩
abbrev main_call3_call0_v0 : Ref sig .tc := ⟨.hbm, 74, rfl⟩
abbrev main_call3_call0_v1 : Ref sig .tc := ⟨.hbm, 75, rfl⟩
abbrev main_call3_v4 : Ref sig .tc := ⟨.hbm, 76, rfl⟩
abbrev main_call3_v5 : Ref sig .tc := ⟨.hbm, 77, rfl⟩
abbrev main_call3_cst_2 : Ref sig .tc := ⟨.hbm, 78, rfl⟩
abbrev main_call3_v6 : Ref sig .tc := ⟨.hbm, 79, rfl⟩
abbrev main_call3_v7 : Ref sig .tc := ⟨.hbm, 80, rfl⟩
abbrev main_v15 : Ref sig .tc := ⟨.hbm, 81, rfl⟩
abbrev main_cst_2 : Ref sig .tc := ⟨.hbm, 82, rfl⟩
abbrev main_v16 : Ref sig .tc := ⟨.hbm, 83, rfl⟩
abbrev main_v17 : Ref sig .tc := ⟨.hbm, 84, rfl⟩
abbrev main_call4_cst : Ref sig .tc := ⟨.hbm, 85, rfl⟩
abbrev main_call4_v0 : Ref sig .tc := ⟨.hbm, 86, rfl⟩
abbrev main_call4_v1 : Ref sig .tc := ⟨.hbm, 87, rfl⟩
abbrev main_call4_cst_0 : Ref sig .tc := ⟨.hbm, 88, rfl⟩
abbrev main_call4_v2 : Ref sig .tc := ⟨.hbm, 89, rfl⟩
abbrev main_call4_v3 : Ref sig .tc := ⟨.hbm, 90, rfl⟩
abbrev main_call4_cst_1 : Ref sig .tc := ⟨.hbm, 91, rfl⟩
abbrev main_call4_call0_v0 : Ref sig .tc := ⟨.hbm, 92, rfl⟩
abbrev main_call4_call0_v1 : Ref sig .tc := ⟨.hbm, 93, rfl⟩
abbrev main_call4_v4 : Ref sig .tc := ⟨.hbm, 94, rfl⟩
abbrev main_call4_v5 : Ref sig .tc := ⟨.hbm, 95, rfl⟩
abbrev main_call4_cst_2 : Ref sig .tc := ⟨.hbm, 96, rfl⟩
abbrev main_call4_v6 : Ref sig .tc := ⟨.hbm, 97, rfl⟩
abbrev main_call4_v7 : Ref sig .tc := ⟨.hbm, 98, rfl⟩
abbrev main_v18 : Ref sig .tc := ⟨.hbm, 99, rfl⟩
abbrev main_cst_3 : Ref sig .tc := ⟨.hbm, 100, rfl⟩
abbrev main_v19 : Ref sig .tc := ⟨.hbm, 101, rfl⟩
abbrev main_v20 : Ref sig .tc := ⟨.hbm, 102, rfl⟩
abbrev main_v21_0 : Ref sig .tc := ⟨.hbm, 103, rfl⟩
abbrev main_v21_1 : Ref sig .tc := ⟨.hbm, 104, rfl⟩
abbrev main_v21_2 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_c : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_c_4 : Ref sig .tc := ⟨.hbm, 114, rfl⟩
abbrev main_v29 : Ref sig .tc := ⟨.hbm, 115, rfl⟩
abbrev main_v30 : Ref sig .tc := ⟨.hbm, 116, rfl⟩
abbrev main_c_5 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_cst_6 : Ref sig .tc := ⟨.hbm, 127, rfl⟩
abbrev main_v40 : Ref sig .tc := ⟨.hbm, 128, rfl⟩
abbrev main_v41 : Ref sig .tc := ⟨.hbm, 129, rfl⟩
abbrev main_cst_7 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_cst_8 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_cst_9 : Ref sig .tc := ⟨.hbm, 140, rfl⟩
abbrev main_v50 : Ref sig .tc := ⟨.hbm, 141, rfl⟩
abbrev main_v51 : Ref sig .tc := ⟨.hbm, 142, rfl⟩
abbrev main_cst_10 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S16x512 : S_.BroadcastsInDim S16x512 (![] : Fin 0 → Fin S16x512.rank)
  transposes_S16x512_S512x16_1_0 : S16x512.Transposes [1, 0] S512x16
  bitsLt_bf16_f32 : FTy.bits .bf16 < FTy.bits .f32
  bcast_S_S512x16 : S_.BroadcastsInDim S512x16 (![] : Fin 0 → Fin S512x16.rank)
  transposes_S512x16_S16x512_1_0 : S512x16.Transposes [1, 0] S16x512
  bcast_S_S1x16 : S_.BroadcastsInDim S1x16 (![] : Fin 0 → Fin S1x16.rank)
  bcast_S_S1x512 : S_.BroadcastsInDim S1x512 (![] : Fin 0 → Fin S1x512.rank)
  inb_S4000x512_S4000x512_0_0 : ∀ a, (![0, 0] : Fin 2 → Nat) a + S4000x512.size a ≤ S4000x512.size a
  h_S4000x512 : 0 < S4000x512.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S4000x16_S4000x16_0_0 : ∀ a, (![0, 0] : Fin 2 → Nat) a + S4000x16.size a ≤ S4000x16.size a
  h_S4000x16 : 0 < S4000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  slices_S3x3200000_S1x3200000_0_0 : S3x3200000.Slices ![0, 0] S1x3200000
  shapeCasts_S1x3200000_S3200000 : S1x3200000.ShapeCasts S3200000
  slices_S3x3200000_S1x3200000_2_0 : S3x3200000.Slices ![2, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  shapeCasts_S3200000x16_S100000x32x16 : S3200000x16.ShapeCasts S100000x32x16
  reducesTo_S100000x32x16_S100000x16_d1 : S100000x32x16.ReducesTo [1] S100000x16
  h_S_ : 0 < S_.numel
  shapeCasts_S3200000_S100000x32 : S3200000.ShapeCasts S100000x32
  reducesTo_S100000x32_S100000_d1 : S100000x32.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  reducesTo_S100000x16_S100000_d1 : S100000x16.ReducesTo [1] S100000
  shapeCasts_S4000x16_S4000x16 : S4000x16.ShapeCasts S4000x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  dot_S4000x512_S512x16_S4000x16_1_0_0_1_n_n_wf : DotDims.WF S4000x512 S512x16 S4000x16 [1] [0] [0] [1] [] []
  gather_S100000x16_S3200000x1_S3200000x16_1_0_n_n_0_1_116_wf : GatherDims.WF S100000x16 S3200000x1 S3200000x16 [1] [0] [] [0] [] 1 ![1, 16]
  dot_S4000x16_S16x512_S4000x512_1_0_0_1_n_n_wf : DotDims.WF S4000x16 S16x512 S4000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .bf16 = 32 ∨ (Rect.block (s := S512x16) S512x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S512x16.size a
  hwx0_2 : ∀ i : grid0.Coords, EltTy.bits .bf16 = 32 ∨ (Rect.block (s := S512x16) S512x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x16.size a ≤ S100000x16.size a
  hwx0_4 : ∀ i : grid0.Coords, EltTy.bits .f32 = 32 ∨ (Rect.block (s := S100000x16) S4000x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x16.size a ≤ S100000x16.size a
  hwx0_5 : ∀ i : grid0.Coords, EltTy.bits .f32 = 32 ∨ (Rect.block (s := S100000x16) S4000x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x16.size a ≤ S100000x16.size a
  hwx0_6 : ∀ i : grid0.Coords, EltTy.bits .f32 = 32 ∨ (Rect.block (s := S100000x16) S4000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S16x512.size a
  hwx1_1 : ∀ i : grid1.Coords, EltTy.bits .bf16 = 32 ∨ (Rect.block (s := S16x512) S16x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x512.size a ≤ S100000x512.size a
  hwx1_3 : ∀ i : grid1.Coords, EltTy.bits .f32 = 32 ∨ (Rect.block (s := S100000x512) S4000x512.size (cc1_transform_3 i) (hinb1_3 i)).WholeWords (EltTy.packing .f32)

variable [Facts₀]

def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S4000x16_S16x512_S4000x512_1_0_0_1_n_n : DotDims S4000x16 S16x512 S4000x512 where
  lhsContracting := [1]
  rhsContracting := [0]
  lhsNonContracting := [0]
  rhsNonContracting := [1]
  lhsBatch := []
  rhsBatch := []
  wf := dot_S4000x16_S16x512_S4000x512_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21_0) S4000x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_1) S4000x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_2) S4000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v55) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S16x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S4000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S3x3200000 : Shape := ⟨2, ![3, 3200000]⟩
abbrev S16x512 : Shape := ⟨2, ![16, 512]⟩
abbrev S512x16 : Shape := ⟨2, ![512, 16]⟩
abbrev S1x16 : Shape := ⟨2, ![1, 16]⟩
abbrev S1x512 : Shape := ⟨2, ![1, 512]⟩
abbrev S_ : Shape := ⟨0, ![]⟩
abbrev S100000x16 : Shape := ⟨2, ![100000, 16]⟩
abbrev S1x3200000 : Shape := ⟨2, ![1, 3200000]⟩
abbrev S3200000 : Shape := ⟨1, ![3200000]⟩
abbrev S3200000x1 : Shape := ⟨2, ![3200000, 1]⟩
abbrev S3200000x16 : Shape := ⟨2, ![3200000, 16]⟩
abbrev S100000x32x16 : Shape := ⟨3, ![100000, 32, 16]⟩
abbrev S100000x16x32 : Shape := ⟨3, ![100000, 16, 32]⟩
abbrev S100000x32 : Shape := ⟨2, ![100000, 32]⟩
abbrev S100000 : Shape := ⟨1, ![100000]⟩
abbrev S100000x1x1 : Shape := ⟨3, ![100000, 1, 1]⟩
abbrev S100000x1 : Shape := ⟨2, ![100000, 1]⟩

abbrev nBuf : Space → Nat
  | .hbm => 173
  | .vmem => 0
  | .smem => 0
  | _ => 0

abbrev hbmTy0_0 (i : Nat) : BufTy := match i % 128 with
  | 0 => ⟨S100000x512, .f32⟩
  | 1 => ⟨S3x3200000, .i32⟩
  | 2 => ⟨S16x512, .f32⟩
  | 3 => ⟨S16x512, .f32⟩
  | 4 => ⟨S512x16, .f32⟩
  | 5 => ⟨S1x16, .f32⟩
  | 6 => ⟨S1x512, .f32⟩
  | 7 => ⟨S_, .f32⟩
  | 8 => ⟨S16x512, .f32⟩
  | 9 => ⟨S16x512, .i1⟩
  | 10 => ⟨S_, .f32⟩
  | 11 => ⟨S16x512, .f32⟩
  | 12 => ⟨S16x512, .i1⟩
  | 13 => ⟨S_, .f32⟩
  | 14 => ⟨S_, .f32⟩
  | 15 => ⟨S16x512, .f32⟩
  | 16 => ⟨S16x512, .f32⟩
  | 17 => ⟨S16x512, .f32⟩
  | 18 => ⟨S_, .f32⟩
  | 19 => ⟨S16x512, .f32⟩
  | 20 => ⟨S16x512, .f32⟩
  | 21 => ⟨S16x512, .f32⟩
  | 22 => ⟨S_, .f32⟩
  | 23 => ⟨S16x512, .f32⟩
  | 24 => ⟨S16x512, .f32⟩
  | 25 => ⟨S512x16, .f32⟩
  | 26 => ⟨S100000x16, .f32⟩
  | 27 => ⟨S_, .f32⟩
  | 28 => ⟨S100000x16, .f32⟩
  | 29 => ⟨S100000x16, .f32⟩
  | 30 => ⟨S_, .f32⟩
  | 31 => ⟨S16x512, .f32⟩
  | 32 => ⟨S16x512, .i1⟩
  | 33 => ⟨S_, .f32⟩
  | 34 => ⟨S16x512, .f32⟩
  | 35 => ⟨S16x512, .i1⟩
  | 36 => ⟨S_, .f32⟩
  | 37 => ⟨S_, .f32⟩
  | 38 => ⟨S16x512, .f32⟩
  | 39 => ⟨S16x512, .f32⟩
  | 40 => ⟨S16x512, .f32⟩
  | 41 => ⟨S_, .f32⟩
  | 42 => ⟨S16x512, .f32⟩
  | 43 => ⟨S16x512, .f32⟩
  | 44 => ⟨S16x512, .f32⟩
  | 45 => ⟨S_, .f32⟩
  | 46 => ⟨S16x512, .f32⟩
  | 47 => ⟨S16x512, .f32⟩
  | 48 => ⟨S512x16, .f32⟩
  | 49 => ⟨S100000x16, .f32⟩
  | 50 => ⟨S_, .f32⟩
  | 51 => ⟨S100000x16, .f32⟩
  | 52 => ⟨S100000x16, .f32⟩
  | 53 => ⟨S100000x16, .f32⟩
  | 54 => ⟨S_, .f32⟩
  | 55 => ⟨S1x16, .f32⟩
  | 56 => ⟨S1x16, .i1⟩
  | 57 => ⟨S_, .f32⟩
  | 58 => ⟨S1x16, .f32⟩
  | 59 => ⟨S1x16, .i1⟩
  | 60 => ⟨S_, .f32⟩
  | 61 => ⟨S_, .f32⟩
  | 62 => ⟨S1x16, .f32⟩
  | 63 => ⟨S1x16, .f32⟩
  | 64 => ⟨S1x16, .f32⟩
  | 65 => ⟨S_, .f32⟩
  | 66 => ⟨S1x16, .f32⟩
  | 67 => ⟨S1x16, .f32⟩
  | 68 => ⟨S1x16, .f32⟩
  | 69 => ⟨S_, .f32⟩
  | 70 => ⟨S1x16, .f32⟩
  | 71 => ⟨S1x16, .f32⟩
  | 72 => ⟨S100000x16, .f32⟩
  | 73 => ⟨S100000x16, .f32⟩
  | 74 => ⟨S1x3200000, .i32⟩
  | 75 => ⟨S3200000, .i32⟩
  | 76 => ⟨S_, .i32⟩
  | 77 => ⟨S3200000, .i32⟩
  | 78 => ⟨S3200000, .i1⟩
  | 79 => ⟨S_, .i32⟩
  | 80 => ⟨S3200000, .i32⟩
  | 81 => ⟨S3200000, .i32⟩
  | 82 => ⟨S3200000, .i32⟩
  | 83 => ⟨S3200000x1, .i32⟩
  | 84 => ⟨S3200000x16, .f32⟩
  | 85 => ⟨S1x3200000, .i32⟩
  | 86 => ⟨S3200000, .i32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000x16, .f32⟩
  | 96 => ⟨S3200000x16, .f32⟩
  | 97 => ⟨S1x3200000, .i32⟩
  | 98 => ⟨S3200000, .i32⟩
  | 99 => ⟨S_, .i32⟩
  | 100 => ⟨S3200000, .i32⟩
  | 101 => ⟨S3200000, .i1⟩
  | 102 => ⟨S3200000x1, .i1⟩
  | 103 => ⟨S_, .f32⟩
  | 104 => ⟨S_, .f32⟩
  | 105 => ⟨S3200000x16, .i1⟩
  | 106 => ⟨S3200000x16, .f32⟩
  | 107 => ⟨S3200000x16, .f32⟩
  | 108 => ⟨S100000x32x16, .f32⟩
  | 109 => ⟨S100000x16x32, .f32⟩
  | 110 => ⟨S1x3200000, .i32⟩
  | 111 => ⟨S3200000, .i32⟩
  | 112 => ⟨S100000x32, .i32⟩
  | 113 => ⟨S_, .i32⟩
  | 114 => ⟨S100000, .i32⟩
  | 115 => ⟨S100000, .f32⟩
  | 116 => ⟨S100000x1x1, .f32⟩
  | 117 => ⟨S_, .f32⟩
  | 118 => ⟨S100000x1x1, .f32⟩
  | 119 => ⟨S100000x1x1, .f32⟩
  | 120 => ⟨S100000x16x32, .f32⟩
  | 121 => ⟨S100000x16x32, .f32⟩
  | 122 => ⟨S_, .f32⟩
  | 123 => ⟨S100000x16, .f32⟩
  | 124 => ⟨S100000x16, .f32⟩
  | 125 => ⟨S_, .f32⟩
  | 126 => ⟨S100000, .f32⟩
  | 127 => ⟨S100000x1, .f32⟩
  | _ => ⟨S100000x512, .f32⟩

abbrev hbmTy0_1 (i : Nat) : BufTy := match i % 128 with
  | 0 => ⟨S_, .f32⟩
  | 1 => ⟨S100000x1, .f32⟩
  | 2 => ⟨S100000x1, .f32⟩
  | 3 => ⟨S100000x16, .f32⟩
  | 4 => ⟨S100000x16, .f32⟩
  | 5 => ⟨S_, .f32⟩
  | 6 => ⟨S512x16, .f32⟩
  | 7 => ⟨S512x16, .i1⟩
  | 8 => ⟨S_, .f32⟩
  | 9 => ⟨S512x16, .f32⟩
  | 10 => ⟨S512x16, .i1⟩
  | 11 => ⟨S_, .f32⟩
  | 12 => ⟨S_, .f32⟩
  | 13 => ⟨S512x16, .f32⟩
  | 14 => ⟨S512x16, .f32⟩
  | 15 => ⟨S512x16, .f32⟩
  | 16 => ⟨S_, .f32⟩
  | 17 => ⟨S512x16, .f32⟩
  | 18 => ⟨S512x16, .f32⟩
  | 19 => ⟨S512x16, .f32⟩
  | 20 => ⟨S_, .f32⟩
  | 21 => ⟨S512x16, .f32⟩
  | 22 => ⟨S512x16, .f32⟩
  | 23 => ⟨S16x512, .f32⟩
  | 24 => ⟨S100000x512, .f32⟩
  | 25 => ⟨S_, .f32⟩
  | 26 => ⟨S1x512, .f32⟩
  | 27 => ⟨S1x512, .i1⟩
  | 28 => ⟨S_, .f32⟩
  | 29 => ⟨S1x512, .f32⟩
  | 30 => ⟨S1x512, .i1⟩
  | 31 => ⟨S_, .f32⟩
  | 32 => ⟨S_, .f32⟩
  | 33 => ⟨S1x512, .f32⟩
  | 34 => ⟨S1x512, .f32⟩
  | 35 => ⟨S1x512, .f32⟩
  | 36 => ⟨S_, .f32⟩
  | 37 => ⟨S1x512, .f32⟩
  | 38 => ⟨S1x512, .f32⟩
  | 39 => ⟨S1x512, .f32⟩
  | 40 => ⟨S_, .f32⟩
  | 41 => ⟨S1x512, .f32⟩
  | 42 => ⟨S1x512, .f32⟩
  | 43 => ⟨S100000x512, .f32⟩
  | 44 => ⟨S100000x512, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_cst_0 : Ref sig .tc := ⟨.hbm, 10, rfl⟩
abbrev main_call0_v2 : Ref sig .tc := ⟨.hbm, 11, rfl⟩
abbrev main_call0_v3 : Ref sig .tc := ⟨.hbm, 12, rfl⟩
abbrev main_call0_cst_1 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_v4 : Ref sig .tc := ⟨.hbm, 16, rfl⟩
abbrev main_call0_v5 : Ref sig .tc := ⟨.hbm, 17, rfl⟩
abbrev main_call0_cst_2 : Ref sig .tc := ⟨.hbm, 18, rfl⟩
abbrev main_call0_v6 : Ref sig .tc := ⟨.hbm, 19, rfl⟩
abbrev main_call0_v7 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_cst_0 : Ref sig .tc := ⟨.hbm, 33, rfl⟩
abbrev main_call1_v2 : Ref sig .tc := ⟨.hbm, 34, rfl⟩
abbrev main_call1_v3 : Ref sig .tc := ⟨.hbm, 35, rfl⟩
abbrev main_call1_cst_1 : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_v4 : Ref sig .tc := ⟨.hbm, 39, rfl⟩
abbrev main_call1_v5 : Ref sig .tc := ⟨.hbm, 40, rfl⟩
abbrev main_call1_cst_2 : Ref sig .tc := ⟨.hbm, 41, rfl⟩
abbrev main_call1_v6 : Ref sig .tc := ⟨.hbm, 42, rfl⟩
abbrev main_call1_v7 : Ref sig .tc := ⟨.hbm, 43, rfl⟩
abbrev main_v7 : Ref sig .tc := ⟨.hbm, 44, rfl⟩
abbrev main_cst_1 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_2 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_cst_0 : Ref sig .tc := ⟨.hbm, 57, rfl⟩
abbrev main_call2_v2 : Ref sig .tc := ⟨.hbm, 58, rfl⟩
abbrev main_call2_v3 : Ref sig .tc := ⟨.hbm, 59, rfl⟩
abbrev main_call2_cst_1 : Ref sig .tc := ⟨.hbm, 60, rfl⟩
abbrev main_call2_call0_v0 : Ref sig .tc := ⟨.hbm, 61, rfl⟩
abbrev main_call2_call0_v1 : Ref sig .tc := ⟨.hbm, 62, rfl⟩
abbrev main_call2_v4 : Ref sig .tc := ⟨.hbm, 63, rfl⟩
abbrev main_call2_v5 : Ref sig .tc := ⟨.hbm, 64, rfl⟩
abbrev main_call2_cst_2 : Ref sig .tc := ⟨.hbm, 65, rfl⟩
abbrev main_call2_v6 : Ref sig .tc := ⟨.hbm, 66, rfl⟩
abbrev main_call2_v7 : Ref sig .tc := ⟨.hbm, 67, rfl⟩
abbrev main_v15 : Ref sig .tc := ⟨.hbm, 68, rfl⟩
abbrev main_cst_3 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_c : Ref sig .tc := ⟨.hbm, 76, rfl⟩
abbrev main_v22 : Ref sig .tc := ⟨.hbm, 77, rfl⟩
abbrev main_v23 : Ref sig .tc := ⟨.hbm, 78, rfl⟩
abbrev main_c_4 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_c_5 : Ref sig .tc := ⟨.hbm, 87, rfl⟩
abbrev main_v31 : Ref sig .tc := ⟨.hbm, 88, rfl⟩
abbrev main_v32 : Ref sig .tc := ⟨.hbm, 89, rfl⟩
abbrev main_c_6 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_c_7 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_cst_8 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_c_9 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_10 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_cst_11 : Ref sig .tc := ⟨.hbm, 122, rfl⟩
abbrev main_v57 : Ref sig .tc := ⟨.hbm, 123, rfl⟩
abbrev main_v58 : Ref sig .tc := ⟨.hbm, 124, rfl⟩
abbrev main_cst_12 : Ref sig .tc := ⟨.hbm, 125, rfl⟩
abbrev main_v59 : Ref sig .tc := ⟨.hbm, 126, rfl⟩
abbrev main_v60 : Ref sig .tc := ⟨.hbm, 127, rfl⟩
abbrev main_cst_13 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_call4_cst : Ref sig .tc := ⟨.hbm, 133, rfl⟩
abbrev main_call4_v0 : Ref sig .tc := ⟨.hbm, 134, rfl⟩
abbrev main_call4_v1 : Ref sig .tc := ⟨.hbm, 135, rfl⟩
abbrev main_call4_cst_0 : Ref sig .tc := ⟨.hbm, 136, rfl⟩
abbrev main_call4_v2 : Ref sig .tc := ⟨.hbm, 137, rfl⟩
abbrev main_call4_v3 : Ref sig .tc := ⟨.hbm, 138, rfl⟩
abbrev main_call4_cst_1 : Ref sig .tc := ⟨.hbm, 139, rfl⟩
abbrev main_call4_call0_v0 : Ref sig .tc := ⟨.hbm, 140, rfl⟩
abbrev main_call4_call0_v1 : Ref sig .tc := ⟨.hbm, 141, rfl⟩
abbrev main_call4_v4 : Ref sig .tc := ⟨.hbm, 142, rfl⟩
abbrev main_call4_v5 : Ref sig .tc := ⟨.hbm, 143, rfl⟩
abbrev main_call4_cst_2 : Ref sig .tc := ⟨.hbm, 144, rfl⟩
abbrev main_call4_v6 : Ref sig .tc := ⟨.hbm, 145, rfl⟩
abbrev main_call4_v7 : Ref sig .tc := ⟨.hbm, 146, rfl⟩
abbrev main_v65 : Ref sig .tc := ⟨.hbm, 147, rfl⟩
abbrev main_cst_14 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_call5_cst : Ref sig .tc := ⟨.hbm, 153, rfl⟩
abbrev main_call5_v0 : Ref sig .tc := ⟨.hbm, 154, rfl⟩
abbrev main_call5_v1 : Ref sig .tc := ⟨.hbm, 155, rfl⟩
abbrev main_call5_cst_0 : Ref sig .tc := ⟨.hbm, 156, rfl⟩
abbrev main_call5_v2 : Ref sig .tc := ⟨.hbm, 157, rfl⟩
abbrev main_call5_v3 : Ref sig .tc := ⟨.hbm, 158, rfl⟩
abbrev main_call5_cst_1 : Ref sig .tc := ⟨.hbm, 159, rfl⟩
abbrev main_call5_call0_v0 : Ref sig .tc := ⟨.hbm, 160, rfl⟩
abbrev main_call5_call0_v1 : Ref sig .tc := ⟨.hbm, 161, rfl⟩
abbrev main_call5_v4 : Ref sig .tc := ⟨.hbm, 162, rfl⟩
abbrev main_call5_v5 : Ref sig .tc := ⟨.hbm, 163, rfl⟩
abbrev main_call5_cst_2 : Ref sig .tc := ⟨.hbm, 164, rfl⟩
abbrev main_call5_v6 : Ref sig .tc := ⟨.hbm, 165, rfl⟩
abbrev main_call5_v7 : Ref sig .tc := ⟨.hbm, 166, rfl⟩
abbrev main_v70 : Ref sig .tc := ⟨.hbm, 167, rfl⟩
abbrev main_cst_15 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩

abbrev nD : Nat := 1
abbrev τ : Topo := Topo.v7x

variable {F : FTy → Type} [FloatOps F]

class Facts₀ : Prop where
  bcast_S_S16x512 : S_.BroadcastsInDim S16x512 (![] : Fin 0 → Fin S16x512.rank)
  transposes_S16x512_S512x16_1_0 : S16x512.Transposes [1, 0] S512x16
  bcast_S_S100000x16 : S_.BroadcastsInDim S100000x16 (![] : Fin 0 → Fin S100000x16.rank)
  bcast_S_S1x16 : S_.BroadcastsInDim S1x16 (![] : Fin 0 → Fin S1x16.rank)
  bcast_S1x16_S100000x16_0_1 : S1x16.BroadcastsInDim S100000x16 (![0, 1] : Fin 2 → Fin S100000x16.rank)
  slices_S3x3200000_S1x3200000_1_0 : S3x3200000.Slices ![1, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S3x3200000_S1x3200000_0_0 : S3x3200000.Slices ![0, 0] S1x3200000
  slices_S3x3200000_S1x3200000_2_0 : S3x3200000.Slices ![2, 0] S1x3200000
  bcast_S3200000x1_S3200000x16_0_1 : S3200000x1.BroadcastsInDim S3200000x16 (![0, 1] : Fin 2 → Fin S3200000x16.rank)
  bcast_S_S3200000x16 : S_.BroadcastsInDim S3200000x16 (![] : Fin 0 → Fin S3200000x16.rank)
  shapeCasts_S3200000x16_S100000x32x16 : S3200000x16.ShapeCasts S100000x32x16
  transposes_S100000x32x16_S100000x16x32_0_2_1 : S100000x32x16.Transposes [0, 2, 1] S100000x16x32
  shapeCasts_S3200000_S100000x32 : S3200000.ShapeCasts S100000x32
  reducesTo_S100000x32_S100000_d1 : S100000x32.ReducesTo [1] S100000
  h_S_ : 0 < S_.numel
  bcast_S100000_S100000x1x1_0 : S100000.BroadcastsInDim S100000x1x1 (![0] : Fin 1 → Fin S100000x1x1.rank)
  bcast_S_S100000x1x1 : S_.BroadcastsInDim S100000x1x1 (![] : Fin 0 → Fin S100000x1x1.rank)
  bcast_S100000x1x1_S100000x16x32_0_1_2 : S100000x1x1.BroadcastsInDim S100000x16x32 (![0, 1, 2] : Fin 3 → Fin S100000x16x32.rank)
  reducesTo_S100000x16x32_S100000x16_d2 : S100000x16x32.ReducesTo [2] S100000x16
  reducesTo_S100000x16_S100000_d1 : S100000x16.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  bcast_S_S512x16 : S_.BroadcastsInDim S512x16 (![] : Fin 0 → Fin S512x16.rank)
  transposes_S512x16_S16x512_1_0 : S512x16.Transposes [1, 0] S16x512
  bcast_S_S1x512 : S_.BroadcastsInDim S1x512 (![] : Fin 0 → Fin S1x512.rank)
  bcast_S1x512_S100000x512_0_1 : S1x512.BroadcastsInDim S100000x512 (![0, 1] : Fin 2 → Fin S100000x512.rank)
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  dot_S100000x16_S16x512_S100000x512_1_0_0_1_n_n_wf : DotDims.WF S100000x16 S16x512 S100000x512 [1] [0] [0] [1] [] []

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S100000x16_S16x512_S100000x512_1_0_0_1_n_n : DotDims S100000x16 S16x512 S100000x512 where
  lhsContracting := [1]
  rhsContracting := [0]
  lhsNonContracting := [0]
  rhsNonContracting := [1]
  lhsBatch := []
  rhsBatch := []
  wf := dot_S100000x16_S16x512_S100000x512_1_0_0_1_n_n_wf

class Facts : Prop extends Facts₀ where

variable [Facts]
-- ==== Proof.KerRun.lean ====
/-
  The kernel program's run with its result named.

  The program is ten stretches of host operations, a first pipelined region (query, key and ego
  embeddings, 25 blocks of 4000 cells), a stretch of host operations between the regions (the gather of
  key embeddings along the edges, the masked sums, the normalisation) and a second pipelined region (the
  output projection, 25 blocks of 4000 cells). The buffer contents at each boundary are a fold from the
  launch memory; at the return every unscoped buffer holds the last fold's value. Here that is read at
  the result buffer as well as at the seven arguments.
-/
import proofs.«165512_j43946105373324_1_alg».proof.Proof.Gen.KernelIdeal.Frame

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the arguments as launched. -/
theorem run_value : θ_run defs (onTc (τ := τ) (main (F := F))) ⟨m, fun _ => 0, ρ⟩ (fun r => ∀ c : Dev nD,
      r.2.mem ((c.tc : Thread nD τ).loc main_v56) = W13 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v56 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.KerValue

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.Spec.lean ====
/-
  The result of the bilinear neighbourhood attention, index by index, on the extended reals, written
  twice over the same argument arrays: once in the arrangement that multiplies a cell's own query
  embedding into the masked sum of its neighbours' key embeddings (`resK`), once in the arrangement that
  gathers a query embedding per edge, masks the per-edge products, divides each and sums (`resR`).
  Both share everything after the local score: the ego score, the normalisation over the heads and
  the output projection.

  Arrays are plain functions of literal `Fin` coordinates: X[100000,512], A[3,3200000] (row 0 the
  neighbour of an edge, row 1 its target, row 2 its mask), QW, KW[16,512], VW[512,16], ES[16], B[512].
  Edge `32 i + j` is slot `j` of cell `i`.
-/
import Idealize.ShloMosaic.PureOps.Ideal
import Idealize.ShloMosaic.Lib.ValueIdx

noncomputable section

namespace Cert.Spec

open Idealize.ShloMosaic
open scoped BigOperators

/-! ## The float literals, kept as words -/

def zero : EReal := Ideal.ofBits .f32 0x00000000#32
def one : EReal := Ideal.ofBits .f32 0x3F800000#32
def inv512 : EReal := Ideal.ofBits .f32 0x3B000000#32
def eps6 : EReal := Ideal.ofBits .f32 0x358637BD#32
def eps9 : EReal := Ideal.ofBits .f32 0x3089705F#32

/-! ## The non-negativity transform `elu w + 1` -/

/-- `elu w`: `w` where `w > 0`, else `1 · (exp (w') - 1)` with `w' = 0` where `w > 0`, else `w`. -/
def elu (w : EReal) : EReal :=
  Scalar.select (Ideal.cmp .ogt w zero) w
    (one * (Ideal.exp (Scalar.select (Ideal.cmp .ogt w zero) zero w) - 1))

def nn (w : EReal) : EReal := elu w + one

/-! ## Embeddings -/

/-- `(Σ_k X[i,k] · nn W[h,k]) · (1/512)`. -/
def emb (X : Fin 100000 → Fin 512 → EReal) (W : Fin 16 → Fin 512 → EReal) (i : Fin 100000) (h : Fin 16) : EReal :=
  (∑ k : Fin 512, X i k * nn (W h k)) * inv512

/-- The ego score `(q · q) · nn ES[h]`. -/
def ego (X : Fin 100000 → Fin 512 → EReal) (QW : Fin 16 → Fin 512 → EReal) (ES : Fin 16 → EReal)
    (i : Fin 100000) (h : Fin 16) : EReal :=
  (emb X QW i h * emb X QW i h) * nn (ES h)

/-! ## Edges -/

/-- Slot `j` of cell `i`. -/
def edge (i : Fin 100000) (j : Fin 32) : Fin 3200000 := ⟨32 * i.val + j.val, by omega⟩

/-- A negative row number counts from the end. -/
def wrap (b : BitVec 32) : BitVec 32 := Scalar.select (IntOp.cmpi .slt b 0#32) (IntOp.addi b 100000#32) b

/-- The row a (wrapped) row number addresses: read signed, clamped into `[0, 99999]`. -/
def row (b : BitVec 32) : Fin 100000 := ⟨min (wrap b).toInt.toNat 99999, by omega⟩

/-- The mask of an edge as a float: 1 where the mask word is nonzero, else 0. -/
def validf (A : Fin 3 → Fin 3200000 → BitVec 32) (e : Fin 3200000) : EReal :=
  (((IntOp.cmpi .ne (A 2 e) 0#32).toNat : ℝ) : EReal)

/-! ## The local score, first arrangement -/

def aggK (X : Fin 100000 → Fin 512 → EReal) (A : Fin 3 → Fin 3200000 → BitVec 32) (KW : Fin 16 → Fin 512 → EReal)
    (i : Fin 100000) (h : Fin 16) : EReal :=
  zero + ∑ j : Fin 32, emb X KW (row (A 0 (edge i j))) h * validf A (edge i j)

def cntK (A : Fin 3 → Fin 3200000 → BitVec 32) (i : Fin 100000) : EReal :=
  zero + ∑ j : Fin 32, validf A (edge i j)

def slK (X : Fin 100000 → Fin 512 → EReal) (A : Fin 3 → Fin 3200000 → BitVec 32)
    (QW KW : Fin 16 → Fin 512 → EReal) (i : Fin 100000) (h : Fin 16) : EReal :=
  Ideal.div (emb X QW i h * aggK X A KW i h) (cntK A i + eps6)

/-! ## The local score, second arrangement -/

/-- The masked product of an edge: target's query embedding times neighbour's key embedding where the
    mask word is nonzero, else the zero literal. -/
def score (X : Fin 100000 → Fin 512 → EReal) (A : Fin 3 → Fin 3200000 → BitVec 32)
    (QW KW : Fin 16 → Fin 512 → EReal) (e : Fin 3200000) (h : Fin 16) : EReal :=
  Scalar.select (IntOp.cmpi .ne (A 2 e) 0#32) (emb X QW (row (A 1 e)) h * emb X KW (row (A 0 e)) h) zero

/-- The 32 mask words of a cell added as 32-bit integers, from 0, in slot order. -/
def icount (A : Fin 3 → Fin 3200000 → BitVec 32) (i : Fin 100000) : BitVec 32 :=
  (List.finRange 32).foldl (fun r j => IntOp.addi r (A 2 (edge i j))) 0#32

def cntR (A : Fin 3 → Fin 3200000 → BitVec 32) (i : Fin 100000) : EReal :=
  (((icount A i).toInt : ℝ) : EReal)

def slR (X : Fin 100000 → Fin 512 → EReal) (A : Fin 3 → Fin 3200000 → BitVec 32)
    (QW KW : Fin 16 → Fin 512 → EReal) (i : Fin 100000) (h : Fin 16) : EReal :=
  zero + ∑ j : Fin 32, Ideal.div (score X A QW KW (edge i j) h) (cntR A i + eps6)

/-! ## The shared tail: normalise over the heads, project out -/

section Tail
variable (X : Fin 100000 → Fin 512 → EReal) (QW : Fin 16 → Fin 512 → EReal) (VW : Fin 512 → Fin 16 → EReal)
  (ES : Fin 16 → EReal) (B : Fin 512 → EReal) (sl : Fin 100000 → Fin 16 → EReal)

def sumScore (i : Fin 100000) (h : Fin 16) : EReal := ego X QW ES i h + sl i h

def norm (i : Fin 100000) : EReal := (zero + ∑ h : Fin 16, sumScore X QW ES sl i h) + eps9

def attn (i : Fin 100000) (h : Fin 16) : EReal := Ideal.div (sumScore X QW ES sl i h) (norm X QW ES sl i)

def res (i : Fin 100000) (d : Fin 512) : EReal :=
  (∑ h : Fin 16, attn X QW ES sl i h * nn (VW d h)) + nn (B d)

end Tail

def resK (X : Fin 100000 → Fin 512 → EReal) (A : Fin 3 → Fin 3200000 → BitVec 32)
    (QW KW : Fin 16 → Fin 512 → EReal) (VW : Fin 512 → Fin 16 → EReal) (ES : Fin 16 → EReal) (B : Fin 512 → EReal) :
    Fin 100000 → Fin 512 → EReal :=
  res X QW VW ES B (slK X A QW KW)

def resR (X : Fin 100000 → Fin 512 → EReal) (A : Fin 3 → Fin 3200000 → BitVec 32)
    (QW KW : Fin 16 → Fin 512 → EReal) (VW : Fin 512 → Fin 16 → EReal) (ES : Fin 16 → EReal) (B : Fin 512 → EReal) :
    Fin 100000 → Fin 512 → EReal :=
  res X QW VW ES B (slR X A QW KW)

/-! ## What the two arrangements need to agree -/

/-- The domain on which the two local scores are one number: the mask words are 0 or 1, the target of
    slot `j` of cell `i` is cell `i`, and the entries the embeddings are made of are real numbers. -/
structure Hyp (X : Fin 100000 → Fin 512 → EReal) (A : Fin 3 → Fin 3200000 → BitVec 32)
    (QW KW : Fin 16 → Fin 512 → EReal) : Prop where
  mask01 : ∀ e, A 2 e = 0#32 ∨ A 2 e = 1#32
  target : ∀ (i : Fin 100000) (j : Fin 32), A 1 (edge i j) = BitVec.ofNat 32 i.val
  realX : ∀ i k, ∃ r : ℝ, X i k = (r : EReal)
  realQ : ∀ h k, ∃ r : ℝ, QW h k = (r : EReal)
  realK : ∀ h k, ∃ r : ℝ, KW h k = (r : EReal)

/-! ## Arrays of the printed shapes as functions of coordinates -/

def cur2 {α : Type} {m n : Nat} (a : (⟨2, ![m, n]⟩ : Shape).Idx → α) : Fin m → Fin n → α :=
  fun i j => a (ValueIdx.ix2 i j)

/-- The one row of a `[1, n]` array. -/
def row0 {α : Type} {n : Nat} (a : (⟨2, ![1, n]⟩ : Shape).Idx → α) : Fin n → α :=
  fun j => a (ValueIdx.ix2 (0 : Fin 1) j)

end Cert.Spec

end
-- ==== Proof.SpecK.lean ====
/-
  The attention weights in the first arrangement, as a function of ANY three 16-column arrays: a query
  array Q, a key array K and an ego-score array E. The masked sum of the neighbours' key rows, times the
  cell's own query row, over (the number of unmasked slots + 1e-6); plus the ego score; normalised over
  the sixteen heads. At the three embedding arrays this is the specification's attention.
-/
import proofs.«165512_j43946105373324_1_alg».proof.Proof.Spec

noncomputable section

namespace Cert.Spec

open Idealize.ShloMosaic
open scoped BigOperators

variable (Q K E : Fin 100000 → Fin 16 → EReal) (A : Fin 3 → Fin 3200000 → BitVec 32)

def aggOf (i : Fin 100000) (h : Fin 16) : EReal :=
  zero + ∑ j : Fin 32, K (row (A 0 (edge i j))) h * validf A (edge i j)

def slOf (i : Fin 100000) (h : Fin 16) : EReal :=
  Ideal.div (Q i h * aggOf K A i h) (cntK A i + eps6)

def ssOf (i : Fin 100000) (h : Fin 16) : EReal := E i h + slOf Q K A i h

def attnOf (i : Fin 100000) (h : Fin 16) : EReal :=
  Ideal.div (ssOf Q K E A i h) ((zero + ∑ h' : Fin 16, ssOf Q K E A i h') + eps9)

theorem attnOf_emb (X : Fin 100000 → Fin 512 → EReal) (QW KW : Fin 16 → Fin 512 → EReal) (ES : Fin 16 → EReal)
    (i : Fin 100000) (h : Fin 16) :
    attnOf (emb X QW) (emb X KW) (ego X QW ES) A i h = attn X QW ES (slK X A QW KW) i h := rfl

end Cert.Spec

end
-- ==== Proof.KerOut.lean ====
/-
  The output region of the kernel program, read as one array.

  The region runs over 25 grid points; point t stages rows 4000 t … 4000 t + 3999 of the attention weights
  (16 columns), the whole 16 × 512 projection and the 1 × 512 bias row, and writes back rows
  4000 t … 4000 t + 3999 of the result. The body's one store is a matrix product into a zero accumulator
  plus the bias row broadcast down the rows; on the extended reals that is, entry by entry, the inner
  product of a row with a column plus the bias entry. Every row p lies in block p / 4000, so the blocks
  cover the array, and the array ends as that one function of whatever the three input arrays hold when
  the region is entered.
-/
import proofs.«165512_j43946105373324_1_alg».proof.Proof.Gen.KernelIdeal.Frame
import proofs.«165512_j43946105373324_1_alg».proof.Proof.LibDotCols
import proofs.«165512_j43946105373324_1_alg».proof.Proof.Spec
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.KerValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## The output region: 25 blocks of 4000 rows -/

/-- Row `r` of block `t` is row `4000 t + r` of the array. -/
def rowOf1 (t : Fin cfg1.N) (r : Fin 4000) : Fin 100000 :=
  ⟨t.val * 4000 + r.val, by have h := t.isLt; have hN : cfg1.N = 25 := N_1; omega⟩

/-- What the output array holds: entry `(p, d)` is the inner product of row `p` of the attention weights
    with column `d` of the projection, plus the bias row at `d`. -/
def outG (sa : S100000x16.Idx → EReal) (vw : S16x512.Idx → EReal) (bs : S1x512.Idx → EReal) : S100000x512.Idx → EReal :=
  fun i => (∑ h : Fin 16, sa (ix2 (⟨(i 0).val, (i 0).isLt⟩ : Fin 100000) h) * vw (ix2 h (⟨(i 1).val, (i 1).isLt⟩ : Fin 512)))
    + bs (ix2 (0 : Fin 1) (⟨(i 1).val, (i 1).isLt⟩ : Fin 512))

theorem outG_apply (sa : S100000x16.Idx → EReal) (vw : S16x512.Idx → EReal) (bs : S1x512.Idx → EReal) (p : Fin 100000) (d : Fin 512) :
    outG sa vw bs (ix2 p d) = (∑ h : Fin 16, sa (ix2 p h) * vw (ix2 h d)) + bs (ix2 (0 : Fin 1) d) := rfl

/-- The body's stored value at an entry of its block: the block's row against the projection's column, plus the bias. -/
theorem outPay_apply (x0 : Vec Ideal S4000x16 .f32) (x1 : Vec Ideal S16x512 .bf16) (x2 : Vec Ideal S1x512 .f32) (r : Fin 4000) (d : Fin 512) :
    k1_pay1 (F := Ideal) x0 x1 x2 (ix2 r d) = (∑ h : Fin 16, x0 (ix2 r h) * x1 (ix2 h d)) + x2 (ix2 (0 : Fin 1) d) := by
  unfold k1_pay1
  simp only [shapeCast_self]
  have h1 := Cert.Lib.DotCols.matmul_cols_apply (φ₁ := .bf16) (φ₂ := .bf16) dot_S4000x16_S16x512_S4000x512_1_0_0_1_n_n rfl none (truncf .bf16 x0 bitsLt_bf16_f32) x1 r d
  have h2 := broadcastTo_1b_ab_apply x2 broadcasts_S1x512_S4000x512 r d
  exact congrArg₂ (fun a b : EReal => a + b) h1 h2

/-- The printed index maps over the grid: the row-blocked windows sit at block `(t, 0)`, the whole ones at `(0, 0)`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem blk1_0 (c : Dev nD) (t : Fin cfg1.N) (r : Fin 4000) (h : Fin 16) :
    iblk1 V c 0 t (ix2 r h) = V c main_v55 (ix2 (rowOf1 t r) h) := by
  show V c main_v55 (((cfg1.win 0).blk t).view.emb (ix2 r h)) = _
  refine congrArg (V c main_v55) ?_
  obtain ⟨e0, e1, -⟩ := idx1 t
  funext a; apply Fin.ext
  match a with
  | ⟨0, _⟩ => show win1_0.index t (0 : Fin 2) * 4000 + 1 * r.val = t.val * 4000 + r.val; omega
  | ⟨1, _⟩ => show win1_0.index t (1 : Fin 2) * 16 + 1 * h.val = h.val; omega

theorem blk1_1 (c : Dev nD) (t : Fin cfg1.N) (h : Fin 16) (d : Fin 512) :
    iblk1 V c 1 t (ix2 h d) = V c main_v14 (ix2 h d) := by
  show V c main_v14 (((cfg1.win 1).blk t).view.emb (ix2 h d)) = _
  refine congrArg (V c main_v14) ?_
  obtain ⟨-, -, e2, e3, -⟩ := idx1 t
  funext a; apply Fin.ext
  match a with
  | ⟨0, _⟩ => show win1_1.index t (0 : Fin 2) * 16 + 1 * h.val = h.val; omega
  | ⟨1, _⟩ => show win1_1.index t (1 : Fin 2) * 512 + 1 * d.val = d.val; omega

theorem blk1_2 (c : Dev nD) (t : Fin cfg1.N) (d : Fin 512) :
    iblk1 V c 2 t (ix2 (0 : Fin 1) d) = V c main_v20 (ix2 (0 : Fin 1) d) := by
  show V c main_v20 (((cfg1.win 2).blk t).view.emb (ix2 (0 : Fin 1) d)) = _
  refine congrArg (V c main_v20) ?_
  obtain ⟨-, -, -, -, e4, e5, -⟩ := idx1 t
  funext a; apply Fin.ext
  match a with
  | ⟨0, _⟩ => show win1_2.index t (0 : Fin 2) * 1 + 1 * 0 = 0; omega
  | ⟨1, _⟩ => show win1_2.index t (1 : Fin 2) * 512 + 1 * d.val = d.val; omega

theorem emb1_3 (t : Fin cfg1.N) (r : Fin 4000) (d : Fin 512) :
    ((cfg1.win 3).blk t).view.emb (ix2 r d) = ix2 (rowOf1 t r) d := by
  obtain ⟨-, -, -, -, -, -, e6, e7⟩ := idx1 t
  funext a; apply Fin.ext
  match a with
  | ⟨0, _⟩ => show win1_3.index t (0 : Fin 2) * 4000 + 1 * r.val = t.val * 4000 + r.val; omega
  | ⟨1, _⟩ => show win1_3.index t (1 : Fin 2) * 512 + 1 * d.val = d.val; omega

/-- What point `t` writes back is block `t` of `outG` of the arrays the region finds. -/
theorem flushed_out (c : Dev nD) (t : Fin cfg1.N) :
    (dat1 V c).flushed 3 t = ((cfg1.win 3).blk t).view.read (Elt Ideal) (outG (V c main_v55) (V c main_v14) (V c main_v20)) := by
  show (cfg1.win 3).cut (grid1.coords t) ((dat1 V c).after 3 t) = _
  rw [after1_3]
  unfold out1_3
  rw [View.canon_unit_zero hz]
  simp only [View.ld_unit_zero (S := S4000x16) hz, View.ld_unit_zero (S := S16x512) hz, View.ld_unit_zero (S := S1x512) hz]
  funext j
  obtain ⟨r, d, rfl⟩ : ∃ (r : Fin 4000) (d : Fin 512), j = ix2 r d := ⟨j 0, j 1, eq_ix2 j⟩
  show k1_pay1 (iblk1 V c 0 t) (iblk1 V c 1 t) (iblk1 V c 2 t) (ix2 r d)
    = outG (V c main_v55) (V c main_v14) (V c main_v20) (((cfg1.win 3).blk t).view.emb (ix2 r d))
  rw [emb1_3 t r d, outG_apply]
  refine (outPay_apply _ _ _ r d).trans ?_
  simp only [blk1_0 V c t, blk1_1 V c t, blk1_2 V c t]

theorem mem_blk1_3 (t : Fin cfg1.N) (i : S100000x512.Idx) :
    i ∈ ((cfg1.win 3).blk t).view.set ↔ ∀ a : Fin 2, win1_3.index t a * S4000x512.size a ≤ (i a).val ∧ (i a).val < win1_3.index t a * S4000x512.size a + S4000x512.size a := by
  show i ∈ ((View.whole main_v56).slice (win1_3.rect t)).set ↔ _
  rw [View.set_slice_whole, Rect.mem_set_unit]
  exact Iff.rfl

/-- Row `p` lies in block `p / 4000`. -/
theorem cover1_3' (i : S100000x512.Idx) : ∃ t : Fin cfg1.N, (cfg1.win 3).flush t = true ∧ i ∈ ((cfg1.win 3).blk t).view.set := by
  have hi0 : (i 0).val < 100000 := (i 0).isLt
  have hi1 : (i 1).val < 512 := (i 1).isLt
  have hN : cfg1.N = 25 := N_1
  have ht : (i 0).val / 4000 < cfg1.N := by omega
  obtain ⟨-, -, -, -, -, -, e6, e7⟩ := idx1 ⟨(i 0).val / 4000, ht⟩
  refine ⟨⟨(i 0).val / 4000, ht⟩, flush1_3 _, ?_⟩
  rw [mem_blk1_3]
  intro a
  match a with
  | ⟨0, _⟩ =>
    show win1_3.index ⟨(i 0).val / 4000, ht⟩ (0 : Fin 2) * 4000 ≤ (i 0).val ∧ (i 0).val < win1_3.index ⟨(i 0).val / 4000, ht⟩ (0 : Fin 2) * 4000 + 4000
    rw [e6]; show (i 0).val / 4000 * 4000 ≤ (i 0).val ∧ (i 0).val < (i 0).val / 4000 * 4000 + 4000; omega
  | ⟨1, _⟩ =>
    show win1_3.index ⟨(i 0).val / 4000, ht⟩ (1 : Fin 2) * 512 ≤ (i 1).val ∧ (i 1).val < win1_3.index ⟨(i 0).val / 4000, ht⟩ (1 : Fin 2) * 512 + 512
    rw [e7]; omega

/-- The output array after the region. -/
theorem final_out (c : Dev nD) : (dat1 V c).arrAt 3 cfg1.N = outG (V c main_v55) (V c main_v14) (V c main_v20) :=
  (dat1 V c).arrAt_eq_of_cover 3 _ (fun t _ => flushed_out V c t) cover1_3'

end Cert.KernelIdeal.KerValue
end
-- ==== Proof.KerEmb.lean ====
/-
  The embedding region of the kernel program, read as three arrays.

  The region runs over 25 grid points; point t stages rows 4000 t … 4000 t + 3999 of the features (512
  columns), the two 512 × 16 weights (already transformed and transposed on the host) and the 1 × 16 ego
  scale row, and writes back the same rows of three 16-column arrays: the query embedding, the key
  embedding and the ego score. Each embedding entry is a row of the features against a column of a weight,
  times the literal 1/512; the ego score is the query embedding squared times the scale row's entry.
  Row p lies in block p / 4000, so the blocks cover each array, and the arrays end as these functions of
  what the four input arrays hold when the region is entered.
-/
import proofs.«165512_j43946105373324_1_alg».proof.Proof.Gen.KernelIdeal.Frame
import proofs.«165512_j43946105373324_1_alg».proof.Proof.LibDotCols
import proofs.«165512_j43946105373324_1_alg».proof.Proof.Spec
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.KerValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

/-! ## The embedding region: 25 blocks of 4000 rows, three outputs -/

def rowOf0 (t : Fin cfg0.N) (r : Fin 4000) : Fin 100000 :=
  ⟨t.val * 4000 + r.val, by have h := t.isLt; have hN : cfg0.N = 25 := N_0; omega⟩

/-- An embedding array: entry `(p, h)` is row `p` of the features against column `h` of the (transposed) weight,
    times 1/512. -/
def embG (x : S100000x512.Idx → EReal) (w : S512x16.Idx → EReal) : S100000x16.Idx → EReal :=
  fun i => (∑ k : Fin 512, x (ix2 (⟨(i 0).val, (i 0).isLt⟩ : Fin 100000) k) * w (ix2 k (⟨(i 1).val, (i 1).isLt⟩ : Fin 16))) * Cert.Spec.inv512

theorem embG_apply (x : S100000x512.Idx → EReal) (w : S512x16.Idx → EReal) (p : Fin 100000) (h : Fin 16) :
    embG x w (ix2 p h) = (∑ k : Fin 512, x (ix2 p k) * w (ix2 k h)) * Cert.Spec.inv512 := rfl

/-- The ego score array: the query embedding squared, times the scale row. -/
def egoG (x : S100000x512.Idx → EReal) (w : S512x16.Idx → EReal) (es : S1x16.Idx → EReal) : S100000x16.Idx → EReal :=
  fun i => (embG x w i * embG x w i) * es (ix2 (0 : Fin 1) (⟨(i 1).val, (i 1).isLt⟩ : Fin 16))

theorem egoG_apply (x : S100000x512.Idx → EReal) (w : S512x16.Idx → EReal) (es : S1x16.Idx → EReal) (p : Fin 100000) (h : Fin 16) :
    egoG x w es (ix2 p h) = (embG x w (ix2 p h) * embG x w (ix2 p h)) * es (ix2 (0 : Fin 1) h) := rfl

/-- The body's embedding payload at an entry of its block. -/
theorem embPay_apply (v0 : Vec Ideal S4000x512 .f32) (v2 : Vec Ideal S512x16 .bf16) (r : Fin 4000) (h : Fin 16) :
    k0_pay2 (F := Ideal) v0 v2 (ix2 r h) = (∑ k : Fin 512, v0 (ix2 r k) * v2 (ix2 k h)) * Cert.Spec.inv512 := by
  unfold k0_pay2 k0_pay1
  simp only [shapeCast_self]
  have h1 := Cert.Lib.DotCols.matmul_cols_apply (φ₁ := .bf16) (φ₂ := .bf16) dot_S4000x512_S512x16_S4000x16_1_0_0_1_n_n rfl none (truncf .bf16 v0 bitsLt_bf16_f32) v2 r h
  exact congrArg (fun a : EReal => a * Cert.Spec.inv512) h1

theorem embPay3_apply (v0 : Vec Ideal S4000x512 .f32) (v7 : Vec Ideal S512x16 .bf16) (r : Fin 4000) (h : Fin 16) :
    k0_pay3 (F := Ideal) v0 v7 (ix2 r h) = (∑ k : Fin 512, v0 (ix2 r k) * v7 (ix2 k h)) * Cert.Spec.inv512 := by
  unfold k0_pay3 k0_pay1
  simp only [shapeCast_self]
  have h1 := Cert.Lib.DotCols.matmul_cols_apply (φ₁ := .bf16) (φ₂ := .bf16) dot_S4000x512_S512x16_S4000x16_1_0_0_1_n_n rfl none (truncf .bf16 v0 bitsLt_bf16_f32) v7 r h
  exact congrArg (fun a : EReal => a * Cert.Spec.inv512) h1

theorem egoPay_apply (v0 : Vec Ideal S4000x512 .f32) (v2 : Vec Ideal S512x16 .bf16) (v15 : Vec Ideal S1x16 .f32) (r : Fin 4000) (h : Fin 16) :
    k0_pay4 (F := Ideal) v0 v2 v15 (ix2 r h)
      = (((∑ k : Fin 512, v0 (ix2 r k) * v2 (ix2 k h)) * Cert.Spec.inv512) * ((∑ k : Fin 512, v0 (ix2 r k) * v2 (ix2 k h)) * Cert.Spec.inv512)) * v15 (ix2 (0 : Fin 1) h) := by
  unfold k0_pay4
  simp only [shapeCast_self]
  have h1 := embPay_apply v0 v2 r h
  have h2 := broadcastTo_1b_ab_apply v15 broadcasts_S1x16_S4000x16 r h
  exact congrArg₂ (fun a b : EReal => (a * a) * b) h1 h2

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem blk0_0 (c : Dev nD) (t : Fin cfg0.N) (r : Fin 4000) (k : Fin 512) :
    iblk0 V c 0 t (ix2 r k) = V c main_arg0 (ix2 (rowOf0 t r) k) := by
  show V c main_arg0 (((cfg0.win 0).blk t).view.emb (ix2 r k)) = _
  refine congrArg (V c main_arg0) ?_
  have e := idx0 t
  funext a; apply Fin.ext
  match a with
  | ⟨0, _⟩ => show win0_0.index t (0 : Fin 2) * 4000 + 1 * r.val = t.val * 4000 + r.val; omega
  | ⟨1, _⟩ => show win0_0.index t (1 : Fin 2) * 512 + 1 * k.val = k.val; omega

theorem blk0_1 (c : Dev nD) (t : Fin cfg0.N) (k : Fin 512) (h : Fin 16) :
    iblk0 V c 1 t (ix2 k h) = V c main_v4 (ix2 k h) := by
  show V c main_v4 (((cfg0.win 1).blk t).view.emb (ix2 k h)) = _
  refine congrArg (V c main_v4) ?_
  have e := idx0 t
  funext a; apply Fin.ext
  match a with
  | ⟨0, _⟩ => show win0_1.index t (0 : Fin 2) * 512 + 1 * k.val = k.val; omega
  | ⟨1, _⟩ => show win0_1.index t (1 : Fin 2) * 16 + 1 * h.val = h.val; omega

theorem blk0_2 (c : Dev nD) (t : Fin cfg0.N) (k : Fin 512) (h : Fin 16) :
    iblk0 V c 2 t (ix2 k h) = V c main_v9 (ix2 k h) := by
  show V c main_v9 (((cfg0.win 2).blk t).view.emb (ix2 k h)) = _
  refine congrArg (V c main_v9) ?_
  have e := idx0 t
  funext a; apply Fin.ext
  match a with
  | ⟨0, _⟩ => show win0_2.index t (0 : Fin 2) * 512 + 1 * k.val = k.val; omega
  | ⟨1, _⟩ => show win0_2.index t (1 : Fin 2) * 16 + 1 * h.val = h.val; omega

theorem blk0_3 (c : Dev nD) (t : Fin cfg0.N) (h : Fin 16) :
    iblk0 V c 3 t (ix2 (0 : Fin 1) h) = V c main_v17 (ix2 (0 : Fin 1) h) := by
  show V c main_v17 (((cfg0.win 3).blk t).view.emb (ix2 (0 : Fin 1) h)) = _
  refine congrArg (V c main_v17) ?_
  have e := idx0 t
  funext a; apply Fin.ext
  match a with
  | ⟨0, _⟩ => show win0_3.index t (0 : Fin 2) * 1 + 1 * 0 = 0; omega
  | ⟨1, _⟩ => show win0_3.index t (1 : Fin 2) * 16 + 1 * h.val = h.val; omega

theorem emb0_4 (t : Fin cfg0.N) (r : Fin 4000) (h : Fin 16) :
    ((cfg0.win 4).blk t).view.emb (ix2 r h) = ix2 (rowOf0 t r) h := by
  have e := idx0 t
  funext a; apply Fin.ext
  match a with
  | ⟨0, _⟩ => show win0_4.index t (0 : Fin 2) * 4000 + 1 * r.val = t.val * 4000 + r.val; omega
  | ⟨1, _⟩ => show win0_4.index t (1 : Fin 2) * 16 + 1 * h.val = h.val; omega

theorem mem_blk0_4 (t : Fin cfg0.N) (i : S100000x16.Idx) :
    i ∈ ((cfg0.win 4).blk t).view.set ↔ ∀ a : Fin 2, win0_4.index t a * S4000x16.size a ≤ (i a).val ∧ (i a).val < win0_4.index t a * S4000x16.size a + S4000x16.size a := by
  show i ∈ ((View.whole main_v21_0).slice (win0_4.rect t)).set ↔ _
  rw [View.set_slice_whole, Rect.mem_set_unit]
  exact Iff.rfl

theorem cover0_4' (i : S100000x16.Idx) : ∃ t : Fin cfg0.N, (cfg0.win 4).flush t = true ∧ i ∈ ((cfg0.win 4).blk t).view.set := by
  have hi0 : (i 0).val < 100000 := (i 0).isLt
  have hi1 : (i 1).val < 16 := (i 1).isLt
  have hN : cfg0.N = 25 := N_0
  have ht : (i 0).val / 4000 < cfg0.N := by omega
  obtain ⟨-, -, -, -, -, -, -, -, a4, b4, a5, b5, a6, b6⟩ := idx0 ⟨(i 0).val / 4000, ht⟩
  refine ⟨⟨(i 0).val / 4000, ht⟩, flush0_4 _, ?_⟩
  rw [mem_blk0_4]
  intro a
  match a with
  | ⟨0, _⟩ =>
    show win0_4.index ⟨(i 0).val / 4000, ht⟩ (0 : Fin 2) * 4000 ≤ (i 0).val ∧ (i 0).val < win0_4.index ⟨(i 0).val / 4000, ht⟩ (0 : Fin 2) * 4000 + 4000
    rw [a4]; show (i 0).val / 4000 * 4000 ≤ (i 0).val ∧ (i 0).val < (i 0).val / 4000 * 4000 + 4000; omega
  | ⟨1, _⟩ =>
    show win0_4.index ⟨(i 0).val / 4000, ht⟩ (1 : Fin 2) * 16 ≤ (i 1).val ∧ (i 1).val < win0_4.index ⟨(i 0).val / 4000, ht⟩ (1 : Fin 2) * 16 + 16
    rw [b4]; omega

theorem emb0_5 (t : Fin cfg0.N) (r : Fin 4000) (h : Fin 16) :
    ((cfg0.win 5).blk t).view.emb (ix2 r h) = ix2 (rowOf0 t r) h := by
  have e := idx0 t
  funext a; apply Fin.ext
  match a with
  | ⟨0, _⟩ => show win0_5.index t (0 : Fin 2) * 4000 + 1 * r.val = t.val * 4000 + r.val; omega
  | ⟨1, _⟩ => show win0_5.index t (1 : Fin 2) * 16 + 1 * h.val = h.val; omega

theorem mem_blk0_5 (t : Fin cfg0.N) (i : S100000x16.Idx) :
    i ∈ ((cfg0.win 5).blk t).view.set ↔ ∀ a : Fin 2, win0_5.index t a * S4000x16.size a ≤ (i a).val ∧ (i a).val < win0_5.index t a * S4000x16.size a + S4000x16.size a := by
  show i ∈ ((View.whole main_v21_1).slice (win0_5.rect t)).set ↔ _
  rw [View.set_slice_whole, Rect.mem_set_unit]
  exact Iff.rfl

theorem cover0_5' (i : S100000x16.Idx) : ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 25 := N_0
  have ht : (i 0).val / 4000 < cfg0.N := by omega
  obtain ⟨-, -, -, -, -, -, -, -, a4, b4, a5, b5, a6, b6⟩ := idx0 ⟨(i 0).val / 4000, ht⟩
  refine ⟨⟨(i 0).val / 4000, ht⟩, flush0_5 _, ?_⟩
  rw [mem_blk0_5]
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [a5]; show (i 0).val / 4000 * 4000 ≤ (i 0).val ∧ (i 0).val < (i 0).val / 4000 * 4000 + 4000; omega
  | ⟨1, _⟩ =>
    show win0_5.index ⟨(i 0).val / 4000, ht⟩ (1 : Fin 2) * 16 ≤ (i 1).val ∧ (i 1).val < win0_5.index ⟨(i 0).val / 4000, ht⟩ (1 : Fin 2) * 16 + 16
    rw [b5]; omega

theorem emb0_6 (t : Fin cfg0.N) (r : Fin 4000) (h : Fin 16) :
    ((cfg0.win 6).blk t).view.emb (ix2 r h) = ix2 (rowOf0 t r) h := by
  have e := idx0 t
  funext a; apply Fin.ext
  match a with
  | ⟨0, _⟩ => show win0_6.index t (0 : Fin 2) * 4000 + 1 * r.val = t.val * 4000 + r.val; omega
  | ⟨1, _⟩ => show win0_6.index t (1 : Fin 2) * 16 + 1 * h.val = h.val; omega

theorem mem_blk0_6 (t : Fin cfg0.N) (i : S100000x16.Idx) :
    i ∈ ((cfg0.win 6).blk t).view.set ↔ ∀ a : Fin 2, win0_6.index t a * S4000x16.size a ≤ (i a).val ∧ (i a).val < win0_6.index t a * S4000x16.size a + S4000x16.size a := by
  show i ∈ ((View.whole main_v21_2).slice (win0_6.rect t)).set ↔ _
  rw [View.set_slice_whole, Rect.mem_set_unit]
  exact Iff.rfl

theorem cover0_6' (i : S100000x16.Idx) : ∃ t : Fin cfg0.N, (cfg0.win 6).flush t = true ∧ i ∈ ((cfg0.win 6).blk t).view.set := by
  have hi0 : (i 0).val < 100000 := (i 0).isLt
  have hi1 : (i 1).val < 16 := (i 1).isLt
  have hN : cfg0.N = 25 := N_0
  have ht : (i 0).val / 4000 < cfg0.N := by omega
  obtain ⟨-, -, -, -, -, -, -, -, a4, b4, a5, b5, a6, b6⟩ := idx0 ⟨(i 0).val / 4000, ht⟩
  refine ⟨⟨(i 0).val / 4000, ht⟩, flush0_6 _, ?_⟩
  rw [mem_blk0_6]
  intro a
  match a with
  | ⟨0, _⟩ =>
    show win0_6.index ⟨(i 0).val / 4000, ht⟩ (0 : Fin 2) * 4000 ≤ (i 0).val ∧ (i 0).val < win0_6.index ⟨(i 0).val / 4000, ht⟩ (0 : Fin 2) * 4000 + 4000
    rw [a6]; show (i 0).val / 4000 * 4000 ≤ (i 0).val ∧ (i 0).val < (i 0).val / 4000 * 4000 + 4000; omega
  | ⟨1, _⟩ =>
    show win0_6.index ⟨(i 0).val / 4000, ht⟩ (1 : Fin 2) * 16 ≤ (i 1).val ∧ (i 1).val < win0_6.index ⟨(i 0).val / 4000, ht⟩ (1 : Fin 2) * 16 + 16
    rw [b6]; omega

/-- What point `t` writes back to the query-embedding array. -/
theorem flushed_q (c : Dev nD) (t : Fin cfg0.N) :
    (dat0 V c).flushed 4 t = ((cfg0.win 4).blk t).view.read (Elt Ideal) (embG (V c main_arg0) (V c main_v4)) := by
  show (cfg0.win 4).cut (grid0.coords t) ((dat0 V c).after 4 t) = _
  rw [after0_4]
  unfold out0_4
  rw [View.canon_unit_zero hz0]
  simp only [View.ld_unit_zero (S := S4000x512) hz0, View.ld_unit_zero (S := S512x16) hz0]
  funext j
  obtain ⟨r, h, rfl⟩ : ∃ (r : Fin 4000) (h : Fin 16), j = ix2 r h := ⟨j 0, j 1, eq_ix2 j⟩
  show k0_pay2 (iblk0 V c 0 t) (iblk0 V c 1 t) (ix2 r h)
    = embG (V c main_arg0) (V c main_v4) (((cfg0.win 4).blk t).view.emb (ix2 r h))
  rw [emb0_4 t r h, embG_apply]
  refine (embPay_apply _ _ r h).trans ?_
  simp only [blk0_0 V c t, blk0_1 V c t]

/-- … to the key-embedding array. -/
theorem flushed_k (c : Dev nD) (t : Fin cfg0.N) :
    (dat0 V c).flushed 5 t = ((cfg0.win 5).blk t).view.read (Elt Ideal) (embG (V c main_arg0) (V c main_v9)) := by
  show (cfg0.win 5).cut (grid0.coords t) ((dat0 V c).after 5 t) = _
  rw [after0_5]
  unfold out0_5
  rw [View.canon_unit_zero hz0]
  simp only [View.ld_unit_zero (S := S4000x512) hz0, View.ld_unit_zero (S := S512x16) hz0]
  funext j
  obtain ⟨r, h, rfl⟩ : ∃ (r : Fin 4000) (h : Fin 16), j = ix2 r h := ⟨j 0, j 1, eq_ix2 j⟩
  show k0_pay3 (iblk0 V c 0 t) (iblk0 V c 2 t) (ix2 r h)
    = embG (V c main_arg0) (V c main_v9) (((cfg0.win 5).blk t).view.emb (ix2 r h))
  rw [emb0_5 t r h, embG_apply]
  refine (embPay3_apply _ _ r h).trans ?_
  simp only [blk0_0 V c t, blk0_2 V c t]

/-- … to the ego-score array. -/
theorem flushed_ego (c : Dev nD) (t : Fin cfg0.N) :
    (dat0 V c).flushed 6 t = ((cfg0.win 6).blk t).view.read (Elt Ideal) (egoG (V c main_arg0) (V c main_v4) (V c main_v17)) := by
  show (cfg0.win 6).cut (grid0.coords t) ((dat0 V c).after 6 t) = _
  rw [after0_6]
  unfold out0_6
  rw [View.canon_unit_zero hz0]
  simp only [View.ld_unit_zero (S := S4000x512) hz0, View.ld_unit_zero (S := S512x16) hz0, View.ld_unit_zero (S := S1x16) hz0]
  funext j
  obtain ⟨r, h, rfl⟩ : ∃ (r : Fin 4000) (h : Fin 16), j = ix2 r h := ⟨j 0, j 1, eq_ix2 j⟩
  show k0_pay4 (iblk0 V c 0 t) (iblk0 V c 1 t) (iblk0 V c 3 t) (ix2 r h)
    = egoG (V c main_arg0) (V c main_v4) (V c main_v17) (((cfg0.win 6).blk t).view.emb (ix2 r h))
  rw [emb0_6 t r h, egoG_apply, embG_apply]
  refine (egoPay_apply _ _ _ r h).trans ?_
  simp only [blk0_0 V c t, blk0_1 V c t, blk0_3 V c t]

/-- The three arrays after the region. -/
theorem final_q (c : Dev nD) : (dat0 V c).arrAt 4 cfg0.N = embG (V c main_arg0) (V c main_v4) :=
  (dat0 V c).arrAt_eq_of_cover 4 _ (fun t _ => flushed_q V c t) cover0_4'
theorem final_k (c : Dev nD) : (dat0 V c).arrAt 5 cfg0.N = embG (V c main_arg0) (V c main_v9) :=
  (dat0 V c).arrAt_eq_of_cover 5 _ (fun t _ => flushed_k V c t) cover0_5'
theorem final_ego (c : Dev nD) : (dat0 V c).arrAt 6 cfg0.N = egoG (V c main_arg0) (V c main_v4) (V c main_v17) :=
  (dat0 V c).arrAt_eq_of_cover 6 _ (fun t _ => flushed_ego V c t) cover0_6'

end Cert.KernelIdeal.KerValue
end
-- ==== Proof.KerHostPre.lean ====
/-
  The host operations of the kernel program before its first region, read at the buffers the regions use.

  Ten stretches: for each of the five parameter arrays a call of elu (fifteen operations) followed by the
  addition of a broadcast one, and for the three weights a transposition and a change of float format
  (the identity on the extended reals). A stretch writes only its own intermediate and result buffers,
  so a buffer written earlier, or an argument, is found unchanged by every later stretch. Entry by entry
  the transformed arrays are the scalar function `nn` (elu + 1) of the parameter's entry, the
  weights at transposed coordinates.
-/
import proofs.«165512_j43946105373324_1_alg».proof.Proof.Gen.KernelIdeal.Frame
import proofs.«165512_j43946105373324_1_alg».proof.Proof.LibDotCols
import proofs.«165512_j43946105373324_1_alg».proof.Proof.Spec
import Idealize.ShloMosaic.Lib.ValueLayout
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.KerValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

open Idealize.ShloMosaic.StableHlo

/-! ## The transform `elu + 1` as the host spells it, at any shape -/

/-- `elu`: two comparisons with a broadcast zero, the inner choice, `exp − 1`, a product with a broadcast one, the outer choice. -/
def eluV {S : Shape} (hb : S_.BroadcastsInDim S ![]) (x : S.Idx → EReal) : S.Idx → EReal :=
  select (cmpf (F := Ideal) (φ := .f32) .ogt x (broadcastInDim S ![] hb (constant (F := Ideal) S_ .f32 0x00000000#32))) x
    (mulf (F := Ideal) (φ := .f32) (broadcastInDim S ![] hb (constant (F := Ideal) S_ .f32 0x3F800000#32))
      (Host.expm1 (F := Ideal) (φ := .f32) (select (cmpf (F := Ideal) (φ := .f32) .ogt x (broadcastInDim S ![] hb (constant (F := Ideal) S_ .f32 0x00000000#32)))
        (broadcastInDim S ![] hb (constant (F := Ideal) S_ .f32 0x00000000#32)) x)))

theorem eluV_apply {S : Shape} (hb : S_.BroadcastsInDim S ![]) (x : S.Idx → EReal) (i : S.Idx) :
    eluV hb x i = Cert.Spec.elu (x i) := rfl

/-- `elu + 1`. -/
def nnV {S : Shape} (hb : S_.BroadcastsInDim S ![]) (x : S.Idx → EReal) : S.Idx → EReal :=
  addf (F := Ideal) (φ := .f32) (eluV hb x) (broadcastInDim S ![] hb (constant (F := Ideal) S_ .f32 0x3F800000#32))

theorem nnV_apply {S : Shape} (hb : S_.BroadcastsInDim S ![]) (x : S.Idx → EReal) (i : S.Idx) :
    nnV hb x i = Cert.Spec.nn (x i) := rfl

/-- A 16 × 512 weight transformed and transposed to 512 × 16 (the change of float format is the identity). -/
def wT (x : S16x512.Idx → EReal) : S512x16.Idx → EReal :=
  truncf (F := Ideal) .bf16 (transpose S512x16 [1, 0] (nnV bcast_S_S16x512 x) transposes_S16x512_S512x16_1_0) bitsLt_bf16_f32

theorem wT_apply (x : S16x512.Idx → EReal) (k : Fin 512) (h : Fin 16) : wT x (ix2 k h) = Cert.Spec.nn (x (ix2 h k)) :=
  (transpose_ix2_apply (nnV bcast_S_S16x512 x) transposes_S16x512_S512x16_1_0 k h).trans (nnV_apply _ _ _)

/-- The 512 × 16 projection weight transformed and transposed to 16 × 512. -/
def vT (x : S512x16.Idx → EReal) : S16x512.Idx → EReal :=
  truncf (F := Ideal) .bf16 (transpose S16x512 [1, 0] (nnV bcast_S_S512x16 x) transposes_S512x16_S16x512_1_0) bitsLt_bf16_f32

theorem vT_apply (x : S512x16.Idx → EReal) (h : Fin 16) (d : Fin 512) : vT x (ix2 h d) = Cert.Spec.nn (x (ix2 d h)) :=
  (transpose_ix2_apply (nnV bcast_S_S512x16 x) transposes_S512x16_S16x512_1_0 h d).trans (nnV_apply _ _ _)

/-! ## Each stretch of host operations, from any contents `Wk` -/

section Stretches
variable (Wk : Valuation τ sig (Elt Ideal))

theorem elu0 : StableHlo.after (hostOps0 (F := Ideal)) Wk (Proc.devRef .tc main_v0) = eluV bcast_S_S16x512 (Wk (Proc.devRef .tc main_arg2)) := by
  after_results; rfl
theorem tail1 : StableHlo.after (hostOps0_1 (F := Ideal)) Wk (Proc.devRef .tc main_v4)
    = truncf (F := Ideal) .bf16 (transpose S512x16 [1, 0] (addf (F := Ideal) (φ := .f32) (Wk (Proc.devRef .tc main_v0)) (broadcastInDim S16x512 ![] bcast_S_S16x512 (constant (F := Ideal) S_ .f32 0x3F800000#32))) transposes_S16x512_S512x16_1_0) bitsLt_bf16_f32 := by
  after_results
theorem elu2 : StableHlo.after (hostOps0_2 (F := Ideal)) Wk (Proc.devRef .tc main_v5) = eluV bcast_S_S16x512 (Wk (Proc.devRef .tc main_arg3)) := by
  after_results; rfl
theorem tail3 : StableHlo.after (hostOps0_3 (F := Ideal)) Wk (Proc.devRef .tc main_v9)
    = truncf (F := Ideal) .bf16 (transpose S512x16 [1, 0] (addf (F := Ideal) (φ := .f32) (Wk (Proc.devRef .tc main_v5)) (broadcastInDim S16x512 ![] bcast_S_S16x512 (constant (F := Ideal) S_ .f32 0x3F800000#32))) transposes_S16x512_S512x16_1_0) bitsLt_bf16_f32 := by
  after_results
theorem elu4 : StableHlo.after (hostOps0_4 (F := Ideal)) Wk (Proc.devRef .tc main_v10) = eluV bcast_S_S512x16 (Wk (Proc.devRef .tc main_arg4)) := by
  after_results; rfl
theorem tail5 : StableHlo.after (hostOps0_5 (F := Ideal)) Wk (Proc.devRef .tc main_v14)
    = truncf (F := Ideal) .bf16 (transpose S16x512 [1, 0] (addf (F := Ideal) (φ := .f32) (Wk (Proc.devRef .tc main_v10)) (broadcastInDim S512x16 ![] bcast_S_S512x16 (constant (F := Ideal) S_ .f32 0x3F800000#32))) transposes_S512x16_S16x512_1_0) bitsLt_bf16_f32 := by
  after_results
theorem elu6 : StableHlo.after (hostOps0_6 (F := Ideal)) Wk (Proc.devRef .tc main_v15) = eluV bcast_S_S1x16 (Wk (Proc.devRef .tc main_arg5)) := by
  after_results; rfl
theorem tail7 : StableHlo.after (hostOps0_7 (F := Ideal)) Wk (Proc.devRef .tc main_v17)
    = addf (F := Ideal) (φ := .f32) (Wk (Proc.devRef .tc main_v15)) (broadcastInDim S1x16 ![] bcast_S_S1x16 (constant (F := Ideal) S_ .f32 0x3F800000#32)) := by
  after_results
theorem elu8 : StableHlo.after (hostOps0_8 (F := Ideal)) Wk (Proc.devRef .tc main_v18) = eluV bcast_S_S1x512 (Wk (Proc.devRef .tc main_arg6)) := by
  after_results; rfl
theorem tail9 : StableHlo.after (hostOps0_9 (F := Ideal)) Wk (Proc.devRef .tc main_v20)
    = addf (F := Ideal) (φ := .f32) (Wk (Proc.devRef .tc main_v18)) (broadcastInDim S1x512 ![] bcast_S_S1x512 (constant (F := Ideal) S_ .f32 0x3F800000#32)) := by
  after_results

/-! A buffer a stretch does not write keeps its contents. -/
theorem skip0_arg0 : StableHlo.after (hostOps0 (F := Ideal)) Wk (Proc.devRef .tc main_arg0) = Wk (Proc.devRef .tc main_arg0) := by after_results
theorem skip1_arg0 : StableHlo.after (hostOps0_1 (F := Ideal)) Wk (Proc.devRef .tc main_arg0) = Wk (Proc.devRef .tc main_arg0) := by after_results
theorem skip2_arg0 : StableHlo.after (hostOps0_2 (F := Ideal)) Wk (Proc.devRef .tc main_arg0) = Wk (Proc.devRef .tc main_arg0) := by after_results
theorem skip3_arg0 : StableHlo.after (hostOps0_3 (F := Ideal)) Wk (Proc.devRef .tc main_arg0) = Wk (Proc.devRef .tc main_arg0) := by after_results
theorem skip4_arg0 : StableHlo.after (hostOps0_4 (F := Ideal)) Wk (Proc.devRef .tc main_arg0) = Wk (Proc.devRef .tc main_arg0) := by after_results
theorem skip5_arg0 : StableHlo.after (hostOps0_5 (F := Ideal)) Wk (Proc.devRef .tc main_arg0) = Wk (Proc.devRef .tc main_arg0) := by after_results
theorem skip6_arg0 : StableHlo.after (hostOps0_6 (F := Ideal)) Wk (Proc.devRef .tc main_arg0) = Wk (Proc.devRef .tc main_arg0) := by after_results
theorem skip7_arg0 : StableHlo.after (hostOps0_7 (F := Ideal)) Wk (Proc.devRef .tc main_arg0) = Wk (Proc.devRef .tc main_arg0) := by after_results
theorem skip8_arg0 : StableHlo.after (hostOps0_8 (F := Ideal)) Wk (Proc.devRef .tc main_arg0) = Wk (Proc.devRef .tc main_arg0) := by after_results
theorem skip9_arg0 : StableHlo.after (hostOps0_9 (F := Ideal)) Wk (Proc.devRef .tc main_arg0) = Wk (Proc.devRef .tc main_arg0) := by after_results
theorem skip0_arg1 : StableHlo.after (hostOps0 (F := Ideal)) Wk (Proc.devRef .tc main_arg1) = Wk (Proc.devRef .tc main_arg1) := by after_results
theorem skip1_arg1 : StableHlo.after (hostOps0_1 (F := Ideal)) Wk (Proc.devRef .tc main_arg1) = Wk (Proc.devRef .tc main_arg1) := by after_results
theorem skip2_arg1 : StableHlo.after (hostOps0_2 (F := Ideal)) Wk (Proc.devRef .tc main_arg1) = Wk (Proc.devRef .tc main_arg1) := by after_results
theorem skip3_arg1 : StableHlo.after (hostOps0_3 (F := Ideal)) Wk (Proc.devRef .tc main_arg1) = Wk (Proc.devRef .tc main_arg1) := by after_results
theorem skip4_arg1 : StableHlo.after (hostOps0_4 (F := Ideal)) Wk (Proc.devRef .tc main_arg1) = Wk (Proc.devRef .tc main_arg1) := by after_results
theorem skip5_arg1 : StableHlo.after (hostOps0_5 (F := Ideal)) Wk (Proc.devRef .tc main_arg1) = Wk (Proc.devRef .tc main_arg1) := by after_results
theorem skip6_arg1 : StableHlo.after (hostOps0_6 (F := Ideal)) Wk (Proc.devRef .tc main_arg1) = Wk (Proc.devRef .tc main_arg1) := by after_results
theorem skip7_arg1 : StableHlo.after (hostOps0_7 (F := Ideal)) Wk (Proc.devRef .tc main_arg1) = Wk (Proc.devRef .tc main_arg1) := by after_results
theorem skip8_arg1 : StableHlo.after (hostOps0_8 (F := Ideal)) Wk (Proc.devRef .tc main_arg1) = Wk (Proc.devRef .tc main_arg1) := by after_results
theorem skip9_arg1 : StableHlo.after (hostOps0_9 (F := Ideal)) Wk (Proc.devRef .tc main_arg1) = Wk (Proc.devRef .tc main_arg1) := by after_results
theorem skip2_v4 : StableHlo.after (hostOps0_2 (F := Ideal)) Wk (Proc.devRef .tc main_v4) = Wk (Proc.devRef .tc main_v4) := by after_results
theorem skip3_v4 : StableHlo.after (hostOps0_3 (F := Ideal)) Wk (Proc.devRef .tc main_v4) = Wk (Proc.devRef .tc main_v4) := by after_results
theorem skip4_v4 : StableHlo.after (hostOps0_4 (F := Ideal)) Wk (Proc.devRef .tc main_v4) = Wk (Proc.devRef .tc main_v4) := by after_results
theorem skip5_v4 : StableHlo.after (hostOps0_5 (F := Ideal)) Wk (Proc.devRef .tc main_v4) = Wk (Proc.devRef .tc main_v4) := by after_results
theorem skip6_v4 : StableHlo.after (hostOps0_6 (F := Ideal)) Wk (Proc.devRef .tc main_v4) = Wk (Proc.devRef .tc main_v4) := by after_results
theorem skip7_v4 : StableHlo.after (hostOps0_7 (F := Ideal)) Wk (Proc.devRef .tc main_v4) = Wk (Proc.devRef .tc main_v4) := by after_results
theorem skip8_v4 : StableHlo.after (hostOps0_8 (F := Ideal)) Wk (Proc.devRef .tc main_v4) = Wk (Proc.devRef .tc main_v4) := by after_results
theorem skip9_v4 : StableHlo.after (hostOps0_9 (F := Ideal)) Wk (Proc.devRef .tc main_v4) = Wk (Proc.devRef .tc main_v4) := by after_results
theorem skip4_v9 : StableHlo.after (hostOps0_4 (F := Ideal)) Wk (Proc.devRef .tc main_v9) = Wk (Proc.devRef .tc main_v9) := by after_results
theorem skip5_v9 : StableHlo.after (hostOps0_5 (F := Ideal)) Wk (Proc.devRef .tc main_v9) = Wk (Proc.devRef .tc main_v9) := by after_results
theorem skip6_v9 : StableHlo.after (hostOps0_6 (F := Ideal)) Wk (Proc.devRef .tc main_v9) = Wk (Proc.devRef .tc main_v9) := by after_results
theorem skip7_v9 : StableHlo.after (hostOps0_7 (F := Ideal)) Wk (Proc.devRef .tc main_v9) = Wk (Proc.devRef .tc main_v9) := by after_results
theorem skip8_v9 : StableHlo.after (hostOps0_8 (F := Ideal)) Wk (Proc.devRef .tc main_v9) = Wk (Proc.devRef .tc main_v9) := by after_results
theorem skip9_v9 : StableHlo.after (hostOps0_9 (F := Ideal)) Wk (Proc.devRef .tc main_v9) = Wk (Proc.devRef .tc main_v9) := by after_results
theorem skip6_v14 : StableHlo.after (hostOps0_6 (F := Ideal)) Wk (Proc.devRef .tc main_v14) = Wk (Proc.devRef .tc main_v14) := by after_results
theorem skip7_v14 : StableHlo.after (hostOps0_7 (F := Ideal)) Wk (Proc.devRef .tc main_v14) = Wk (Proc.devRef .tc main_v14) := by after_results
theorem skip8_v14 : StableHlo.after (hostOps0_8 (F := Ideal)) Wk (Proc.devRef .tc main_v14) = Wk (Proc.devRef .tc main_v14) := by after_results
theorem skip9_v14 : StableHlo.after (hostOps0_9 (F := Ideal)) Wk (Proc.devRef .tc main_v14) = Wk (Proc.devRef .tc main_v14) := by after_results
theorem skip8_v17 : StableHlo.after (hostOps0_8 (F := Ideal)) Wk (Proc.devRef .tc main_v17) = Wk (Proc.devRef .tc main_v17) := by after_results
theorem skip9_v17 : StableHlo.after (hostOps0_9 (F := Ideal)) Wk (Proc.devRef .tc main_v17) = Wk (Proc.devRef .tc main_v17) := by after_results
theorem skip0_arg3 : StableHlo.after (hostOps0 (F := Ideal)) Wk (Proc.devRef .tc main_arg3) = Wk (Proc.devRef .tc main_arg3) := by after_results
theorem skip1_arg3 : StableHlo.after (hostOps0_1 (F := Ideal)) Wk (Proc.devRef .tc main_arg3) = Wk (Proc.devRef .tc main_arg3) := by after_results
theorem skip0_arg4 : StableHlo.after (hostOps0 (F := Ideal)) Wk (Proc.devRef .tc main_arg4) = Wk (Proc.devRef .tc main_arg4) := by after_results
theorem skip1_arg4 : StableHlo.after (hostOps0_1 (F := Ideal)) Wk (Proc.devRef .tc main_arg4) = Wk (Proc.devRef .tc main_arg4) := by after_results
theorem skip2_arg4 : StableHlo.after (hostOps0_2 (F := Ideal)) Wk (Proc.devRef .tc main_arg4) = Wk (Proc.devRef .tc main_arg4) := by after_results
theorem skip3_arg4 : StableHlo.after (hostOps0_3 (F := Ideal)) Wk (Proc.devRef .tc main_arg4) = Wk (Proc.devRef .tc main_arg4) := by after_results
theorem skip0_arg5 : StableHlo.after (hostOps0 (F := Ideal)) Wk (Proc.devRef .tc main_arg5) = Wk (Proc.devRef .tc main_arg5) := by after_results
theorem skip1_arg5 : StableHlo.after (hostOps0_1 (F := Ideal)) Wk (Proc.devRef .tc main_arg5) = Wk (Proc.devRef .tc main_arg5) := by after_results
theorem skip2_arg5 : StableHlo.after (hostOps0_2 (F := Ideal)) Wk (Proc.devRef .tc main_arg5) = Wk (Proc.devRef .tc main_arg5) := by after_results
theorem skip3_arg5 : StableHlo.after (hostOps0_3 (F := Ideal)) Wk (Proc.devRef .tc main_arg5) = Wk (Proc.devRef .tc main_arg5) := by after_results
theorem skip4_arg5 : StableHlo.after (hostOps0_4 (F := Ideal)) Wk (Proc.devRef .tc main_arg5) = Wk (Proc.devRef .tc main_arg5) := by after_results
theorem skip5_arg5 : StableHlo.after (hostOps0_5 (F := Ideal)) Wk (Proc.devRef .tc main_arg5) = Wk (Proc.devRef .tc main_arg5) := by after_results
theorem skip0_arg6 : StableHlo.after (hostOps0 (F := Ideal)) Wk (Proc.devRef .tc main_arg6) = Wk (Proc.devRef .tc main_arg6) := by after_results
theorem skip1_arg6 : StableHlo.after (hostOps0_1 (F := Ideal)) Wk (Proc.devRef .tc main_arg6) = Wk (Proc.devRef .tc main_arg6) := by after_results
theorem skip2_arg6 : StableHlo.after (hostOps0_2 (F := Ideal)) Wk (Proc.devRef .tc main_arg6) = Wk (Proc.devRef .tc main_arg6) := by after_results
theorem skip3_arg6 : StableHlo.after (hostOps0_3 (F := Ideal)) Wk (Proc.devRef .tc main_arg6) = Wk (Proc.devRef .tc main_arg6) := by after_results
theorem skip4_arg6 : StableHlo.after (hostOps0_4 (F := Ideal)) Wk (Proc.devRef .tc main_arg6) = Wk (Proc.devRef .tc main_arg6) := by after_results
theorem skip5_arg6 : StableHlo.after (hostOps0_5 (F := Ideal)) Wk (Proc.devRef .tc main_arg6) = Wk (Proc.devRef .tc main_arg6) := by after_results
theorem skip6_arg6 : StableHlo.after (hostOps0_6 (F := Ideal)) Wk (Proc.devRef .tc main_arg6) = Wk (Proc.devRef .tc main_arg6) := by after_results
theorem skip7_arg6 : StableHlo.after (hostOps0_7 (F := Ideal)) Wk (Proc.devRef .tc main_arg6) = Wk (Proc.devRef .tc main_arg6) := by after_results

end Stretches

/-! ## The contents when the embedding region is entered -/

section Entry
variable (m : (ℓ : Loc nD τ sig) → Buf (Elt Ideal) ℓ) (ρ : Dev nD → PrngReg)
theorem W10_arg0 (c : Dev nD) : W10 m ρ c (Proc.devRef .tc main_arg0) = m ((c : Thread nD τ).loc main_arg0) := by
  refine (skip9_arg0 (W9 m ρ c)).trans ?_
  refine (skip8_arg0 (W8 m ρ c)).trans ?_
  refine (skip7_arg0 (W7 m ρ c)).trans ?_
  refine (skip6_arg0 (W6 m ρ c)).trans ?_
  refine (skip5_arg0 (W5 m ρ c)).trans ?_
  refine (skip4_arg0 (W4 m ρ c)).trans ?_
  refine (skip3_arg0 (W3 m ρ c)).trans ?_
  refine (skip2_arg0 (W2 m ρ c)).trans ?_
  refine (skip1_arg0 (W1 m ρ c)).trans ?_
  refine (skip0_arg0 (W0 m ρ c)).trans ?_
  rfl
theorem W10_arg1 (c : Dev nD) : W10 m ρ c (Proc.devRef .tc main_arg1) = m ((c : Thread nD τ).loc main_arg1) := by
  refine (skip9_arg1 (W9 m ρ c)).trans ?_
  refine (skip8_arg1 (W8 m ρ c)).trans ?_
  refine (skip7_arg1 (W7 m ρ c)).trans ?_
  refine (skip6_arg1 (W6 m ρ c)).trans ?_
  refine (skip5_arg1 (W5 m ρ c)).trans ?_
  refine (skip4_arg1 (W4 m ρ c)).trans ?_
  refine (skip3_arg1 (W3 m ρ c)).trans ?_
  refine (skip2_arg1 (W2 m ρ c)).trans ?_
  refine (skip1_arg1 (W1 m ρ c)).trans ?_
  refine (skip0_arg1 (W0 m ρ c)).trans ?_
  rfl
theorem W2_arg3 (c : Dev nD) : W2 m ρ c (Proc.devRef .tc main_arg3) = m ((c : Thread nD τ).loc main_arg3) := by
  refine (skip1_arg3 (W1 m ρ c)).trans ?_
  refine (skip0_arg3 (W0 m ρ c)).trans ?_
  rfl
theorem W4_arg4 (c : Dev nD) : W4 m ρ c (Proc.devRef .tc main_arg4) = m ((c : Thread nD τ).loc main_arg4) := by
  refine (skip3_arg4 (W3 m ρ c)).trans ?_
  refine (skip2_arg4 (W2 m ρ c)).trans ?_
  refine (skip1_arg4 (W1 m ρ c)).trans ?_
  refine (skip0_arg4 (W0 m ρ c)).trans ?_
  rfl
theorem W6_arg5 (c : Dev nD) : W6 m ρ c (Proc.devRef .tc main_arg5) = m ((c : Thread nD τ).loc main_arg5) := by
  refine (skip5_arg5 (W5 m ρ c)).trans ?_
  refine (skip4_arg5 (W4 m ρ c)).trans ?_
  refine (skip3_arg5 (W3 m ρ c)).trans ?_
  refine (skip2_arg5 (W2 m ρ c)).trans ?_
  refine (skip1_arg5 (W1 m ρ c)).trans ?_
  refine (skip0_arg5 (W0 m ρ c)).trans ?_
  rfl
theorem W8_arg6 (c : Dev nD) : W8 m ρ c (Proc.devRef .tc main_arg6) = m ((c : Thread nD τ).loc main_arg6) := by
  refine (skip7_arg6 (W7 m ρ c)).trans ?_
  refine (skip6_arg6 (W6 m ρ c)).trans ?_
  refine (skip5_arg6 (W5 m ρ c)).trans ?_
  refine (skip4_arg6 (W4 m ρ c)).trans ?_
  refine (skip3_arg6 (W3 m ρ c)).trans ?_
  refine (skip2_arg6 (W2 m ρ c)).trans ?_
  refine (skip1_arg6 (W1 m ρ c)).trans ?_
  refine (skip0_arg6 (W0 m ρ c)).trans ?_
  rfl

theorem W1_v0 (c : Dev nD) : W1 m ρ c (Proc.devRef .tc main_v0) = eluV bcast_S_S16x512 (m ((c : Thread nD τ).loc main_arg2)) :=
  elu0 (W0 m ρ c)
theorem W3_v5 (c : Dev nD) : W3 m ρ c (Proc.devRef .tc main_v5) = eluV bcast_S_S16x512 (m ((c : Thread nD τ).loc main_arg3)) := by
  refine (elu2 (W2 m ρ c)).trans ?_
  rw [W2_arg3]
theorem W5_v10 (c : Dev nD) : W5 m ρ c (Proc.devRef .tc main_v10) = eluV bcast_S_S512x16 (m ((c : Thread nD τ).loc main_arg4)) := by
  refine (elu4 (W4 m ρ c)).trans ?_
  rw [W4_arg4]
theorem W7_v15 (c : Dev nD) : W7 m ρ c (Proc.devRef .tc main_v15) = eluV bcast_S_S1x16 (m ((c : Thread nD τ).loc main_arg5)) := by
  refine (elu6 (W6 m ρ c)).trans ?_
  rw [W6_arg5]
theorem W9_v18 (c : Dev nD) : W9 m ρ c (Proc.devRef .tc main_v18) = eluV bcast_S_S1x512 (m ((c : Thread nD τ).loc main_arg6)) := by
  refine (elu8 (W8 m ρ c)).trans ?_
  rw [W8_arg6]

/-- The query weight as the embedding region finds it. -/
theorem W10_v4 (c : Dev nD) : W10 m ρ c (Proc.devRef .tc main_v4) = wT (m ((c : Thread nD τ).loc main_arg2)) := by
  refine (skip9_v4 (W9 m ρ c)).trans ?_
  refine (skip8_v4 (W8 m ρ c)).trans ?_
  refine (skip7_v4 (W7 m ρ c)).trans ?_
  refine (skip6_v4 (W6 m ρ c)).trans ?_
  refine (skip5_v4 (W5 m ρ c)).trans ?_
  refine (skip4_v4 (W4 m ρ c)).trans ?_
  refine (skip3_v4 (W3 m ρ c)).trans ?_
  refine (skip2_v4 (W2 m ρ c)).trans ?_
  refine (tail1 (W1 m ρ c)).trans ?_
  rw [W1_v0]
  rfl
/-- The key weight. -/
theorem W10_v9 (c : Dev nD) : W10 m ρ c (Proc.devRef .tc main_v9) = wT (m ((c : Thread nD τ).loc main_arg3)) := by
  refine (skip9_v9 (W9 m ρ c)).trans ?_
  refine (skip8_v9 (W8 m ρ c)).trans ?_
  refine (skip7_v9 (W7 m ρ c)).trans ?_
  refine (skip6_v9 (W6 m ρ c)).trans ?_
  refine (skip5_v9 (W5 m ρ c)).trans ?_
  refine (skip4_v9 (W4 m ρ c)).trans ?_
  refine (tail3 (W3 m ρ c)).trans ?_
  rw [W3_v5]
  rfl
/-- The projection weight. -/
theorem W10_v14 (c : Dev nD) : W10 m ρ c (Proc.devRef .tc main_v14) = vT (m ((c : Thread nD τ).loc main_arg4)) := by
  refine (skip9_v14 (W9 m ρ c)).trans ?_
  refine (skip8_v14 (W8 m ρ c)).trans ?_
  refine (skip7_v14 (W7 m ρ c)).trans ?_
  refine (skip6_v14 (W6 m ρ c)).trans ?_
  refine (tail5 (W5 m ρ c)).trans ?_
  rw [W5_v10]
  rfl
/-- The ego scale row. -/
theorem W10_v17 (c : Dev nD) : W10 m ρ c (Proc.devRef .tc main_v17) = nnV bcast_S_S1x16 (m ((c : Thread nD τ).loc main_arg5)) := by
  refine (skip9_v17 (W9 m ρ c)).trans ?_
  refine (skip8_v17 (W8 m ρ c)).trans ?_
  refine (tail7 (W7 m ρ c)).trans ?_
  rw [W7_v15]
  rfl
/-- The bias row. -/
theorem W10_v20 (c : Dev nD) : W10 m ρ c (Proc.devRef .tc main_v20) = nnV bcast_S_S1x512 (m ((c : Thread nD τ).loc main_arg6)) := by
  refine (tail9 (W9 m ρ c)).trans ?_
  rw [W9_v18]
  rfl

end Entry

end Cert.KernelIdeal.KerValue
end
-- ==== Proof.KerHostMid.lean ====
/-
  The host operations of the kernel program between its two regions.

  From the first region's query, key and ego-score arrays and the adjacency list: the neighbour row of the
  list with negative numbers wrapped, a gather of key rows along the 3,200,000 edges, the mask row as a
  float, their product, the sum over each cell's 32 consecutive slots, the count of unmasked slots per
  cell, the local score (query times sum, over count + 1e-6), the ego score added, and the normalisation
  over the sixteen heads (+ 1e-9). The stretch writes neither the projection weight nor the bias row.
-/
import proofs.«165512_j43946105373324_1_alg».proof.Proof.Gen.KernelIdeal.Frame
import proofs.«165512_j43946105373324_1_alg».proof.Proof.LibDotCols
import proofs.«165512_j43946105373324_1_alg».proof.Proof.Spec
import Idealize.ShloMosaic.Lib.ValueLayout
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.KerValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

open Idealize.ShloMosaic.StableHlo

/-! ## The stages between the regions, as functions of the three embedding arrays and the adjacency list -/

/-- Row 0 of the adjacency list (the neighbour of each edge), flat. -/
def srcV (adj : S3x3200000.Idx → BitVec 32) : S3200000.Idx → BitVec 32 :=
  shapeCast S3200000 (extractStridedSlice S1x3200000 ![0, 0] adj slices_S3x3200000_S1x3200000_0_0) shapeCasts_S1x3200000_S3200000

/-- Row 2 (the mask word of each edge), flat. -/
def mskV (adj : S3x3200000.Idx → BitVec 32) : S3200000.Idx → BitVec 32 :=
  shapeCast S3200000 (extractStridedSlice S1x3200000 ![2, 0] adj slices_S3x3200000_S1x3200000_2_0) shapeCasts_S1x3200000_S3200000

/-- The mask as a float: 1 where the word is nonzero. -/
def validV (adj : S3x3200000.Idx → BitVec 32) : S3200000.Idx → EReal :=
  uitofp (F := Ideal) .f32 (cmpi .ne (mskV adj) (broadcastInDim S3200000 ![] bcast_S_S3200000 (constantI S_ 32 0#32)))

/-- A negative neighbour number counts from the end. -/
def wrapV (adj : S3x3200000.Idx → BitVec 32) : S3200000.Idx → BitVec 32 :=
  select (cmpi .slt (srcV adj) (broadcastInDim S3200000 ![] bcast_S_S3200000 (constantI S_ 32 0#32)))
    (addi (srcV adj) (broadcastInDim S3200000 ![] bcast_S_S3200000 (constantI S_ 32 100000#32))) (srcV adj)

/-- Per edge, the neighbour's key row times the edge's mask. -/
def keV (k : S100000x16.Idx → EReal) (adj : S3x3200000.Idx → BitVec 32) : S3200000x16.Idx → EReal :=
  mulf (F := Ideal) (φ := .f32)
    (Host.gather gather_S100000x16_S3200000x1_S3200000x16_1_0_n_n_0_1_116 k (broadcastInDim S3200000x1 ![0] bcast_S3200000_S3200000x1_0 (wrapV adj)))
    (broadcastInDim S3200000x16 ![0, 1] bcast_S3200000x1_S3200000x16_0_1 (broadcastInDim S3200000x1 ![0] bcast_S3200000_S3200000x1_0 (validV adj)))

/-- Per cell, the sum over its 32 slots. -/
def aggV (k : S100000x16.Idx → EReal) (adj : S3x3200000.Idx → BitVec 32) : S100000x16.Idx → EReal :=
  Host.reduceAdd (F := Ideal) (φ := .f32) (shapeCast S100000x32x16 (keV k adj) shapeCasts_S3200000x16_S100000x32x16) (constant (F := Ideal) S_ .f32 0x00000000#32)
    reducesTo_S100000x32x16_S100000x16_d1 h_S_

/-- Per cell, the number of unmasked slots. -/
def cntV (adj : S3x3200000.Idx → BitVec 32) : S100000.Idx → EReal :=
  Host.reduceAdd (F := Ideal) (φ := .f32) (shapeCast S100000x32 (validV adj) shapeCasts_S3200000_S100000x32) (constant (F := Ideal) S_ .f32 0x00000000#32)
    reducesTo_S100000x32_S100000_d1 h_S_

/-- The local score. -/
def slV (q k : S100000x16.Idx → EReal) (adj : S3x3200000.Idx → BitVec 32) : S100000x16.Idx → EReal :=
  Host.divf (F := Ideal) (φ := .f32) (mulf (F := Ideal) (φ := .f32) q (aggV k adj))
    (broadcastInDim S100000x16 ![0, 1] bcast_S100000x1_S100000x16_0_1
      (addf (F := Ideal) (φ := .f32) (broadcastInDim S100000x1 ![0] bcast_S100000_S100000x1_0 (cntV adj))
        (broadcastInDim S100000x1 ![] bcast_S_S100000x1 (constant (F := Ideal) S_ .f32 0x358637BD#32))))

/-- Ego score plus local score. -/
def ssV (q k e : S100000x16.Idx → EReal) (adj : S3x3200000.Idx → BitVec 32) : S100000x16.Idx → EReal :=
  addf (F := Ideal) (φ := .f32) e (slV q k adj)

/-- The attention weights: the score over (its sum over the heads + 1e-9). -/
def attnV (q k e : S100000x16.Idx → EReal) (adj : S3x3200000.Idx → BitVec 32) : S100000x16.Idx → EReal :=
  Host.divf (F := Ideal) (φ := .f32) (ssV q k e adj)
    (broadcastInDim S100000x16 ![0, 1] bcast_S100000x1_S100000x16_0_1
      (addf (F := Ideal) (φ := .f32)
        (broadcastInDim S100000x1 ![0] bcast_S100000_S100000x1_0
          (Host.reduceAdd (F := Ideal) (φ := .f32) (ssV q k e adj) (constant (F := Ideal) S_ .f32 0x00000000#32) reducesTo_S100000x16_S100000_d1 h_S_))
        (broadcastInDim S100000x1 ![] bcast_S_S100000x1 (constant (F := Ideal) S_ .f32 0x3089705F#32))))

section Stretch
variable (Wk : Valuation τ sig (Elt Ideal))

set_option maxHeartbeats 4000000 in
/-- The stretch between the regions computes the attention weights from the first region's three arrays
    and the adjacency list. -/
theorem mid_attn : StableHlo.after (hostOps1 (F := Ideal)) Wk (Proc.devRef .tc main_v55)
    = attnV (Wk (Proc.devRef .tc main_v21_0)) (Wk (Proc.devRef .tc main_v21_1)) (Wk (Proc.devRef .tc main_v21_2)) (Wk (Proc.devRef .tc main_arg1)) := by
  after_results_simp
  rfl

set_option maxHeartbeats 4000000 in
theorem mid_v14 : StableHlo.after (hostOps1 (F := Ideal)) Wk (Proc.devRef .tc main_v14) = Wk (Proc.devRef .tc main_v14) := by
  after_results_simp
set_option maxHeartbeats 4000000 in
theorem mid_v20 : StableHlo.after (hostOps1 (F := Ideal)) Wk (Proc.devRef .tc main_v20) = Wk (Proc.devRef .tc main_v20) := by
  after_results_simp

end Stretch

end Cert.KernelIdeal.KerValue
end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.LibSlots.lean ====
/-
  Layout operations of a "cells by slots" arrangement, read at an index given by coordinates.

  A flat list of E = n · m entries (m consecutive slots per cell) is reshaped to [n, m] (or, with c columns,
  [E, c] to [n, m, c]) and summed along the slot axis; a per-row vector [a] is made a column [a, 1] and the
  column is spread over b columns, both by a broadcast that names the axes it keeps.  Each lemma reads one
  of these at literal coordinates: entry (p, j) of the reshaped list is entry m p + j of the list; the sum
  along the slot axis at (p, q) is the initial value plus the sum over the slots j of the entries (p, j, q).
-/
import Idealize.ShloMosaic.Lib.ValueLayout
import Idealize.ShloMosaic.Lib.Pipeline.Value
import Idealize.ShloMosaic.Lib.ValueIdx
import Idealize.ShloMosaic.Lib.IdealHost
import Idealize.ShloMosaic.PureOps.Reduce
import Idealize.ShloMosaic.PureOps.Ideal.Laws

open scoped BigOperators

namespace Cert.Lib.Slots

open Idealize.ShloMosaic Idealize.ShloMosaic.ValueIdx

variable {α : Type}

/-! ## A vector as a column, a column over the columns -/

/-- An [a] vector broadcast to an [a, 1] column along axis 0 reads, at (i, u), the vector at i. -/
theorem bcastCol_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An [a, 1] column broadcast to [a, b] along both axes reads, at (p, c), the column's entry in row p. -/
theorem bcastRow_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## The flat list as cells by slots -/

/-- [E] reshaped to [n, m] reads, at (p, j), entry m p + j of the list. -/
theorem slots2_apply {n m E : ℕ} (x : (⟨1, ![E]⟩ : Shape).Idx → α)
    (h : (⟨1, ![E]⟩ : Shape).ShapeCasts ⟨2, ![n, m]⟩) (p : Fin n) (j : Fin m) (e : Fin E)
    (he : e.val = m * p.val + j.val) : shapeCast ⟨2, ![n, m]⟩ x h (ix2 p j) = x (ix1 e) :=
  shapeCast_apply x h _ _ (by
    rw [Shape.rowMajor_val_two, Shape.rowMajor_val_one]
    show e.val = p.val * m + j.val
    rw [he, Nat.mul_comm])

/-- [E, c] reshaped to [n, m, c] reads, at (p, j, q), row m p + j of the list, column q. -/
theorem slots3_apply {n m c E : ℕ} (x : (⟨2, ![E, c]⟩ : Shape).Idx → α)
    (h : (⟨2, ![E, c]⟩ : Shape).ShapeCasts ⟨3, ![n, m, c]⟩) (p : Fin n) (j : Fin m) (q : Fin c) (e : Fin E)
    (he : e.val = m * p.val + j.val) : shapeCast ⟨3, ![n, m, c]⟩ x h (ix3 p j q) = x (ix2 e q) :=
  shapeCast_apply x h _ _ (by
    rw [Shape.rowMajor_val_two, Shape.rowMajor_val_three]
    show e.val * c + q.val = (p.val * m + j.val) * c + q.val
    rw [he, Nat.mul_comm m])

/-! ## Sums along the slot axis -/

/-- The indices of [a, b] that a reduction along axis 1 runs over at p are (p, j). -/
theorem lift2 {a b : ℕ} (h : (⟨2, ![a, b]⟩ : Shape).Reduces [1] ⟨1, ![a]⟩) (p : Fin a) (j : Fin b) :
    h.lift (ix1 p) j = ix2 p j := by
  funext d
  apply Fin.ext
  match d with
  | ⟨0, _⟩ => rfl
  | ⟨1, _⟩ => rfl

/-- The indices of [a, b, c] that a reduction along axis 1 runs over at (p, q) are (p, j, q). -/
theorem lift3 {a b c : ℕ} (h : (⟨3, ![a, b, c]⟩ : Shape).Reduces [1] ⟨2, ![a, c]⟩) (p : Fin a) (q : Fin c) (j : Fin b) :
    h.lift (ix2 p q) j = ix3 p j q := by
  funext d
  apply Fin.ext
  match d with
  | ⟨0, _⟩ => rfl
  | ⟨1, _⟩ => rfl
  | ⟨2, _⟩ => rfl

/-- The host's sum of an [a, b] array along axis 1, at p: the initial value plus the sum over j of (p, j). -/
theorem hostSum2_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ j : Fin b, x (ix2 p j) := by
  have h : (⟨2, ![a, b]⟩ : Shape).Reduces [1] ⟨1, ![a]⟩ := by
    obtain ⟨hr, hs⟩ := h'
    exact ⟨hr, Nat.one_pos, hs⟩
  refine (Ideal.hostReduceAdd_single h' h x _ (ix1 p)).trans ?_
  refine congrArg (init (Shape.Idx.first hu) + ·) ?_
  show ∑ j : Fin b, x (h.lift (ix1 p) j) = _
  exact Finset.sum_congr rfl fun j _ => by rw [lift2]

/-- The host's sum of an [a, b, c] array along axis 1, at (p, q): the initial value plus the sum over j of (p, j, q). -/
theorem hostSum3_apply {a b c : ℕ} {φ : FTy} {u : Shape} (x : FVec Ideal ⟨3, ![a, b, c]⟩ φ) (init : u.Idx → Ideal φ)
    (h' : (⟨3, ![a, b, c]⟩ : Shape).ReducesTo [1] ⟨2, ![a, c]⟩) (hu : 0 < u.numel) (p : Fin a) (q : Fin c) :
    Host.reduceAdd x init h' hu (ix2 p q) = init (Shape.Idx.first hu) + ∑ j : Fin b, x (ix3 p j q) := by
  have h : (⟨3, ![a, b, c]⟩ : Shape).Reduces [1] ⟨2, ![a, c]⟩ := by
    obtain ⟨hr, hs⟩ := h'
    exact ⟨hr, Nat.succ_pos _, hs⟩
  refine (Ideal.hostReduceAdd_single h' h x _ (ix2 p q)).trans ?_
  refine congrArg (init (Shape.Idx.first hu) + ·) ?_
  show ∑ j : Fin b, x (h.lift (ix2 p q) j) = _
  exact Finset.sum_congr rfl fun j _ => by rw [lift3]

end Cert.Lib.Slots
-- ==== Proof.KerMidRead.lean ====
/-
  The host operations between the two regions, read at an entry.

  Stage by stage, at literal coordinates: the neighbour row and the mask row of the adjacency list are
  rows 0 and 2 of the [3, E] table; the mask as a float is 1 where the word is nonzero; a negative
  neighbour number has 100000 added; the gather reads the key array at the row that number addresses
  (read signed, clamped into [0, 99999]); the product with the mask, reshaped to cells by slots by
  heads, is summed over the 32 slots of a cell; the count is the sum of the cell's 32 mask floats; the
  local score is query times sum over (count + 1e-6); the ego score is added; and the result is
  divided by its sum over the sixteen heads + 1e-9.  Together: the first arrangement's attention weights.
-/
import proofs.«165512_j43946105373324_1_alg».proof.Proof.KerHostMid
import proofs.«165512_j43946105373324_1_alg».proof.Proof.SpecK
import proofs.«165512_j43946105373324_1_alg».proof.Proof.LibSegments
import proofs.«165512_j43946105373324_1_alg».proof.Proof.LibSlots

noncomputable section

namespace Cert.KernelIdeal.KerValue

open Idealize.ShloMosaic Idealize.ShloMosaic.ValueIdx
open Cert.KernelIdeal Cert.KernelIdeal.Gen
open Cert.Lib.Slots
open scoped BigOperators

/-! ## The two rows of the adjacency list -/

theorem srcV_apply (adj : S3x3200000.Idx → BitVec 32) (e : Fin 3200000) :
    srcV adj (ix1 e) = adj (ix2 (0 : Fin 3) e) := by
  unfold srcV
  exact (shapeCast_1a_a_apply _ _ e).trans (slice2_axis0_apply 0 adj _ (0 : Fin 1) e (0 : Fin 3) rfl)

theorem mskV_apply (adj : S3x3200000.Idx → BitVec 32) (e : Fin 3200000) :
    mskV adj (ix1 e) = adj (ix2 (2 : Fin 3) e) := by
  unfold mskV
  exact (shapeCast_1a_a_apply _ _ e).trans (slice2_axis0_apply 2 adj _ (0 : Fin 1) e (2 : Fin 3) rfl)

/-- The mask float of an edge. -/
theorem validV_apply (adj : S3x3200000.Idx → BitVec 32) (e : Fin 3200000) :
    validV adj (ix1 e) = Cert.Spec.validf (Cert.Spec.cur2 adj) e := by
  show (((IntOp.cmpi .ne (mskV adj (ix1 e)) 0#32).toNat : ℝ) : EReal) = _
  rw [mskV_apply]
  rfl

/-- The wrapped neighbour number of an edge. -/
theorem wrapV_apply (adj : S3x3200000.Idx → BitVec 32) (e : Fin 3200000) :
    wrapV adj (ix1 e) = Cert.Spec.wrap (adj (ix2 (0 : Fin 3) e)) := by
  show Cert.Spec.wrap (srcV adj (ix1 e)) = _
  rw [srcV_apply]

/-! ## The gathered key row times the mask -/

theorem keV_apply (k : S100000x16.Idx → EReal) (adj : S3x3200000.Idx → BitVec 32) (e : Fin 3200000) (h : Fin 16) :
    keV k adj (ix2 e h)
      = k (ix2 (Cert.Spec.row (adj (ix2 (0 : Fin 3) e))) h) * Cert.Spec.validf (Cert.Spec.cur2 adj) e := by
  unfold keV
  rw [mulf_apply]
  congr 1
  · refine (Segments.gather_rows_apply_of_dims (N := 100000) (E := 3200000) (C := 16) (by omega)
      gather_S100000x16_S3200000x1_S3200000x16_1_0_n_n_0_1_116 rfl rfl rfl rfl rfl rfl rfl k _ e h).trans ?_
    have hidx : broadcastInDim S3200000x1 ![0] bcast_S3200000_S3200000x1_0 (wrapV adj) (ix2 e (0 : Fin 1))
        = Cert.Spec.wrap (adj (ix2 (0 : Fin 3) e)) := by
      rw [bcastCol_apply, wrapV_apply]
    refine congrArg (fun r => k (ix2 r h)) (Fin.ext ?_)
    show min (broadcastInDim S3200000x1 ![0] bcast_S3200000_S3200000x1_0 (wrapV adj) (ix2 e (0 : Fin 1))).toInt.toNat
        (100000 - 1) = min (Cert.Spec.wrap (adj (ix2 (0 : Fin 3) e))).toInt.toNat 99999
    rw [hidx]
  · rw [bcastRow_apply, bcastCol_apply, validV_apply]

/-! ## The sums over a cell's slots -/

theorem aggV_apply (k : S100000x16.Idx → EReal) (adj : S3x3200000.Idx → BitVec 32) (p : Fin 100000) (h : Fin 16) :
    aggV k adj (ix2 p h) = Cert.Spec.aggOf (Cert.Spec.cur2 k) (Cert.Spec.cur2 adj) p h := by
  unfold aggV
  rw [hostSum3_apply]
  refine congrArg (Cert.Spec.zero + ·) (Finset.sum_congr rfl fun j _ => ?_)
  rw [slots3_apply _ _ p j h (Cert.Spec.edge p j) rfl, keV_apply]
  rfl

theorem cntV_apply (adj : S3x3200000.Idx → BitVec 32) (p : Fin 100000) :
    cntV adj (ix1 p) = Cert.Spec.cntK (Cert.Spec.cur2 adj) p := by
  unfold cntV
  rw [hostSum2_apply]
  refine congrArg (Cert.Spec.zero + ·) (Finset.sum_congr rfl fun j _ => ?_)
  rw [slots2_apply _ _ p j (Cert.Spec.edge p j) rfl, validV_apply]

/-! ## The local score, the score, the attention weights -/

theorem slV_apply (q k : S100000x16.Idx → EReal) (adj : S3x3200000.Idx → BitVec 32) (p : Fin 100000) (h : Fin 16) :
    slV q k adj (ix2 p h) = Cert.Spec.slOf (Cert.Spec.cur2 q) (Cert.Spec.cur2 k) (Cert.Spec.cur2 adj) p h := by
  unfold slV
  rw [hostDivf_apply, mulf_apply, aggV_apply, bcastRow_apply, addf_apply, bcastCol_apply, cntV_apply]
  rfl

theorem ssV_apply (q k e : S100000x16.Idx → EReal) (adj : S3x3200000.Idx → BitVec 32) (p : Fin 100000) (h : Fin 16) :
    ssV q k e adj (ix2 p h)
      = Cert.Spec.ssOf (Cert.Spec.cur2 q) (Cert.Spec.cur2 k) (Cert.Spec.cur2 e) (Cert.Spec.cur2 adj) p h := by
  unfold ssV
  rw [addf_apply, slV_apply]
  rfl

theorem attnV_apply (q k e : S100000x16.Idx → EReal) (adj : S3x3200000.Idx → BitVec 32) (p : Fin 100000) (h : Fin 16) :
    attnV q k e adj (ix2 p h)
      = Cert.Spec.attnOf (Cert.Spec.cur2 q) (Cert.Spec.cur2 k) (Cert.Spec.cur2 e) (Cert.Spec.cur2 adj) p h := by
  unfold attnV
  rw [hostDivf_apply, ssV_apply, bcastRow_apply, addf_apply, bcastCol_apply, hostSum2_apply]
  have hs : ∀ h' : Fin 16, ssV q k e adj (ix2 p h')
      = Cert.Spec.ssOf (Cert.Spec.cur2 q) (Cert.Spec.cur2 k) (Cert.Spec.cur2 e) (Cert.Spec.cur2 adj) p h' :=
    fun h' => ssV_apply q k e adj p h'
  rw [Finset.sum_congr rfl fun h' _ => hs h']
  rfl

end Cert.KernelIdeal.KerValue

end
-- ==== Proof.KerValue.lean ====
/-
  The kernel program's result, entry by entry, as the specification's first arrangement.

  The pieces: the first region leaves the query, key and ego arrays as functions of the features and the
  transformed weights (the blocks cover the arrays); the host operations between the regions make the
  attention weights of them and of the adjacency list; the second region leaves the projection of the
  attention weights plus the bias row. The transformed parameter arrays are `nn` of the parameters entry by
  entry (the weights at transposed coordinates), which turns the array-level embeddings into the
  specification's, and the result into `resK`.
-/
import proofs.«165512_j43946105373324_1_alg».proof.Proof.Gen.KernelIdeal.Frame
import proofs.«165512_j43946105373324_1_alg».proof.Proof.LibDotCols
import proofs.«165512_j43946105373324_1_alg».proof.Proof.Spec
import Idealize.ShloMosaic.Lib.ValueLayout
import Idealize.ShloMosaic.Lib.ValueIdx
import Idealize.ShloMosaic.Lib.Pipeline.Value
import Idealize.ShloMosaic.PureOps.Ideal.Laws
import Idealize.ShloMosaic.Lib.StableHlo.Run
import proofs.«165512_j43946105373324_1_alg».proof.Proof.SpecK
import proofs.«165512_j43946105373324_1_alg».proof.Proof.KerOut
import proofs.«165512_j43946105373324_1_alg».proof.Proof.KerEmb
import proofs.«165512_j43946105373324_1_alg».proof.Proof.KerHostPre
import proofs.«165512_j43946105373324_1_alg».proof.Proof.KerHostMid
import proofs.«165512_j43946105373324_1_alg».proof.Proof.KerMidRead

set_option maxRecDepth 16384

noncomputable section

namespace Cert.KernelIdeal.KerValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

open Cert.Spec (cur2 row0)

variable (m : (ℓ : Loc nD τ sig) → Buf (Elt Ideal) ℓ) (ρ : Dev nD → PrngReg)

/-! ## The three arrays of the first region, as the stretch between the regions finds them -/

theorem W11_q (c : Dev nD) : W11 m ρ c (Proc.devRef .tc main_v21_0)
    = embG (m ((c : Thread nD τ).loc main_arg0)) (wT (m ((c : Thread nD τ).loc main_arg2))) := by
  refine (W11_arr m ρ c 4).trans ?_
  refine (final_q (V10 m ρ) c).trans ?_
  show embG (W10 m ρ c (Proc.devRef .tc main_arg0)) (W10 m ρ c (Proc.devRef .tc main_v4)) = _
  rw [W10_arg0, W10_v4]

theorem W11_k (c : Dev nD) : W11 m ρ c (Proc.devRef .tc main_v21_1)
    = embG (m ((c : Thread nD τ).loc main_arg0)) (wT (m ((c : Thread nD τ).loc main_arg3))) := by
  refine (W11_arr m ρ c 5).trans ?_
  refine (final_k (V10 m ρ) c).trans ?_
  show embG (W10 m ρ c (Proc.devRef .tc main_arg0)) (W10 m ρ c (Proc.devRef .tc main_v9)) = _
  rw [W10_arg0, W10_v9]

theorem W11_ego (c : Dev nD) : W11 m ρ c (Proc.devRef .tc main_v21_2)
    = egoG (m ((c : Thread nD τ).loc main_arg0)) (wT (m ((c : Thread nD τ).loc main_arg2))) (nnV bcast_S_S1x16 (m ((c : Thread nD τ).loc main_arg5))) := by
  refine (W11_arr m ρ c 6).trans ?_
  refine (final_ego (V10 m ρ) c).trans ?_
  show egoG (W10 m ρ c (Proc.devRef .tc main_arg0)) (W10 m ρ c (Proc.devRef .tc main_v4)) (W10 m ρ c (Proc.devRef .tc main_v17)) = _
  rw [W10_arg0, W10_v4, W10_v17]

theorem W11_adj (c : Dev nD) : W11 m ρ c (Proc.devRef .tc main_arg1) = m ((c : Thread nD τ).loc main_arg1) :=
  (W11_of_ne m ρ c main_arg1 (by decide)).trans (W10_arg1 m ρ c)

/-! ## The three arrays the second region finds -/

theorem W12_attn (c : Dev nD) : W12 m ρ c (Proc.devRef .tc main_v55)
    = attnV (embG (m ((c : Thread nD τ).loc main_arg0)) (wT (m ((c : Thread nD τ).loc main_arg2))))
        (embG (m ((c : Thread nD τ).loc main_arg0)) (wT (m ((c : Thread nD τ).loc main_arg3))))
        (egoG (m ((c : Thread nD τ).loc main_arg0)) (wT (m ((c : Thread nD τ).loc main_arg2))) (nnV bcast_S_S1x16 (m ((c : Thread nD τ).loc main_arg5))))
        (m ((c : Thread nD τ).loc main_arg1)) := by
  refine (mid_attn (W11 m ρ c)).trans ?_
  rw [W11_q, W11_k, W11_ego, W11_adj]

theorem W12_vw (c : Dev nD) : W12 m ρ c (Proc.devRef .tc main_v14) = vT (m ((c : Thread nD τ).loc main_arg4)) :=
  (mid_v14 (W11 m ρ c)).trans ((W11_of_ne m ρ c main_v14 (by decide)).trans (W10_v14 m ρ c))

theorem W12_bias (c : Dev nD) : W12 m ρ c (Proc.devRef .tc main_v20) = nnV bcast_S_S1x512 (m ((c : Thread nD τ).loc main_arg6)) :=
  (mid_v20 (W11 m ρ c)).trans ((W11_of_ne m ρ c main_v20 (by decide)).trans (W10_v20 m ρ c))

/-! ## The embedding arrays are the specification's embeddings -/

theorem cur2_embG (x : S100000x512.Idx → EReal) (w : S16x512.Idx → EReal) :
    cur2 (embG x (wT w)) = Cert.Spec.emb (cur2 x) (cur2 w) := by
  funext p h
  show embG x (wT w) (ix2 p h) = _
  rw [embG_apply]
  unfold Cert.Spec.emb
  refine congrArg (fun a : EReal => a * Cert.Spec.inv512) (Finset.sum_congr rfl fun k _ => ?_)
  rw [wT_apply]
  rfl

theorem cur2_egoG (x : S100000x512.Idx → EReal) (w : S16x512.Idx → EReal) (es : S1x16.Idx → EReal) :
    cur2 (egoG x (wT w) (nnV bcast_S_S1x16 es)) = Cert.Spec.ego (cur2 x) (cur2 w) (row0 es) := by
  funext p h
  show egoG x (wT w) (nnV bcast_S_S1x16 es) (ix2 p h) = _
  rw [egoG_apply, nnV_apply]
  unfold Cert.Spec.ego
  have e := congrFun (congrFun (cur2_embG x w) p) h
  change embG x (wT w) (ix2 p h) = _ at e
  rw [e]
  rfl

/-! ## The result -/

/-- The result buffer after the run, entry by entry: the specification's first arrangement of the argument arrays. -/
theorem result_apply (c : Dev nD) (p : Fin 100000) (d : Fin 512) :
    W13 m ρ c (Proc.devRef .tc main_v56) (ix2 p d)
      = Cert.Spec.resK (cur2 (m ((c : Thread nD τ).loc main_arg0))) (cur2 (m ((c : Thread nD τ).loc main_arg1)))
          (cur2 (m ((c : Thread nD τ).loc main_arg2))) (cur2 (m ((c : Thread nD τ).loc main_arg3)))
          (cur2 (m ((c : Thread nD τ).loc main_arg4))) (row0 (m ((c : Thread nD τ).loc main_arg5)))
          (row0 (m ((c : Thread nD τ).loc main_arg6))) p d := by
  have h1 : W13 m ρ c (Proc.devRef .tc main_v56)
      = outG (W12 m ρ c (Proc.devRef .tc main_v55)) (W12 m ρ c (Proc.devRef .tc main_v14)) (W12 m ρ c (Proc.devRef .tc main_v20)) :=
    (W13_arr m ρ c 3).trans (final_out (V12 m ρ) c)
  rw [h1, outG_apply, W12_attn, W12_vw, W12_bias, nnV_apply]
  unfold Cert.Spec.resK Cert.Spec.res
  refine congrArg₂ (fun a b : EReal => a + b) (Finset.sum_congr rfl fun h _ => ?_) rfl
  rw [attnV_apply, vT_apply, cur2_embG, cur2_embG, cur2_egoG, Cert.Spec.attnOf_emb]
  rfl

end Cert.KernelIdeal.KerValue
end
-- ==== Proof.RefOps.lean ====
/-
  The reference program's straight line: its host operations in order, the operations of each
  called function written at the call over that call's buffers, and the equation of the printed
  program with that line.
-/
import proofs.«165512_j43946105373324_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the first window (statements 1 … 60), calls written out. -/
abbrev ops0 : List (HloOp τ sig (Elt F)) :=
  [ nullary main_call0_cst (constant S_ .f32 0x00000000#32),
    unary main_call0_cst main_call0_v0 (broadcastInDim S16x512 ![] bcast_S_S16x512 : (⟨S_, .f32⟩ : BufTy).Contents (Elt F) → (⟨S16x512, .f32⟩ : BufTy).Contents (Elt F)),
    binary main_arg2 main_call0_v0 main_call0_v1 (cmpf .ogt : (⟨S16x512, .f32⟩ : BufTy).Contents (Elt F) → (⟨S16x512, .f32⟩ : BufTy).Contents (Elt F) → (⟨S16x512, .i1⟩ : BufTy).Contents (Elt F)),
    nullary main_call0_cst_0 (constant S_ .f32 0x00000000#32),
    unary main_call0_cst_0 main_call0_v2 (broadcastInDim S16x512 ![] bcast_S_S16x512 : (⟨S_, .f32⟩ : BufTy).Contents (Elt F) → (⟨S16x512, .f32⟩ : BufTy).Contents (Elt F)),
    binary main_arg2 main_call0_v2 main_call0_v3 (cmpf .ogt : (⟨S16x512, .f32⟩ : BufTy).Contents (Elt F) → (⟨S16x512, .f32⟩ : BufTy).Contents (Elt F) → (⟨S16x512, .i1⟩ : BufTy).Contents (Elt F)),
    nullary main_call0_cst_1 (constant S_ .f32 0x00000000#32),
    unary main_call0_cst_1 main_call0_call0_v0 (id : (⟨S_, .f32⟩ : BufTy).Contents (Elt F) → (⟨S_, .f32⟩ : BufTy).Contents (Elt F)),
    unary main_call0_call0_v0 main_call0_call0_v1 (broadcastInDim S16x512 ![] bcast_S_S16x512 : (⟨S_, .f32⟩ : BufTy).Contents (Elt F) → (⟨S16x512, .f32⟩ : BufTy).Contents (Elt F)),
    ternary main_call0_v3 main_call0_call0_v1 main_arg2 main_call0_v4 (select : (⟨S16x512, .i1⟩ : BufTy).Contents (Elt F) → (⟨S16x512, .f32⟩ : BufTy).Contents (Elt F) → (⟨S16x512, .f32⟩ : BufTy).Contents (Elt F) → (⟨S16x512, .f32⟩ : BufTy).Contents (Elt F)),
    unary main_call0_v4 main_call0_v5 (Host.expm1 : (⟨S16x512, .f32⟩ : BufTy).Contents (Elt F) → (⟨S16x512, .f32⟩ : BufTy).Contents (Elt F)),
    nullary main_call0_cst_2 (constant S_ .f32 0x3F800000#32),
    unary main_call0_cst_2 main_call0_v6 (broadcastInDim S16x512 ![] bcast_S_S16x512 : (⟨S_, .f32⟩ : BufTy).Contents (Elt F) → (⟨S16x512, .f32⟩ : BufTy).Contents (Elt F)),
    binary main_call0_v6 main_call0_v5 main_call0_v7 (mulf : (⟨S16x512, .f32⟩ : BufTy).Contents (Elt F) → (⟨S16x512, .f32⟩ : BufTy).Contents (Elt F) → (⟨S16x512, .f32⟩ : BufTy).Contents (Elt F)),
    ternary main_call0_v1 main_arg2 main_call0_v7 main_v0 (select : (⟨S16x512, .i1⟩ : BufTy).Contents (Elt F) → (⟨S16x512, .f32⟩ : BufTy).Contents (Elt F) → (⟨S16x512, .f32⟩ : BufTy).Contents (Elt F) → (⟨S16x512, .f32⟩ : BufTy).Contents (Elt F)),
    nullary main_cst (constant S_ .f32 0x3F800000#32),
    unary main_cst main_v1 (broadcastInDim S16x512 ![] bcast_S_S16x512 : (⟨S_, .f32⟩ : BufTy).Contents (Elt F) → (⟨S16x512, .f32⟩ : BufTy).Contents (Elt F)),
    binary main_v0 main_v1 main_v2 (addf : (⟨S16x512, .f32⟩ : BufTy).Contents (Elt F) → (⟨S16x512, .f32⟩ : BufTy).Contents (Elt F) → (⟨S16x512, .f32⟩ : BufTy).Contents (Elt F)),
    unary main_v2 main_v3 ((transpose S512x16 [1, 0] · transposes_S16x512_S512x16_1_0) : (⟨S16x512, .f32⟩ : BufTy).Contents (Elt F) → (⟨S512x16, .f32⟩ : BufTy).Contents (Elt F)),
    binary main_arg0 main_v3 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_cst_0 (constant S_ .f32 0x3B000000#32),
    unary main_cst_0 main_v5 (broadcastInDim S100000x16 ![] bcast_S_S100000x16 : (⟨S_, .f32⟩ : BufTy).Contents (Elt F) → (⟨S100000x16, .f32⟩ : BufTy).Contents (Elt F)),
    binary main_v4 main_v5 main_v6 (mulf : (⟨S100000x16, .f32⟩ : BufTy).Contents (Elt F) → (⟨S100000x16, .f32⟩ : BufTy).Contents (Elt F) → (⟨S100000x16, .f32⟩ : BufTy).Contents (Elt F)),
    nullary main_call1_cst (constant S_ .f32 0x00000000#32),
    unary main_call1_cst main_call1_v0 (broadcastInDim S16x512 ![] bcast_S_S16x512 : (⟨S_, .f32⟩ : BufTy).Contents (Elt F) → (⟨S16x512, .f32⟩ : BufTy).Contents (Elt F)),
    binary main_arg3 main_call1_v0 main_call1_v1 (cmpf .ogt : (⟨S16x512, .f32⟩ : BufTy).Contents (Elt F) → (⟨S16x512, .f32⟩ : BufTy).Contents (Elt F) → (⟨S16x512, .i1⟩ : BufTy).Contents (Elt F)),
    nullary main_call1_cst_0 (constant S_ .f32 0x00000000#32),
    unary main_call1_cst_0 main_call1_v2 (broadcastInDim S16x512 ![] bcast_S_S16x512 : (⟨S_, .f32⟩ : BufTy).Contents (Elt F) → (⟨S16x512, .f32⟩ : BufTy).Contents (Elt F)),
    binary main_arg3 main_call1_v2 main_call1_v3 (cmpf .ogt : (⟨S16x512, .f32⟩ : BufTy).Contents (Elt F) → (⟨S16x512, .f32⟩ : BufTy).Contents (Elt F) → (⟨S16x512, .i1⟩ : BufTy).Contents (Elt F)),
    nullary main_call1_cst_1 (constant S_ .f32 0x00000000#32),
    unary main_call1_cst_1 main_call1_call0_v0 (id : (⟨S_, .f32⟩ : BufTy).Contents (Elt F) → (⟨S_, .f32⟩ : BufTy).Contents (Elt F)),
    unary main_call1_call0_v0 main_call1_call0_v1 (broadcastInDim S16x512 ![] bcast_S_S16x512 : (⟨S_, .f32⟩ : BufTy).Contents (Elt F) → (⟨S16x512, .f32⟩ : BufTy).Contents (Elt F)),
    ternary main_call1_v3 main_call1_call0_v1 main_arg3 main_call1_v4 (select : (⟨S16x512, .i1⟩ : BufTy).Contents (Elt F) → (⟨S16x512, .f32⟩ : BufTy).Contents (Elt F) → (⟨S16x512, .f32⟩ : BufTy).Contents (Elt F) → (⟨S16x512, .f32⟩ : BufTy).Contents (Elt F)),
    unary main_call1_v4 main_call1_v5 (Host.expm1 : (⟨S16x512, .f32⟩ : BufTy).Contents (Elt F) → (⟨S16x512, .f32⟩ : BufTy).Contents (Elt F)),
    nullary main_call1_cst_2 (constant S_ .f32 0x3F800000#32),
    unary main_call1_cst_2 main_call1_v6 (broadcastInDim S16x512 ![] bcast_S_S16x512 : (⟨S_, .f32⟩ : BufTy).Contents (Elt F) → (⟨S16x512, .f32⟩ : BufTy).Contents (Elt F)),
    binary main_call1_v6 main_call1_v5 main_call1_v7 (mulf : (⟨S16x512, .f32⟩ : BufTy).Contents (Elt F) → (⟨S16x512, .f32⟩ : BufTy).Contents (Elt F) → (⟨S16x512, .f32⟩ : BufTy).Contents (Elt F)),
    ternary main_call1_v1 main_arg3 main_call1_v7 main_v7 (select : (⟨S16x512, .i1⟩ : BufTy).Contents (Elt F) → (⟨S16x512, .f32⟩ : BufTy).Contents (Elt F) → (⟨S16x512, .f32⟩ : BufTy).Contents (Elt F) → (⟨S16x512, .f32⟩ : BufTy).Contents (Elt F)),
    nullary main_cst_1 (constant S_ .f32 0x3F800000#32),
    unary main_cst_1 main_v8 (broadcastInDim S16x512 ![] bcast_S_S16x512 : (⟨S_, .f32⟩ : BufTy).Contents (Elt F) → (⟨S16x512, .f32⟩ : BufTy).Contents (Elt F)),
    binary main_v7 main_v8 main_v9 (addf : (⟨S16x512, .f32⟩ : BufTy).Contents (Elt F) → (⟨S16x512, .f32⟩ : BufTy).Contents (Elt F) → (⟨S16x512, .f32⟩ : BufTy).Contents (Elt F)),
    unary main_v9 main_v10 ((transpose S512x16 [1, 0] · transposes_S16x512_S512x16_1_0) : (⟨S16x512, .f32⟩ : BufTy).Contents (Elt F) → (⟨S512x16, .f32⟩ : BufTy).Contents (Elt F)),
    binary main_arg0 main_v10 main_v11 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_cst_2 (constant S_ .f32 0x3B000000#32),
    unary main_cst_2 main_v12 (broadcastInDim S100000x16 ![] bcast_S_S100000x16 : (⟨S_, .f32⟩ : BufTy).Contents (Elt F) → (⟨S100000x16, .f32⟩ : BufTy).Contents (Elt F)),
    binary main_v11 main_v12 main_v13 (mulf : (⟨S100000x16, .f32⟩ : BufTy).Contents (Elt F) → (⟨S100000x16, .f32⟩ : BufTy).Contents (Elt F) → (⟨S100000x16, .f32⟩ : BufTy).Contents (Elt F)),
    binary main_v6 main_v6 main_v14 (mulf : (⟨S100000x16, .f32⟩ : BufTy).Contents (Elt F) → (⟨S100000x16, .f32⟩ : BufTy).Contents (Elt F) → (⟨S100000x16, .f32⟩ : BufTy).Contents (Elt F)),
    nullary main_call2_cst (constant S_ .f32 0x00000000#32),
    unary main_call2_cst main_call2_v0 (broadcastInDim S1x16 ![] bcast_S_S1x16 : (⟨S_, .f32⟩ : BufTy).Contents (Elt F) → (⟨S1x16, .f32⟩ : BufTy).Contents (Elt F)),
    binary main_arg5 main_call2_v0 main_call2_v1 (cmpf .ogt : (⟨S1x16, .f32⟩ : BufTy).Contents (Elt F) → (⟨S1x16, .f32⟩ : BufTy).Contents (Elt F) → (⟨S1x16, .i1⟩ : BufTy).Contents (Elt F)),
    nullary main_call2_cst_0 (constant S_ .f32 0x00000000#32),
    unary main_call2_cst_0 main_call2_v2 (broadcastInDim S1x16 ![] bcast_S_S1x16 : (⟨S_, .f32⟩ : BufTy).Contents (Elt F) → (⟨S1x16, .f32⟩ : BufTy).Contents (Elt F)),
    binary main_arg5 main_call2_v2 main_call2_v3 (cmpf .ogt : (⟨S1x16, .f32⟩ : BufTy).Contents (Elt F) → (⟨S1x16, .f32⟩ : BufTy).Contents (Elt F) → (⟨S1x16, .i1⟩ : BufTy).Contents (Elt F)),
    nullary main_call2_cst_1 (constant S_ .f32 0x00000000#32),
    unary main_call2_cst_1 main_call2_call0_v0 (id : (⟨S_, .f32⟩ : BufTy).Contents (Elt F) → (⟨S_, .f32⟩ : BufTy).Contents (Elt F)),
    unary main_call2_call0_v0 main_call2_call0_v1 (broadcastInDim S1x16 ![] bcast_S_S1x16 : (⟨S_, .f32⟩ : BufTy).Contents (Elt F) → (⟨S1x16, .f32⟩ : BufTy).Contents (Elt F)),
    ternary main_call2_v3 main_call2_call0_v1 main_arg5 main_call2_v4 (select : (⟨S1x16, .i1⟩ : BufTy).Contents (Elt F) → (⟨S1x16, .f32⟩ : BufTy).Contents (Elt F) → (⟨S1x16, .f32⟩ : BufTy).Contents (Elt F) → (⟨S1x16, .f32⟩ : BufTy).Contents (Elt F)),
    unary main_call2_v4 main_call2_v5 (Host.expm1 : (⟨S1x16, .f32⟩ : BufTy).Contents (Elt F) → (⟨S1x16, .f32⟩ : BufTy).Contents (Elt F)),
    nullary main_call2_cst_2 (constant S_ .f32 0x3F800000#32),
    unary main_call2_cst_2 main_call2_v6 (broadcastInDim S1x16 ![] bcast_S_S1x16 : (⟨S_, .f32⟩ : BufTy).Contents (Elt F) → (⟨S1x16, .f32⟩ : BufTy).Contents (Elt F)),
    binary main_call2_v6 main_call2_v5 main_call2_v7 (mulf : (⟨S1x16, .f32⟩ : BufTy).Contents (Elt F) → (⟨S1x16, .f32⟩ : BufTy).Contents (Elt F) → (⟨S1x16, .f32⟩ : BufTy).Contents (Elt F)),
    ternary main_call2_v1 main_arg5 main_call2_v7 main_v15 (select : (⟨S1x16, .i1⟩ : BufTy).Contents (Elt F) → (⟨S1x16, .f32⟩ : BufTy).Contents (Elt F) → (⟨S1x16, .f32⟩ : BufTy).Contents (Elt F) → (⟨S1x16, .f32⟩ : BufTy).Contents (Elt F)),
    nullary main_cst_3 (constant S_ .f32 0x3F800000#32),
    unary main_cst_3 main_v16 (broadcastInDim S1x16 ![] bcast_S_S1x16 : (⟨S_, .f32⟩ : BufTy).Contents (Elt F) → (⟨S1x16, .f32⟩ : BufTy).Contents (Elt F)),
    binary main_v15 main_v16 main_v17 (addf : (⟨S1x16, .f32⟩ : BufTy).Contents (Elt F) → (⟨S1x16, .f32⟩ : BufTy).Contents (Elt F) → (⟨S1x16, .f32⟩ : BufTy).Contents (Elt F)),
    unary main_v17 main_v18 (broadcastInDim S100000x16 ![0, 1] bcast_S1x16_S100000x16_0_1 : (⟨S1x16, .f32⟩ : BufTy).Contents (Elt F) → (⟨S100000x16, .f32⟩ : BufTy).Contents (Elt F)),
    binary main_v14 main_v18 main_v19 (mulf : (⟨S100000x16, .f32⟩ : BufTy).Contents (Elt F) → (⟨S100000x16, .f32⟩ : BufTy).Contents (Elt F) → (⟨S100000x16, .f32⟩ : BufTy).Contents (Elt F)),
    unary main_arg1 main_v20 ((extractStridedSlice S1x3200000 ![1, 0] · slices_S3x3200000_S1x3200000_1_0) : (⟨S3x3200000, .i32⟩ : BufTy).Contents (Elt F) → (⟨S1x3200000, .i32⟩ : BufTy).Contents (Elt F)),
    reshape main_v20 main_v21 rfl shapeCasts_S1x3200000_S3200000,
    nullary main_c (constantI S_ 32 0#32),
    unary main_c main_v22 (broadcastInDim S3200000 ![] bcast_S_S3200000 : (⟨S_, .i32⟩ : BufTy).Contents (Elt F) → (⟨S3200000, .i32⟩ : BufTy).Contents (Elt F)),
    binary main_v21 main_v22 main_v23 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v24 (broadcastInDim S3200000 ![] bcast_S_S3200000 : (⟨S_, .i32⟩ : BufTy).Contents (Elt F) → (⟨S3200000, .i32⟩ : BufTy).Contents (Elt F)),
    binary main_v21 main_v24 main_v25 (addi : (⟨S3200000, .i32⟩ : BufTy).Contents (Elt F) → (⟨S3200000, .i32⟩ : BufTy).Contents (Elt F) → (⟨S3200000, .i32⟩ : BufTy).Contents (Elt F)),
    ternary main_v23 main_v25 main_v21 main_v26 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v26 main_v27 (broadcastInDim S3200000x1 ![0] bcast_S3200000_S3200000x1_0 : (⟨S3200000, .i32⟩ : BufTy).Contents (Elt F) → (⟨S3200000x1, .i32⟩ : BufTy).Contents (Elt F)),
    binary main_v6 main_v27 main_v28 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_arg1 main_v29 ((extractStridedSlice S1x3200000 ![0, 0] · slices_S3x3200000_S1x3200000_0_0) : (⟨S3x3200000, .i32⟩ : BufTy).Contents (Elt F) → (⟨S1x3200000, .i32⟩ : BufTy).Contents (Elt F)),
    reshape main_v29 main_v30 rfl shapeCasts_S1x3200000_S3200000,
    nullary main_c_5 (constantI S_ 32 0#32),
    unary main_c_5 main_v31 (broadcastInDim S3200000 ![] bcast_S_S3200000 : (⟨S_, .i32⟩ : BufTy).Contents (Elt F) → (⟨S3200000, .i32⟩ : BufTy).Contents (Elt F)),
    binary main_v30 main_v31 main_v32 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 100000#32),
    unary main_c_6 main_v33 (broadcastInDim S3200000 ![] bcast_S_S3200000 : (⟨S_, .i32⟩ : BufTy).Contents (Elt F) → (⟨S3200000, .i32⟩ : BufTy).Contents (Elt F)),
    binary main_v30 main_v33 main_v34 (addi : (⟨S3200000, .i32⟩ : BufTy).Contents (Elt F) → (⟨S3200000, .i32⟩ : BufTy).Contents (Elt F) → (⟨S3200000, .i32⟩ : BufTy).Contents (Elt F)),
    ternary main_v32 main_v34 main_v30 main_v35 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v35 main_v36 (broadcastInDim S3200000x1 ![0] bcast_S3200000_S3200000x1_0 : (⟨S3200000, .i32⟩ : BufTy).Contents (Elt F) → (⟨S3200000x1, .i32⟩ : BufTy).Contents (Elt F)),
    binary main_v13 main_v36 main_v37 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    binary main_v28 main_v37 main_v38 (mulf : (⟨S3200000x16, .f32⟩ : BufTy).Contents (Elt F) → (⟨S3200000x16, .f32⟩ : BufTy).Contents (Elt F) → (⟨S3200000x16, .f32⟩ : BufTy).Contents (Elt F)),
    unary main_arg1 main_v39 ((extractStridedSlice S1x3200000 ![2, 0] · slices_S3x3200000_S1x3200000_2_0) : (⟨S3x3200000, .i32⟩ : BufTy).Contents (Elt F) → (⟨S1x3200000, .i32⟩ : BufTy).Contents (Elt F)),
    reshape main_v39 main_v40 rfl shapeCasts_S1x3200000_S3200000,
    nullary main_c_7 (constantI S_ 32 0#32),
    unary main_c_7 main_v41 (broadcastInDim S3200000 ![] bcast_S_S3200000 : (⟨S_, .i32⟩ : BufTy).Contents (Elt F) → (⟨S3200000, .i32⟩ : BufTy).Contents (Elt F)),
    binary main_v40 main_v41 main_v42 (cmpi .ne : (⟨S3200000, .i32⟩ : BufTy).Contents (Elt F) → (⟨S3200000, .i32⟩ : BufTy).Contents (Elt F) → (⟨S3200000, .i1⟩ : BufTy).Contents (Elt F)),
    unary main_v42 main_v43 (broadcastInDim S3200000x1 ![0] bcast_S3200000_S3200000x1_0 : (⟨S3200000, .i1⟩ : BufTy).Contents (Elt F) → (⟨S3200000x1, .i1⟩ : BufTy).Contents (Elt F)),
    nullary main_cst_8 (constant S_ .f32 0x00000000#32),
    unary main_cst_8 main_call3_v0 (id : (⟨S_, .f32⟩ : BufTy).Contents (Elt F) → (⟨S_, .f32⟩ : BufTy).Contents (Elt F)),
    unary main_v43 main_call3_v1 (broadcastInDim S3200000x16 ![0, 1] bcast_S3200000x1_S3200000x16_0_1 : (⟨S3200000x1, .i1⟩ : BufTy).Contents (Elt F) → (⟨S3200000x16, .i1⟩ : BufTy).Contents (Elt F)),
    unary main_call3_v0 main_call3_v2 (broadcastInDim S3200000x16 ![] bcast_S_S3200000x16 : (⟨S_, .f32⟩ : BufTy).Contents (Elt F) → (⟨S3200000x16, .f32⟩ : BufTy).Contents (Elt F)),
    ternary main_call3_v1 main_v38 main_call3_v2 main_v44 (select : (⟨S3200000x16, .i1⟩ : BufTy).Contents (Elt F) → (⟨S3200000x16, .f32⟩ : BufTy).Contents (Elt F) → (⟨S3200000x16, .f32⟩ : BufTy).Contents (Elt F) → (⟨S3200000x16, .f32⟩ : BufTy).Contents (Elt F)),
    reshape main_v44 main_v45 rfl shapeCasts_S3200000x16_S100000x32x16,
    unary main_v45 main_v46 ((transpose S100000x16x32 [0, 2, 1] · transposes_S100000x32x16_S100000x16x32_0_2_1) : (⟨S100000x32x16, .f32⟩ : BufTy).Contents (Elt F) → (⟨S100000x16x32, .f32⟩ : BufTy).Contents (Elt F)),
    unary main_arg1 main_v47 ((extractStridedSlice S1x3200000 ![2, 0] · slices_S3x3200000_S1x3200000_2_0) : (⟨S3x3200000, .i32⟩ : BufTy).Contents (Elt F) → (⟨S1x3200000, .i32⟩ : BufTy).Contents (Elt F)),
    reshape main_v47 main_v48 rfl shapeCasts_S1x3200000_S3200000 ]

/-- The operations of the second window (statements 61 … 94), calls written out. -/
abbrev ops1 : List (HloOp τ sig (Elt F)) :=
  [ reshape main_v48 main_v49 rfl shapeCasts_S3200000_S100000x32,
    nullary main_c_9 (constantI S_ 32 0#32),
    binary main_v49 main_c_9 main_v50 ((fun x v => Host.reduce IntOp.addi x v reducesTo_S100000x32_S100000_d1 h_S_) : (⟨S100000x32, .i32⟩ : BufTy).Contents (Elt F) → (⟨S_, .i32⟩ : BufTy).Contents (Elt F) → (⟨S100000, .i32⟩ : BufTy).Contents (Elt F)),
    unary main_v50 main_v51 (sitofp .f32 : (⟨S100000, .i32⟩ : BufTy).Contents (Elt F) → (⟨S100000, .f32⟩ : BufTy).Contents (Elt F)),
    unary main_v51 main_v52 (broadcastInDim S100000x1x1 ![0] bcast_S100000_S100000x1x1_0 : (⟨S100000, .f32⟩ : BufTy).Contents (Elt F) → (⟨S100000x1x1, .f32⟩ : BufTy).Contents (Elt F)),
    nullary main_cst_10 (constant S_ .f32 0x358637BD#32),
    unary main_cst_10 main_v53 (broadcastInDim S100000x1x1 ![] bcast_S_S100000x1x1 : (⟨S_, .f32⟩ : BufTy).Contents (Elt F) → (⟨S100000x1x1, .f32⟩ : BufTy).Contents (Elt F)),
    binary main_v52 main_v53 main_v54 (addf : (⟨S100000x1x1, .f32⟩ : BufTy).Contents (Elt F) → (⟨S100000x1x1, .f32⟩ : BufTy).Contents (Elt F) → (⟨S100000x1x1, .f32⟩ : BufTy).Contents (Elt F)),
    unary main_v54 main_v55 (broadcastInDim S100000x16x32 ![0, 1, 2] bcast_S100000x1x1_S100000x16x32_0_1_2 : (⟨S100000x1x1, .f32⟩ : BufTy).Contents (Elt F) → (⟨S100000x16x32, .f32⟩ : BufTy).Contents (Elt F)),
    binary main_v46 main_v55 main_v56 (Host.divf : (⟨S100000x16x32, .f32⟩ : BufTy).Contents (Elt F) → (⟨S100000x16x32, .f32⟩ : BufTy).Contents (Elt F) → (⟨S100000x16x32, .f32⟩ : BufTy).Contents (Elt F)),
    nullary main_cst_11 (constant S_ .f32 0x00000000#32),
    binary main_v56 main_cst_11 main_v57 ((fun x v => Host.reduceAdd x v reducesTo_S100000x16x32_S100000x16_d2 h_S_) : (⟨S100000x16x32, .f32⟩ : BufTy).Contents (Elt F) → (⟨S_, .f32⟩ : BufTy).Contents (Elt F) → (⟨S100000x16, .f32⟩ : BufTy).Contents (Elt F)),
    binary main_v19 main_v57 main_v58 (addf : (⟨S100000x16, .f32⟩ : BufTy).Contents (Elt F) → (⟨S100000x16, .f32⟩ : BufTy).Contents (Elt F) → (⟨S100000x16, .f32⟩ : BufTy).Contents (Elt F)),
    nullary main_cst_12 (constant S_ .f32 0x00000000#32),
    binary main_v58 main_cst_12 main_v59 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_v59 main_v60 (broadcastInDim S100000x1 ![0] bcast_S100000_S100000x1_0 : (⟨S100000, .f32⟩ : BufTy).Contents (Elt F) → (⟨S100000x1, .f32⟩ : BufTy).Contents (Elt F)),
    nullary main_cst_13 (constant S_ .f32 0x3089705F#32),
    unary main_cst_13 main_v61 (broadcastInDim S100000x1 ![] bcast_S_S100000x1 : (⟨S_, .f32⟩ : BufTy).Contents (Elt F) → (⟨S100000x1, .f32⟩ : BufTy).Contents (Elt F)),
    binary main_v60 main_v61 main_v62 (addf : (⟨S100000x1, .f32⟩ : BufTy).Contents (Elt F) → (⟨S100000x1, .f32⟩ : BufTy).Contents (Elt F) → (⟨S100000x1, .f32⟩ : BufTy).Contents (Elt F)),
    unary main_v62 main_v63 (broadcastInDim S100000x16 ![0, 1] bcast_S100000x1_S100000x16_0_1 : (⟨S100000x1, .f32⟩ : BufTy).Contents (Elt F) → (⟨S100000x16, .f32⟩ : BufTy).Contents (Elt F)),
    binary main_v58 main_v63 main_v64 (Host.divf : (⟨S100000x16, .f32⟩ : BufTy).Contents (Elt F) → (⟨S100000x16, .f32⟩ : BufTy).Contents (Elt F) → (⟨S100000x16, .f32⟩ : BufTy).Contents (Elt F)),
    nullary main_call4_cst (constant S_ .f32 0x00000000#32),
    unary main_call4_cst main_call4_v0 (broadcastInDim S512x16 ![] bcast_S_S512x16 : (⟨S_, .f32⟩ : BufTy).Contents (Elt F) → (⟨S512x16, .f32⟩ : BufTy).Contents (Elt F)),
    binary main_arg4 main_call4_v0 main_call4_v1 (cmpf .ogt : (⟨S512x16, .f32⟩ : BufTy).Contents (Elt F) → (⟨S512x16, .f32⟩ : BufTy).Contents (Elt F) → (⟨S512x16, .i1⟩ : BufTy).Contents (Elt F)),
    nullary main_call4_cst_0 (constant S_ .f32 0x00000000#32),
    unary main_call4_cst_0 main_call4_v2 (broadcastInDim S512x16 ![] bcast_S_S512x16 : (⟨S_, .f32⟩ : BufTy).Contents (Elt F) → (⟨S512x16, .f32⟩ : BufTy).Contents (Elt F)),
    binary main_arg4 main_call4_v2 main_call4_v3 (cmpf .ogt : (⟨S512x16, .f32⟩ : BufTy).Contents (Elt F) → (⟨S512x16, .f32⟩ : BufTy).Contents (Elt F) → (⟨S512x16, .i1⟩ : BufTy).Contents (Elt F)),
    nullary main_call4_cst_1 (constant S_ .f32 0x00000000#32),
    unary main_call4_cst_1 main_call4_call0_v0 (id : (⟨S_, .f32⟩ : BufTy).Contents (Elt F) → (⟨S_, .f32⟩ : BufTy).Contents (Elt F)),
    unary main_call4_call0_v0 main_call4_call0_v1 (broadcastInDim S512x16 ![] bcast_S_S512x16 : (⟨S_, .f32⟩ : BufTy).Contents (Elt F) → (⟨S512x16, .f32⟩ : BufTy).Contents (Elt F)),
    ternary main_call4_v3 main_call4_call0_v1 main_arg4 main_call4_v4 (select : (⟨S512x16, .i1⟩ : BufTy).Contents (Elt F) → (⟨S512x16, .f32⟩ : BufTy).Contents (Elt F) → (⟨S512x16, .f32⟩ : BufTy).Contents (Elt F) → (⟨S512x16, .f32⟩ : BufTy).Contents (Elt F)),
    unary main_call4_v4 main_call4_v5 (Host.expm1 : (⟨S512x16, .f32⟩ : BufTy).Contents (Elt F) → (⟨S512x16, .f32⟩ : BufTy).Contents (Elt F)),
    nullary main_call4_cst_2 (constant S_ .f32 0x3F800000#32),
    unary main_call4_cst_2 main_call4_v6 (broadcastInDim S512x16 ![] bcast_S_S512x16 : (⟨S_, .f32⟩ : BufTy).Contents (Elt F) → (⟨S512x16, .f32⟩ : BufTy).Contents (Elt F)),
    binary main_call4_v6 main_call4_v5 main_call4_v7 (mulf : (⟨S512x16, .f32⟩ : BufTy).Contents (Elt F) → (⟨S512x16, .f32⟩ : BufTy).Contents (Elt F) → (⟨S512x16, .f32⟩ : BufTy).Contents (Elt F)),
    ternary main_call4_v1 main_arg4 main_call4_v7 main_v65 (select : (⟨S512x16, .i1⟩ : BufTy).Contents (Elt F) → (⟨S512x16, .f32⟩ : BufTy).Contents (Elt F) → (⟨S512x16, .f32⟩ : BufTy).Contents (Elt F) → (⟨S512x16, .f32⟩ : BufTy).Contents (Elt F)),
    nullary main_cst_14 (constant S_ .f32 0x3F800000#32),
    unary main_cst_14 main_v66 (broadcastInDim S512x16 ![] bcast_S_S512x16 : (⟨S_, .f32⟩ : BufTy).Contents (Elt F) → (⟨S512x16, .f32⟩ : BufTy).Contents (Elt F)),
    binary main_v65 main_v66 main_v67 (addf : (⟨S512x16, .f32⟩ : BufTy).Contents (Elt F) → (⟨S512x16, .f32⟩ : BufTy).Contents (Elt F) → (⟨S512x16, .f32⟩ : BufTy).Contents (Elt F)),
    unary main_v67 main_v68 ((transpose S16x512 [1, 0] · transposes_S512x16_S16x512_1_0) : (⟨S512x16, .f32⟩ : BufTy).Contents (Elt F) → (⟨S16x512, .f32⟩ : BufTy).Contents (Elt F)),
    binary main_v64 main_v68 main_v69 ((fun l r => Host.dotGeneral dot_S100000x16_S16x512_S100000x512_1_0_0_1_n_n none l r) : (⟨S100000x16, .f32⟩ : BufTy).Contents (Elt F) → (⟨S16x512, .f32⟩ : BufTy).Contents (Elt F) → (⟨S100000x512, .f32⟩ : BufTy).Contents (Elt F)),
    nullary main_call5_cst (constant S_ .f32 0x00000000#32),
    unary main_call5_cst main_call5_v0 (broadcastInDim S1x512 ![] bcast_S_S1x512 : (⟨S_, .f32⟩ : BufTy).Contents (Elt F) → (⟨S1x512, .f32⟩ : BufTy).Contents (Elt F)),
    binary main_arg6 main_call5_v0 main_call5_v1 (cmpf .ogt : (⟨S1x512, .f32⟩ : BufTy).Contents (Elt F) → (⟨S1x512, .f32⟩ : BufTy).Contents (Elt F) → (⟨S1x512, .i1⟩ : BufTy).Contents (Elt F)),
    nullary main_call5_cst_0 (constant S_ .f32 0x00000000#32),
    unary main_call5_cst_0 main_call5_v2 (broadcastInDim S1x512 ![] bcast_S_S1x512 : (⟨S_, .f32⟩ : BufTy).Contents (Elt F) → (⟨S1x512, .f32⟩ : BufTy).Contents (Elt F)),
    binary main_arg6 main_call5_v2 main_call5_v3 (cmpf .ogt : (⟨S1x512, .f32⟩ : BufTy).Contents (Elt F) → (⟨S1x512, .f32⟩ : BufTy).Contents (Elt F) → (⟨S1x512, .i1⟩ : BufTy).Contents (Elt F)),
    nullary main_call5_cst_1 (constant S_ .f32 0x00000000#32),
    unary main_call5_cst_1 main_call5_call0_v0 (id : (⟨S_, .f32⟩ : BufTy).Contents (Elt F) → (⟨S_, .f32⟩ : BufTy).Contents (Elt F)),
    unary main_call5_call0_v0 main_call5_call0_v1 (broadcastInDim S1x512 ![] bcast_S_S1x512 : (⟨S_, .f32⟩ : BufTy).Contents (Elt F) → (⟨S1x512, .f32⟩ : BufTy).Contents (Elt F)),
    ternary main_call5_v3 main_call5_call0_v1 main_arg6 main_call5_v4 (select : (⟨S1x512, .i1⟩ : BufTy).Contents (Elt F) → (⟨S1x512, .f32⟩ : BufTy).Contents (Elt F) → (⟨S1x512, .f32⟩ : BufTy).Contents (Elt F) → (⟨S1x512, .f32⟩ : BufTy).Contents (Elt F)),
    unary main_call5_v4 main_call5_v5 (Host.expm1 : (⟨S1x512, .f32⟩ : BufTy).Contents (Elt F) → (⟨S1x512, .f32⟩ : BufTy).Contents (Elt F)),
    nullary main_call5_cst_2 (constant S_ .f32 0x3F800000#32),
    unary main_call5_cst_2 main_call5_v6 (broadcastInDim S1x512 ![] bcast_S_S1x512 : (⟨S_, .f32⟩ : BufTy).Contents (Elt F) → (⟨S1x512, .f32⟩ : BufTy).Contents (Elt F)),
    binary main_call5_v6 main_call5_v5 main_call5_v7 (mulf : (⟨S1x512, .f32⟩ : BufTy).Contents (Elt F) → (⟨S1x512, .f32⟩ : BufTy).Contents (Elt F) → (⟨S1x512, .f32⟩ : BufTy).Contents (Elt F)),
    ternary main_call5_v1 main_arg6 main_call5_v7 main_v70 (select : (⟨S1x512, .i1⟩ : BufTy).Contents (Elt F) → (⟨S1x512, .f32⟩ : BufTy).Contents (Elt F) → (⟨S1x512, .f32⟩ : BufTy).Contents (Elt F) → (⟨S1x512, .f32⟩ : BufTy).Contents (Elt F)),
    nullary main_cst_15 (constant S_ .f32 0x3F800000#32),
    unary main_cst_15 main_v71 (broadcastInDim S1x512 ![] bcast_S_S1x512 : (⟨S_, .f32⟩ : BufTy).Contents (Elt F) → (⟨S1x512, .f32⟩ : BufTy).Contents (Elt F)),
    binary main_v70 main_v71 main_v72 (addf : (⟨S1x512, .f32⟩ : BufTy).Contents (Elt F) → (⟨S1x512, .f32⟩ : BufTy).Contents (Elt F) → (⟨S1x512, .f32⟩ : BufTy).Contents (Elt F)),
    unary main_v72 main_v73 (broadcastInDim S100000x512 ![0, 1] bcast_S1x512_S100000x512_0_1 : (⟨S1x512, .f32⟩ : BufTy).Contents (Elt F) → (⟨S100000x512, .f32⟩ : BufTy).Contents (Elt F)),
    binary main_v69 main_v73 main_v74 (addf : (⟨S100000x512, .f32⟩ : BufTy).Contents (Elt F) → (⟨S100000x512, .f32⟩ : BufTy).Contents (Elt F) → (⟨S100000x512, .f32⟩ : BufTy).Contents (Elt F)) ]

/-- The whole line. -/
abbrev ops : List (HloOp τ sig (Elt F)) := ops0 ++ ops1

set_option maxRecDepth 4096 in
set_option maxHeartbeats 4000000 in
theorem main_part0_eq (c : Dev nD) : main_part0 (F := F) c = seq ops0 := by
  simp only [main_part0, fn_where.body, fn_where_0.body, fn_elu.body, fn_where_2.body, fn_where_3.body, fn_elu_1.body, fn_where_4.body, fn_where_6.body, fn_where_7.body, fn_elu_5.body, fn_where_9.body, fn_where_10.body, fn_elu_8.body, seq, bind_assoc, pure_bind]
  rfl

set_option maxRecDepth 4096 in
set_option maxHeartbeats 4000000 in
theorem main_part1_eq (c : Dev nD) : main_part1 (F := F) c = seq ops1 := by
  simp only [main_part1, fn_where.body, fn_where_0.body, fn_elu.body, fn_where_2.body, fn_where_3.body, fn_elu_1.body, fn_where_4.body, fn_where_6.body, fn_where_7.body, fn_elu_5.body, fn_where_9.body, fn_where_10.body, fn_elu_8.body, seq, bind_assoc, pure_bind]
  rfl

theorem main_eq (c : Dev nD) : main (F := F) c = seq ops := by
  show (main_part0 (F := F) c >>= fun _ => main_part1 (F := F) c) = _
  rw [main_part0_eq, main_part1_eq, ← seq_append]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., binary_bufs_sub .., unary_bufs_sub .., nullary_bufs_sub .., unary_bufs_sub .., unary_bufs_sub .., unary_bufs_sub .., ternary_bufs_sub .., reshape_bufs_sub .., unary_bufs_sub .., unary_bufs_sub .., reshape_bufs_sub ..⟩

theorem ops1_sub : (ops1 : List (HloOp τ sig (Elt F))).Forall fun op => op.bufs ⊆ tcRefs τ sig :=
  ⟨reshape_bufs_sub .., nullary_bufs_sub .., binary_bufs_sub .., unary_bufs_sub .., unary_bufs_sub .., nullary_bufs_sub .., unary_bufs_sub .., binary_bufs_sub .., unary_bufs_sub .., binary_bufs_sub .., nullary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., unary_bufs_sub .., binary_bufs_sub ..⟩

end Cert.ReferenceIdeal.RefValue

end
-- ==== Proof.RefStages.lean ====
/-
  The reference's result as a composition of named stages over the argument arrays: the
  non-negativity transform, the embeddings, the ego score, the rows of the adjacency table, the
  wrapped gathers, the masked per-edge products regrouped by cell, the neighbour count, the local
  score, the normalisation over the heads and the output projection.
-/
import proofs.«165512_j43946105373324_1_alg».proof.Proof.Gen.ReferenceIdeal
import Idealize.ShloMosaic.PureOps
import Idealize.ShloMosaic.PureOps.Ideal

noncomputable section

namespace Cert.ReferenceIdeal.RefValue

open Cert.ReferenceIdeal Cert.ReferenceIdeal.Gen Idealize.ShloMosaic

variable {F : FTy → Type} [FloatOps F]

/-- Float, integer and boolean arrays of a shape. -/
abbrev CF (F : FTy → Type) (S : Shape) : Type := (⟨S, .f32⟩ : BufTy).Contents (Elt F)
abbrev CI (F : FTy → Type) (S : Shape) : Type := (⟨S, .i32⟩ : BufTy).Contents (Elt F)
abbrev CB (F : FTy → Type) (S : Shape) : Type := (⟨S, .i1⟩ : BufTy).Contents (Elt F)

/-- `elu w`: `w` where `w > 0`, else `1 · expm1 w'` with `w' = 0` where `w > 0`, else `w`. -/
def eluT (S : Shape) (hb : S_.BroadcastsInDim S (![] : Fin 0 → Fin S.rank)) (w : CF F S) : CF F S :=
  select (cmpf .ogt w (broadcastInDim S ![] hb (constant S_ .f32 0x00000000#32))) w
    (mulf (broadcastInDim S ![] hb (constant S_ .f32 0x3F800000#32))
      (Host.expm1 (select (cmpf .ogt w (broadcastInDim S ![] hb (constant S_ .f32 0x00000000#32)))
        (broadcastInDim S ![] hb (id (constant S_ .f32 0x00000000#32))) w)))

/-- `elu w + 1`. -/
def nnT (S : Shape) (hb : S_.BroadcastsInDim S (![] : Fin 0 → Fin S.rank)) (w : CF F S) : CF F S :=
  addf (eluT S hb w) (broadcastInDim S ![] hb (constant S_ .f32 0x3F800000#32))

/-- `(x · (nn w)ᵀ) · (1/512)`. -/
def embT (x : CF F S100000x512) (w : CF F S16x512) : CF F S100000x16 :=
  mulf (Host.dotGeneral dot_S100000x512_S512x16_S100000x16_1_0_0_1_n_n none x
      (transpose S512x16 [1, 0] (nnT S16x512 bcast_S_S16x512 w) transposes_S16x512_S512x16_1_0))
    (broadcastInDim S100000x16 ![] bcast_S_S100000x16 (constant S_ .f32 0x3B000000#32))

/-- `(q · q) · nn es`, `es` repeated over the cells. -/
def egoT (x : CF F S100000x512) (qw : CF F S16x512) (es : CF F S1x16) : CF F S100000x16 :=
  mulf (mulf (embT x qw) (embT x qw))
    (broadcastInDim S100000x16 ![0, 1] bcast_S1x16_S100000x16_0_1 (nnT S1x16 bcast_S_S1x16 es))

/-- One row of the adjacency table as a vector of edges. -/
def adjRowT (off : Fin 2 → Nat) (hs : S3x3200000.Slices off S1x3200000) (adj : CI F S3x3200000) : CI F S3200000 :=
  shapeCast S3200000 (extractStridedSlice S1x3200000 off adj hs) shapeCasts_S1x3200000_S3200000

/-- A negative row number counts from the end. -/
def wrapT (r : CI F S3200000) : CI F S3200000 :=
  select (cmpi .slt r (broadcastInDim S3200000 ![] bcast_S_S3200000 (constantI S_ 32 0#32)))
    (addi r (broadcastInDim S3200000 ![] bcast_S_S3200000 (constantI S_ 32 100000#32))) r

/-- The rows of an embedding that the (wrapped) row numbers address, one per edge. -/
def gatherT (e : CF F S100000x16) (r : CI F S3200000) : CF F S3200000x16 :=
  Host.gather gather_S100000x16_S3200000x1_S3200000x16_1_0_n_n_0_1_116 e
    (broadcastInDim S3200000x1 ![0] bcast_S3200000_S3200000x1_0 (wrapT r))

/-- The mask of an edge: its mask word is not zero. -/
def maskT (adj : CI F S3x3200000) : CB F S3200000x1 :=
  broadcastInDim S3200000x1 ![0] bcast_S3200000_S3200000x1_0
    (cmpi .ne (adjRowT ![2, 0] slices_S3x3200000_S1x3200000_2_0 adj)
      (broadcastInDim S3200000 ![] bcast_S_S3200000 (constantI S_ 32 0#32)))

/-- The masked product of an edge, per head. -/
def scoreT (x : CF F S100000x512) (adj : CI F S3x3200000) (qw kw : CF F S16x512) : CF F S3200000x16 :=
  select (broadcastInDim S3200000x16 ![0, 1] bcast_S3200000x1_S3200000x16_0_1 (maskT adj))
    (mulf (gatherT (embT x qw) (adjRowT ![1, 0] slices_S3x3200000_S1x3200000_1_0 adj))
      (gatherT (embT x kw) (adjRowT ![0, 0] slices_S3x3200000_S1x3200000_0_0 adj)))
    (broadcastInDim S3200000x16 ![] bcast_S_S3200000x16 (id (constant S_ .f32 0x00000000#32)))

/-- The masked products regrouped as cell × head × slot. -/
def scoreTT (x : CF F S100000x512) (adj : CI F S3x3200000) (qw kw : CF F S16x512) : CF F S100000x16x32 :=
  transpose S100000x16x32 [0, 2, 1]
    (shapeCast S100000x32x16 (scoreT x adj qw kw) shapeCasts_S3200000x16_S100000x32x16)
    transposes_S100000x32x16_S100000x16x32_0_2_1

/-- The mask words of a cell added as integers, as a float. -/
def cntT (adj : CI F S3x3200000) : CF F S100000 :=
  sitofp .f32 (Host.reduce IntOp.addi
    (shapeCast S100000x32 (adjRowT ![2, 0] slices_S3x3200000_S1x3200000_2_0 adj) shapeCasts_S3200000_S100000x32)
    (constantI S_ 32 0#32) reducesTo_S100000x32_S100000_d1 h_S_)

/-- The count plus 1e-6, repeated over heads and slots. -/
def denT (adj : CI F S3x3200000) : CF F S100000x16x32 :=
  broadcastInDim S100000x16x32 ![0, 1, 2] bcast_S100000x1x1_S100000x16x32_0_1_2
    (addf (broadcastInDim S100000x1x1 ![0] bcast_S100000_S100000x1x1_0 (cntT adj))
      (broadcastInDim S100000x1x1 ![] bcast_S_S100000x1x1 (constant S_ .f32 0x358637BD#32)))

/-- The local score: each masked product divided by the count, summed over the slots. -/
def slT (x : CF F S100000x512) (adj : CI F S3x3200000) (qw kw : CF F S16x512) : CF F S100000x16 :=
  Host.reduceAdd (Host.divf (scoreTT x adj qw kw) (denT adj)) (constant S_ .f32 0x00000000#32)
    reducesTo_S100000x16x32_S100000x16_d2 h_S_

/-- Ego score plus local score. -/
def sumT (x : CF F S100000x512) (adj : CI F S3x3200000) (qw kw : CF F S16x512) (es : CF F S1x16) : CF F S100000x16 :=
  addf (egoT x qw es) (slT x adj qw kw)

/-- The sum over the heads plus 1e-9, repeated over the heads. -/
def normT (x : CF F S100000x512) (adj : CI F S3x3200000) (qw kw : CF F S16x512) (es : CF F S1x16) : CF F S100000x16 :=
  broadcastInDim S100000x16 ![0, 1] bcast_S100000x1_S100000x16_0_1
    (addf (broadcastInDim S100000x1 ![0] bcast_S100000_S100000x1_0
        (Host.reduceAdd (sumT x adj qw kw es) (constant S_ .f32 0x00000000#32) reducesTo_S100000x16_S100000_d1 h_S_))
      (broadcastInDim S100000x1 ![] bcast_S_S100000x1 (constant S_ .f32 0x3089705F#32)))

/-- The attention weights. -/
def attnT (x : CF F S100000x512) (adj : CI F S3x3200000) (qw kw : CF F S16x512) (es : CF F S1x16) : CF F S100000x16 :=
  Host.divf (sumT x adj qw kw es) (normT x adj qw kw es)

/-- The result: the weights projected by `nn vw`, plus `nn b` repeated over the cells. -/
def refValF (x : CF F S100000x512) (adj : CI F S3x3200000) (qw kw : CF F S16x512) (vw : CF F S512x16)
    (es : CF F S1x16) (b : CF F S1x512) : CF F S100000x512 :=
  addf (Host.dotGeneral dot_S100000x16_S16x512_S100000x512_1_0_0_1_n_n none (attnT x adj qw kw es)
      (transpose S16x512 [1, 0] (nnT S512x16 bcast_S_S512x16 vw) transposes_S512x16_S16x512_1_0))
    (broadcastInDim S100000x512 ![0, 1] bcast_S1x512_S100000x512_0_1 (nnT S1x512 bcast_S_S1x512 b))

/-- The result at the exact-arithmetic instance. -/
def refVal (x : CF Ideal S100000x512) (adj : CI Ideal S3x3200000) (qw kw : CF Ideal S16x512) (vw : CF Ideal S512x16)
    (es : CF Ideal S1x16) (b : CF Ideal S1x512) : CF Ideal S100000x512 :=
  refValF x adj qw kw vw es b

end Cert.ReferenceIdeal.RefValue

end
-- ==== Proof.RefRun.lean ====
/-
  The reference program runs to completion from any memory, and ends with its result buffer at
  the composition of stages `refVal` of the argument arrays, the arguments unchanged: the fold of
  the operation line over the launch contents, read at the result and at each argument.
-/
import proofs.«165512_j43946105373324_1_alg».proof.Proof.RefOps
import proofs.«165512_j43946105373324_1_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem ops_sub : (ops : List (HloOp τ sig (Elt F))).Forall fun op => op.bufs ⊆ tcRefs τ sig :=
  List.forall_iff_forall_mem.2 fun op h => (List.mem_append.1 h).elim
    (List.forall_iff_forall_mem.1 ops0_sub op) (List.forall_iff_forall_mem.1 ops1_sub op)

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ :=
  fun op h => (List.mem_append.1 h).elim
    (List.forall_iff_forall_mem.1 ops0_fresh op) (List.forall_iff_forall_mem.1 ops1_fresh op)

set_option maxRecDepth 16384 in
set_option maxHeartbeats 20000000 in
/-- The fold at the result buffer is the composition of stages of the arguments' contents. -/
theorem out_eq (V : Valuation τ sig (Elt F)) :
    after ops V (main_v74 : DevRef τ sig)
      = refValF (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [after_append]
  simp only [refValF, attnT, normT, sumT, slT, denT, cntT, scoreTT, scoreT, maskT, gatherT, wrapT, adjRowT, egoT, embT, nnT, eluT]
  after_results_simp
  rfl

set_option maxRecDepth 16384
set_option maxHeartbeats 4000000

theorem arg0_eq (V : Valuation τ sig (Elt F)) :
    after ops V (main_arg0 : DevRef τ sig) = V (main_arg0 : DevRef τ sig) := by
  rw [after_append]
  after_results_simp

theorem arg1_eq (V : Valuation τ sig (Elt F)) :
    after ops V (main_arg1 : DevRef τ sig) = V (main_arg1 : DevRef τ sig) := by
  rw [after_append]
  after_results_simp

theorem arg2_eq (V : Valuation τ sig (Elt F)) :
    after ops V (main_arg2 : DevRef τ sig) = V (main_arg2 : DevRef τ sig) := by
  rw [after_append]
  after_results_simp

theorem arg3_eq (V : Valuation τ sig (Elt F)) :
    after ops V (main_arg3 : DevRef τ sig) = V (main_arg3 : DevRef τ sig) := by
  rw [after_append]
  after_results_simp

theorem arg4_eq (V : Valuation τ sig (Elt F)) :
    after ops V (main_arg4 : DevRef τ sig) = V (main_arg4 : DevRef τ sig) := by
  rw [after_append]
  after_results_simp

theorem arg5_eq (V : Valuation τ sig (Elt F)) :
    after ops V (main_arg5 : DevRef τ sig) = V (main_arg5 : DevRef τ sig) := by
  rw [after_append]
  after_results_simp

theorem arg6_eq (V : Valuation τ sig (Elt F)) :
    after ops V (main_arg6 : DevRef τ sig) = V (main_arg6 : DevRef τ sig) := by
  rw [after_append]
  after_results_simp

/-- On every device, from any memory with zero counters: every weakly fair execution of the reference
    terminates with its result at `refVal` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v74) = refVal (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v74).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c)),
      (h c main_arg6).trans (arg6_eq (launchContents m c))⟩)
    (run_seq scopedRefs_eq scopedSems_eq defs main (fun _ => ops) main_eq (fun _ => ops_sub) m ρ (fun _ => ops_fresh))

end Cert.ReferenceIdeal.RefValue

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«165512_j43946105373324_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.RefRead1.lean ====
/-
  The first stages read at an index: the non-negativity transform is `Spec.nn` of the entry, the
  embedding at (cell, head) is `Spec.emb`, the ego score is `Spec.ego`.
-/
import proofs.«165512_j43946105373324_1_alg».proof.Proof.RefStages
import proofs.«165512_j43946105373324_1_alg».proof.Proof.Spec
import proofs.«165512_j43946105373324_1_alg».proof.Proof.LibDotColsHost
import Idealize.ShloMosaic.Lib.IdealHost
import Idealize.ShloMosaic.Lib.ValueLayout
import Idealize.ShloMosaic.Lib.KernelVsHost

noncomputable section

open scoped BigOperators

namespace Cert.ReferenceIdeal.RefValue

open Cert.ReferenceIdeal Cert.ReferenceIdeal.Gen Idealize.ShloMosaic Idealize.ShloMosaic.ValueIdx Cert.Spec

/-- `elu w + 1` at an index is the scalar transform of the entry. -/
theorem nnT_apply (S : Shape) (hb : S_.BroadcastsInDim S (![] : Fin 0 → Fin S.rank)) (w : CF Ideal S) (i : S.Idx) :
    nnT S hb w i = nn (w i) := rfl

/-- The embedding at (cell, head): the row of `x` against the transformed row of `w`, times 1/512. -/
theorem embT_apply (x : CF Ideal S100000x512) (w : CF Ideal S16x512) (p : Fin 100000) (h : Fin 16) :
    embT x w (ix2 p h) = emb (cur2 x) (cur2 w) p h := by
  have h1 := Cert.Lib.DotColsHost.dotGeneral_cols_apply (M := 100000) (K := 512) (N := 16) (φ₁ := .f32) (φ₂ := .f32)
    dot_S100000x512_S512x16_S100000x16_1_0_0_1_n_n rfl none .single x
    (transpose S512x16 [1, 0] (nnT S16x512 bcast_S_S16x512 w) transposes_S16x512_S512x16_1_0) p h
  calc embT x w (ix2 p h)
      = FloatOps.dotGeneral dot_S100000x512_S512x16_S100000x16_1_0_0_1_n_n none .single x
          (transpose S512x16 [1, 0] (nnT S16x512 bcast_S_S16x512 w) transposes_S16x512_S512x16_1_0) (ix2 p h) * inv512 := rfl
    _ = (∑ k : Fin 512, x (ix2 p k)
          * transpose S512x16 [1, 0] (nnT S16x512 bcast_S_S16x512 w) transposes_S16x512_S512x16_1_0 (ix2 k h)) * inv512 := by
        rw [h1]
    _ = emb (cur2 x) (cur2 w) p h := by
        unfold emb
        refine congrArg (· * inv512) (Finset.sum_congr rfl fun k _ => ?_)
        rw [transpose_ix2_apply, nnT_apply]
        rfl

/-- The ego score at (cell, head). -/
theorem egoT_apply (x : CF Ideal S100000x512) (qw : CF Ideal S16x512) (es : CF Ideal S1x16) (p : Fin 100000) (h : Fin 16) :
    egoT x qw es (ix2 p h) = ego (cur2 x) (cur2 qw) (row0 es) p h := by
  calc egoT x qw es (ix2 p h)
      = (embT x qw (ix2 p h) * embT x qw (ix2 p h))
          * broadcastInDim S100000x16 ![0, 1] bcast_S1x16_S100000x16_0_1 (nnT S1x16 bcast_S_S1x16 es) (ix2 p h) := rfl
    _ = ego (cur2 x) (cur2 qw) (row0 es) p h := by
        rw [embT_apply, broadcastInDim_oneRow_apply, nnT_apply]
        rfl

end Cert.ReferenceIdeal.RefValue

end
-- ==== Proof.RefRead2.lean ====
/-
  The edge stages read at an index: a row of the adjacency table, the wrapped row number, the
  gathered embedding row (`Spec.row`), the mask, and the masked product of an edge (`Spec.score`).
-/
import proofs.«165512_j43946105373324_1_alg».proof.Proof.RefRead1
import proofs.«165512_j43946105373324_1_alg».proof.Proof.LibSegments

noncomputable section

open scoped BigOperators

namespace Cert.ReferenceIdeal.RefValue

open Cert.ReferenceIdeal Cert.ReferenceIdeal.Gen Idealize.ShloMosaic Idealize.ShloMosaic.ValueIdx Cert.Spec

section Broadcasts
variable {α : Type}

/-- A vector broadcast to a one-column matrix reads, at `(e, u)`, the vector at `e`. -/
theorem bcastCol_apply {n : ℕ} (hb : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] hb v (ix2 e u) = v (ix1 e) := by
  refine broadcastInDim_apply ![0] hb v (ix2 e u) (ix1 e) fun a => ?_
  match a with
  | ⟨0, _⟩ =>
    show e.val = if n = 1 then 0 else e.val
    split
    · have := e.isLt; omega
    · rfl

/-- A one-column matrix broadcast along its rows reads, at `(e, h)`, its entry `(e, 0)`. -/
theorem bcastAlong_apply {n c : ℕ} (hb : (⟨2, ![n, 1]⟩ : Shape).BroadcastsInDim ⟨2, ![n, c]⟩ ![0, 1])
    (v : (⟨2, ![n, 1]⟩ : Shape).Idx → α) (e : Fin n) (h : Fin c) :
    broadcastInDim ⟨2, ![n, c]⟩ ![0, 1] hb v (ix2 e h) = v (ix2 e (0 : Fin 1)) := by
  refine broadcastInDim_apply ![0, 1] hb v (ix2 e h) (ix2 e (0 : Fin 1)) fun a => ?_
  match a with
  | ⟨0, _⟩ =>
    show e.val = if n = 1 then 0 else e.val
    split
    · have := e.isLt; omega
    · rfl
  | ⟨1, _⟩ =>
    show (0 : ℕ) = if (1 : ℕ) = 1 then 0 else h.val
    rw [if_pos rfl]

end Broadcasts

/-- Row `r` of the adjacency table as a vector: at edge `e` the table's entry `(r, e)`. -/
theorem adjRowT_apply (off : Fin 2 → Nat) (hs : S3x3200000.Slices off S1x3200000) (adj : CI Ideal S3x3200000)
    (r : Fin 3) (h0 : off 0 = r.val) (h1 : off 1 = 0) (e : Fin 3200000) :
    adjRowT off hs adj (ix1 e) = cur2 adj r e := by
  unfold adjRowT
  refine (shapeCast_1a_a_apply _ _ e).trans ?_
  refine extractStridedSlice_apply off adj hs (ix2 (0 : Fin 1) e) (ix2 r e) fun a => ?_
  match a with
  | ⟨0, _⟩ =>
    show r.val = off 0 + 0
    omega
  | ⟨1, _⟩ =>
    show e.val = off 1 + e.val
    omega

/-- The wrapped row number at an edge. -/
theorem wrapT_apply (r : CI Ideal S3200000) (i : S3200000.Idx) : wrapT r i = wrap (r i) := rfl

/-- The printed row gather at (edge, head): the operand at the row the index array names there, read signed and
    clamped into the table, and the same column. -/
theorem gather_read (em : CF Ideal S100000x16) (idx : CI Ideal S3200000x1) (e : Fin 3200000) (h : Fin 16) :
    Host.gather gather_S100000x16_S3200000x1_S3200000x16_1_0_n_n_0_1_116 em idx (ix2 e h)
      = em (ix2 (⟨min (idx (ix2 e (0 : Fin 1))).toInt.toNat (100000 - 1), by omega⟩ : Fin 100000) h) :=
  Segments.gather_rows_apply_of_dims (N := 100000) (E := 3200000) (C := 16) (w := 32) (by norm_num)
    gather_S100000x16_S3200000x1_S3200000x16_1_0_n_n_0_1_116 rfl rfl rfl rfl rfl rfl rfl em idx e h

/-- The gathered row at (edge, head): the embedding at the row the edge's number addresses. -/
theorem gatherT_apply (em : CF Ideal S100000x16) (r : CI Ideal S3200000) (e : Fin 3200000) (h : Fin 16) :
    gatherT em r (ix2 e h) = em (ix2 (row (r (ix1 e))) h) := by
  have hi : broadcastInDim S3200000x1 ![0] bcast_S3200000_S3200000x1_0 (wrapT r) (ix2 e (0 : Fin 1)) = wrap (r (ix1 e)) :=
    (bcastCol_apply bcast_S3200000_S3200000x1_0 (wrapT r) e 0).trans (wrapT_apply r (ix1 e))
  have hg : gatherT em r (ix2 e h)
      = em (ix2 (⟨min (broadcastInDim S3200000x1 ![0] bcast_S3200000_S3200000x1_0 (wrapT r)
            (ix2 e (0 : Fin 1))).toInt.toNat (100000 - 1), by omega⟩ : Fin 100000) h) := by
    unfold gatherT
    exact gather_read em _ e h
  exact hg.trans
    (congrArg (fun b : BitVec 32 => em (ix2 (⟨min b.toInt.toNat (100000 - 1), by omega⟩ : Fin 100000) h)) hi)

/-- The mask of an edge: its mask word is not zero. -/
theorem maskT_apply (adj : CI Ideal S3x3200000) (e : Fin 3200000) :
    maskT adj (ix2 e (0 : Fin 1)) = IntOp.cmpi .ne (cur2 adj 2 e) 0#32 := by
  unfold maskT
  refine (bcastCol_apply bcast_S3200000_S3200000x1_0 _ e 0).trans ?_
  show IntOp.cmpi .ne (adjRowT ![2, 0] slices_S3x3200000_S1x3200000_2_0 adj (ix1 e)) 0#32 = _
  rw [adjRowT_apply ![2, 0] _ adj 2 rfl rfl e]

/-- The masked product of an edge, per head. -/
theorem scoreT_apply (x : CF Ideal S100000x512) (adj : CI Ideal S3x3200000) (qw kw : CF Ideal S16x512)
    (e : Fin 3200000) (h : Fin 16) :
    scoreT x adj qw kw (ix2 e h) = score (cur2 x) (cur2 adj) (cur2 qw) (cur2 kw) e h := by
  calc scoreT x adj qw kw (ix2 e h)
      = Scalar.select (broadcastInDim S3200000x16 ![0, 1] bcast_S3200000x1_S3200000x16_0_1 (maskT adj) (ix2 e h))
          (gatherT (embT x qw) (adjRowT ![1, 0] slices_S3x3200000_S1x3200000_1_0 adj) (ix2 e h)
            * gatherT (embT x kw) (adjRowT ![0, 0] slices_S3x3200000_S1x3200000_0_0 adj) (ix2 e h)) zero := rfl
    _ = score (cur2 x) (cur2 adj) (cur2 qw) (cur2 kw) e h := by
        rw [bcastAlong_apply, maskT_apply, gatherT_apply, gatherT_apply, embT_apply, embT_apply,
          adjRowT_apply ![1, 0] _ adj 1 rfl rfl e, adjRowT_apply ![0, 0] _ adj 0 rfl rfl e]
        rfl

end Cert.ReferenceIdeal.RefValue

end
-- ==== Proof.LibPairwise.lean ====
/-
  Reading a pairwise ("outer") arrangement of two rank-2 arrays at an index given by coordinates.

  To compare every column entry of row `p` of one array with every column entry of row `p` of another, a kernel
  casts an `[a, b]` array to `[a, b, 1]` and an `[a, c]` array to `[a, 1, c]` and broadcasts both to `[a, b, c]`.
  Read at `(p, q, r)` the first is the `[a, b]` array at `(p, q)` and the second the `[a, c]` array at `(p, r)`.
  A reduction along the last axis of the `[a, b, c]` arrangement runs, at `(p, q)`, over the indices `(p, q, r)`.
-/
import Idealize.ShloMosaic.Lib.ValueLayout
import Idealize.ShloMosaic.Lib.Pipeline.Value
import Idealize.ShloMosaic.Lib.ValueIdx
import Idealize.ShloMosaic.PureOps.Reduce

namespace Idealize.ShloMosaic.Pairwise

open Idealize.ShloMosaic Idealize.ShloMosaic.ValueIdx

variable {α : Type}

/-- An `[a, b]` array cast to `[a, b, 1]` reads, at `(p, q, u)`, the array at `(p, q)`. -/
theorem castCol_apply {a b : ℕ} (x : (⟨2, ![a, b]⟩ : Shape).Idx → α)
    (h : (⟨2, ![a, b]⟩ : Shape).ShapeCasts ⟨3, ![a, b, 1]⟩) (p : Fin a) (q : Fin b) :
    shapeCast ⟨3, ![a, b, 1]⟩ x h (ix3 p q (0 : Fin 1)) = x (ix2 p q) :=
  shapeCast_apply x h _ _ (by
    rw [Shape.rowMajor_val_two, Shape.rowMajor_val_three]
    show p.val * b + q.val = (p.val * b + q.val) * 1 + 0
    rw [Nat.mul_one, Nat.add_zero])

/-- An `[a, c]` array cast to `[a, 1, c]` reads, at `(p, u, r)`, the array at `(p, r)`. -/
theorem castRow_apply {a c : ℕ} (x : (⟨2, ![a, c]⟩ : Shape).Idx → α)
    (h : (⟨2, ![a, c]⟩ : Shape).ShapeCasts ⟨3, ![a, 1, c]⟩) (p : Fin a) (r : Fin c) :
    shapeCast ⟨3, ![a, 1, c]⟩ x h (ix3 p (0 : Fin 1) r) = x (ix2 p r) :=
  shapeCast_apply x h _ _ (by
    rw [Shape.rowMajor_val_two, Shape.rowMajor_val_three]
    show p.val * c + r.val = (p.val * 1 + 0) * c + r.val
    rw [Nat.mul_one, Nat.add_zero])

/-- An `[a, b, 1]` array broadcast to `[a, b, c]` reads, at `(p, q, r)`, its entry `(p, q, 0)`. -/
theorem broadcastCol_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array broadcast to `[a, b, c]` reads, at `(p, q, r)`, its entry `(p, 0, r)`. -/
theorem broadcastRow_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- The indices of `[a, b, c]` that a reduction along the last axis runs over at `(p, q)` are `(p, q, r)`. -/
theorem lift_last {a b c : ℕ} (h : (⟨3, ![a, b, c]⟩ : Shape).Reduces [2] ⟨2, ![a, b]⟩) (p : Fin a) (q : Fin b) (r : Fin c) :
    h.lift (ix2 p q) r = ix3 p q r := by
  funext d
  apply Fin.ext
  match d with
  | ⟨0, _⟩ => rfl
  | ⟨1, _⟩ => rfl
  | ⟨2, _⟩ => rfl

end Idealize.ShloMosaic.Pairwise
-- ==== Proof.RefRead3.lean ====
/-
  The per-cell stages read at an index: the masked products regrouped as cell × head × slot
  (edge `32 i + j`), the integer count of a cell's mask words (`Spec.icount`) as a float
  (`Spec.cntR`), the denominator, and the local score (`Spec.slR`).
-/
import proofs.«165512_j43946105373324_1_alg».proof.Proof.RefRead2
import proofs.«165512_j43946105373324_1_alg».proof.Proof.LibPairwise

noncomputable section

open scoped BigOperators

namespace Cert.ReferenceIdeal.RefValue

open Cert.ReferenceIdeal Cert.ReferenceIdeal.Gen Idealize.ShloMosaic Idealize.ShloMosaic.ValueIdx Cert.Spec

section Auxiliary
variable {α : Type}

/-- A fold of 32-bit addition over all of `Fin n` is the left fold over the coordinates in order. -/
theorem fold_addi_eq_foldl {n : ℕ} (g : Fin n → BitVec 32) :
    (Finset.univ : Finset (Fin n)).fold IntOp.addi 0#32 g
      = (List.finRange n).foldl (fun r j => IntOp.addi r (g j)) 0#32 := by
  rw [Finset.fold, Fin.univ_def]
  show Multiset.fold IntOp.addi 0#32 (Multiset.map g (List.finRange n : Multiset (Fin n))) = _
  rw [Multiset.map_coe, Multiset.coe_fold_l, List.foldl_map]

/-- The indices of `[a, b]` that a reduction along the last axis runs over at `p` are `(p, q)`. -/
theorem lift_last2 {a b : ℕ} (h : (⟨2, ![a, b]⟩ : Shape).Reduces [1] ⟨1, ![a]⟩) (p : Fin a) (q : Fin b) :
    h.lift (ix1 p) q = ix2 p q := by
  funext d
  apply Fin.ext
  match d with
  | ⟨0, _⟩ => rfl
  | ⟨1, _⟩ => rfl

/-- A vector broadcast to `[n, 1, 1]` reads, at `(p, u, u')`, the vector at `p`. -/
theorem bcastVec3_apply {n : ℕ} (hb : (⟨1, ![n]⟩ : Shape).BroadcastsInDim ⟨3, ![n, 1, 1]⟩ ![0])
    (v : (⟨1, ![n]⟩ : Shape).Idx → α) (p : Fin n) (u u' : Fin 1) :
    broadcastInDim ⟨3, ![n, 1, 1]⟩ ![0] hb v (ix3 p u u') = v (ix1 p) := by
  refine broadcastInDim_apply ![0] hb v (ix3 p u u') (ix1 p) fun a => ?_
  match a with
  | ⟨0, _⟩ =>
    show p.val = if n = 1 then 0 else p.val
    split
    · have := p.isLt; omega
    · rfl

/-- An `[n, 1, 1]` array broadcast to `[n, b, c]` reads, at `(p, q, r)`, its entry `(p, 0, 0)`. -/
theorem bcast3_apply {n b c : ℕ} (hb : (⟨3, ![n, 1, 1]⟩ : Shape).BroadcastsInDim ⟨3, ![n, b, c]⟩ ![0, 1, 2])
    (v : (⟨3, ![n, 1, 1]⟩ : Shape).Idx → α) (p : Fin n) (q : Fin b) (r : Fin c) :
    broadcastInDim ⟨3, ![n, b, c]⟩ ![0, 1, 2] hb v (ix3 p q r) = v (ix3 p (0 : Fin 1) (0 : Fin 1)) := by
  refine broadcastInDim_apply ![0, 1, 2] hb v (ix3 p q r) (ix3 p (0 : Fin 1) (0 : Fin 1)) fun a => ?_
  match a with
  | ⟨0, _⟩ =>
    show p.val = if n = 1 then 0 else p.val
    split
    · have := p.isLt; omega
    · rfl
  | ⟨1, _⟩ =>
    show (0 : ℕ) = if (1 : ℕ) = 1 then 0 else q.val
    rw [if_pos rfl]
  | ⟨2, _⟩ =>
    show (0 : ℕ) = if (1 : ℕ) = 1 then 0 else r.val
    rw [if_pos rfl]

end Auxiliary

/-- The regrouped masked products at (cell, head, slot): the product of edge `32 i + j`. -/
theorem scoreTT_apply (x : CF Ideal S100000x512) (adj : CI Ideal S3x3200000) (qw kw : CF Ideal S16x512)
    (p : Fin 100000) (h : Fin 16) (j : Fin 32) :
    scoreTT x adj qw kw (ix3 p h j) = score (cur2 x) (cur2 adj) (cur2 qw) (cur2 kw) (edge p j) h := by
  unfold scoreTT
  refine (transpose_ix3_021_apply _ _ p h j).trans ?_
  refine (shapeCast_apply (scoreT x adj qw kw) shapeCasts_S3200000x16_S100000x32x16 (ix3 p j h) (ix2 (edge p j) h) ?_).trans
    (scoreT_apply x adj qw kw (edge p j) h)
  rw [Shape.rowMajor_val_two, Shape.rowMajor_val_three]
  show (32 * p.val + j.val) * 16 + h.val = (p.val * 32 + j.val) * 16 + h.val
  omega

/-- Row 2 of the table regrouped as cell × slot: at `(i, j)` the mask word of edge `32 i + j`. -/
theorem maskRows_apply (adj : CI Ideal S3x3200000) (p : Fin 100000) (j : Fin 32) :
    shapeCast S100000x32 (adjRowT ![2, 0] slices_S3x3200000_S1x3200000_2_0 adj) shapeCasts_S3200000_S100000x32 (ix2 p j)
      = cur2 adj 2 (edge p j) := by
  refine (shapeCast_apply _ shapeCasts_S3200000_S100000x32 (ix2 p j) (ix1 (edge p j)) ?_).trans
    (adjRowT_apply ![2, 0] _ adj 2 rfl rfl (edge p j))
  rw [Shape.rowMajor_val_one, Shape.rowMajor_val_two]
  show 32 * p.val + j.val = p.val * 32 + j.val
  omega

/-- The count of a cell as a float: its 32 mask words added as integers, converted. -/
theorem cntT_apply (adj : CI Ideal S3x3200000) (p : Fin 100000) : cntT adj (ix1 p) = cntR (cur2 adj) p := by
  have hred : S100000x32.Reduces [1] S100000 := by decide
  have hfold := Host.reduce_eq_fold_single IntOp.addi
    (shapeCast S100000x32 (adjRowT ![2, 0] slices_S3x3200000_S1x3200000_2_0 adj) shapeCasts_S3200000_S100000x32)
    (constantI S_ 32 0#32) reducesTo_S100000x32_S100000_d1 hred h_S_ (ix1 p)
  have hcount : Host.reduce IntOp.addi
      (shapeCast S100000x32 (adjRowT ![2, 0] slices_S3x3200000_S1x3200000_2_0 adj) shapeCasts_S3200000_S100000x32)
      (constantI S_ 32 0#32) reducesTo_S100000x32_S100000_d1 h_S_ (ix1 p) = icount (cur2 adj) p := by
    refine hfold.trans ?_
    refine (fold_addi_eq_foldl (n := 32) _).trans ?_
    unfold icount
    refine congrArg (fun f => (List.finRange 32).foldl f 0#32) (funext fun r => funext fun j => ?_)
    show IntOp.addi r (shapeCast S100000x32 _ shapeCasts_S3200000_S100000x32 (hred.lift (ix1 p) j)) = _
    rw [lift_last2 hred p j, maskRows_apply]
  calc cntT adj (ix1 p)
      = (((Host.reduce IntOp.addi
          (shapeCast S100000x32 (adjRowT ![2, 0] slices_S3x3200000_S1x3200000_2_0 adj) shapeCasts_S3200000_S100000x32)
          (constantI S_ 32 0#32) reducesTo_S100000x32_S100000_d1 h_S_ (ix1 p)).toInt : ℝ) : EReal) := rfl
    _ = cntR (cur2 adj) p := by rw [hcount]; rfl

/-- The denominator at (cell, head, slot): the count plus 1e-6. -/
theorem denT_apply (adj : CI Ideal S3x3200000) (p : Fin 100000) (h : Fin 16) (j : Fin 32) :
    denT adj (ix3 p h j) = cntR (cur2 adj) p + eps6 := by
  unfold denT
  refine (bcast3_apply bcast_S100000x1x1_S100000x16x32_0_1_2 _ p h j).trans ?_
  show broadcastInDim S100000x1x1 ![0] bcast_S100000_S100000x1x1_0 (cntT adj) (ix3 p (0 : Fin 1) (0 : Fin 1)) + eps6 = _
  rw [bcastVec3_apply, cntT_apply]

/-- The local score at (cell, head): each slot's masked product divided by the count, summed from zero. -/
theorem slT_apply (x : CF Ideal S100000x512) (adj : CI Ideal S3x3200000) (qw kw : CF Ideal S16x512)
    (p : Fin 100000) (h : Fin 16) :
    slT x adj qw kw (ix2 p h) = slR (cur2 x) (cur2 adj) (cur2 qw) (cur2 kw) p h := by
  have hred : S100000x16x32.Reduces [2] S100000x16 := by decide
  unfold slT
  refine (hostReduceAdd_apply _ _ reducesTo_S100000x16x32_S100000x16_d2 h_S_ (ix2 p h)).trans ?_
  refine (Ideal.hostReduceAdd_single reducesTo_S100000x16x32_S100000x16_d2 hred _ _ (ix2 p h)).trans ?_
  unfold slR
  show zero + ∑ k : Fin 32, Host.divf (scoreTT x adj qw kw) (denT adj) (hred.lift (ix2 p h) k) = _
  refine congrArg (zero + ·) (Finset.sum_congr rfl fun j _ => ?_)
  rw [Pairwise.lift_last hred p h j]
  show Ideal.div (scoreTT x adj qw kw (ix3 p h j)) (denT adj (ix3 p h j)) = _
  rw [scoreTT_apply, denT_apply]

end Cert.ReferenceIdeal.RefValue

end
-- ==== Proof.RefRead4.lean ====
/-
  The shared tail read at an index, and with it the whole result: the sum of ego and local
  score, the normalisation over the heads, the attention weights, and the projected output plus
  bias — `Spec.resR` at (cell, output column).
-/
import proofs.«165512_j43946105373324_1_alg».proof.Proof.RefRead3

noncomputable section

open scoped BigOperators

namespace Cert.ReferenceIdeal.RefValue

open Cert.ReferenceIdeal Cert.ReferenceIdeal.Gen Idealize.ShloMosaic Idealize.ShloMosaic.ValueIdx Cert.Spec

/-- Ego score plus local score at (cell, head). -/
theorem sumT_apply (x : CF Ideal S100000x512) (adj : CI Ideal S3x3200000) (qw kw : CF Ideal S16x512) (es : CF Ideal S1x16) (p : Fin 100000) (h : Fin 16) :
    sumT x adj qw kw es (ix2 p h) = sumScore (cur2 x) (cur2 qw) (row0 es) (slR (cur2 x) (cur2 adj) (cur2 qw) (cur2 kw)) p h := by
  show egoT x qw es (ix2 p h) + slT x adj qw kw (ix2 p h) = _
  rw [egoT_apply, slT_apply]
  rfl

/-- The normaliser at (cell, head): the sum over the heads from zero, plus 1e-9; it does not depend on the head. -/
theorem normT_apply (x : CF Ideal S100000x512) (adj : CI Ideal S3x3200000) (qw kw : CF Ideal S16x512) (es : CF Ideal S1x16) (p : Fin 100000) (h : Fin 16) :
    normT x adj qw kw es (ix2 p h) = Cert.Spec.norm (cur2 x) (cur2 qw) (row0 es) (slR (cur2 x) (cur2 adj) (cur2 qw) (cur2 kw)) p := by
  have hred : S100000x16.Reduces [1] S100000 := by decide
  unfold normT
  refine (bcastAlong_apply bcast_S100000x1_S100000x16_0_1 _ p h).trans ?_
  show broadcastInDim S100000x1 ![0] bcast_S100000_S100000x1_0
      (Host.reduceAdd (sumT x adj qw kw es) (constant S_ .f32 0x00000000#32) reducesTo_S100000x16_S100000_d1 h_S_)
      (ix2 p (0 : Fin 1)) + eps9 = _
  rw [bcastCol_apply]
  unfold Cert.Spec.norm
  refine congrArg (· + eps9) ?_
  refine (hostReduceAdd_apply _ _ reducesTo_S100000x16_S100000_d1 h_S_ (ix1 p)).trans ?_
  refine (Ideal.hostReduceAdd_single reducesTo_S100000x16_S100000_d1 hred _ _ (ix1 p)).trans ?_
  show zero + ∑ k : Fin 16, sumT x adj qw kw es (hred.lift (ix1 p) k) = _
  refine congrArg (zero + ·) (Finset.sum_congr rfl fun k _ => ?_)
  rw [lift_last2 hred p k, sumT_apply]

/-- The attention weight at (cell, head). -/
theorem attnT_apply (x : CF Ideal S100000x512) (adj : CI Ideal S3x3200000) (qw kw : CF Ideal S16x512) (es : CF Ideal S1x16) (p : Fin 100000) (h : Fin 16) :
    attnT x adj qw kw es (ix2 p h) = attn (cur2 x) (cur2 qw) (row0 es) (slR (cur2 x) (cur2 adj) (cur2 qw) (cur2 kw)) p h := by
  unfold attnT
  refine (hostDivf_apply _ _ (ix2 p h)).trans ?_
  rw [sumT_apply, normT_apply]
  unfold attn
  rfl

/-- THE REFERENCE'S RESULT AT (cell, output column) is the specification's second arrangement. -/
theorem refVal_apply (x : CF Ideal S100000x512) (adj : CI Ideal S3x3200000) (qw kw : CF Ideal S16x512)
    (vw : CF Ideal S512x16) (es : CF Ideal S1x16) (b : CF Ideal S1x512) (p : Fin 100000) (d : Fin 512) :
    refVal x adj qw kw vw es b (ix2 p d)
      = resR (cur2 x) (cur2 adj) (cur2 qw) (cur2 kw) (cur2 vw) (row0 es) (row0 b) p d := by
  have h1 := Cert.Lib.DotColsHost.dotGeneral_cols_apply (M := 100000) (K := 16) (N := 512) (φ₁ := .f32) (φ₂ := .f32)
    dot_S100000x16_S16x512_S100000x512_1_0_0_1_n_n rfl none .single (attnT x adj qw kw es)
    (transpose S16x512 [1, 0] (nnT S512x16 bcast_S_S512x16 vw) transposes_S512x16_S16x512_1_0) p d
  calc refVal x adj qw kw vw es b (ix2 p d)
      = FloatOps.dotGeneral dot_S100000x16_S16x512_S100000x512_1_0_0_1_n_n none .single (attnT x adj qw kw es)
          (transpose S16x512 [1, 0] (nnT S512x16 bcast_S_S512x16 vw) transposes_S512x16_S16x512_1_0) (ix2 p d)
        + broadcastInDim S100000x512 ![0, 1] bcast_S1x512_S100000x512_0_1 (nnT S1x512 bcast_S_S1x512 b) (ix2 p d) := rfl
    _ = (∑ k : Fin 16, attnT x adj qw kw es (ix2 p k)
            * transpose S16x512 [1, 0] (nnT S512x16 bcast_S_S512x16 vw) transposes_S512x16_S16x512_1_0 (ix2 k d))
        + nnT S1x512 bcast_S_S1x512 b (ix2 (0 : Fin 1) d) := by
        rw [h1, broadcastInDim_oneRow_apply]
    _ = resR (cur2 x) (cur2 adj) (cur2 qw) (cur2 kw) (cur2 vw) (row0 es) (row0 b) p d := by
        unfold resR res
        refine congrArg₂ (· + ·) (Finset.sum_congr rfl fun k _ => ?_) ?_
        · rw [attnT_apply, transpose_ix2_apply, nnT_apply]
          rfl
        · rw [nnT_apply]
          rfl

end Cert.ReferenceIdeal.RefValue

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.SpecAlgebra.lean ====
/-
  The two arrangements of the local score are one number where the mask words are 0 or 1, every
  edge of a cell names that cell as its target, and the entries the embeddings are made of are reals.

  The constants are evaluated once (0, 1, 1/512 and a positive real); the transform elu + 1 of a real
  is a real, hence so is every embedding; a row number below 100000 is not negative, so it addresses its
  own row; a mask word 0 or 1 read as "nonzero" is the word itself, and 32 such words added as 32-bit
  integers do not wrap, so both divisors are the same positive real.  Then, in the reals,
  q · (Σ_j k_j v_j) / D = Σ_j (q k_j v_j) / D.
-/
import Mathlib
import Idealize.ShloMosaic.PureOps.Ideal
import Idealize.ShloMosaic.Lib.ValueIdx
import Idealize.ShloMosaic.Lib.Affine
import proofs.«165512_j43946105373324_1_alg».proof.Proof.Spec
import proofs.«165512_j43946105373324_1_alg».proof.Proof.LibRealSums

noncomputable section

namespace Cert.Spec

open Idealize.ShloMosaic
open scoped BigOperators
open Cert.Lib.RealSums (coe_sum)

/-! ## The constants -/

theorem zero_eq : zero = 0 := by
  unfold zero; simp [Ideal.ofBits, Ideal.ieee]

theorem one_eq : one = 1 := by
  unfold one; simp [Ideal.ofBits, Ideal.ieee, -EReal.coe_mul]; norm_num

theorem inv512_eq : inv512 = ((1 / 512 : ℝ) : EReal) := by
  unfold inv512; simp [Ideal.ofBits, Ideal.ieee, -EReal.coe_mul]; norm_num

/-- The small constant added to the count is a positive real. -/
theorem eps6_pos : ∃ r : ℝ, 0 < r ∧ eps6 = (r : EReal) := by
  unfold eps6; simp [Ideal.ofBits, Ideal.ieee, -EReal.coe_mul]

/-! ## elu + 1 of a real is a real; so is an embedding of real arrays -/

theorem nn_real (r : ℝ) : ∃ s : ℝ, nn (r : EReal) = (s : EReal) := by
  unfold nn elu
  rw [zero_eq, one_eq]
  by_cases h : (0 : ℝ) < r
  · have hc : Ideal.cmp .ogt (r : EReal) 0 = 1#1 := by
      simp [Ideal.cmp, h]
    rw [hc]
    have e : ∀ (a b : EReal), Scalar.select 1#1 a b = a := fun a b => if_pos rfl
    refine ⟨r + 1, ?_⟩
    rw [e, ← EReal.coe_one, ← EReal.coe_add]
  · have hc : Ideal.cmp .ogt (r : EReal) 0 = 0#1 := by
      simp [Ideal.cmp, h]
    rw [hc]
    have e : ∀ (a b : EReal), Scalar.select 0#1 a b = b := fun a b => if_neg (by decide)
    refine ⟨(Real.exp r - 1) + 1, ?_⟩
    rw [e, e, one_mul, Ideal.exp_coe, ← EReal.coe_one, ← EReal.coe_sub, ← EReal.coe_add]

theorem emb_real {X : Fin 100000 → Fin 512 → EReal} {W : Fin 16 → Fin 512 → EReal}
    (hX : ∀ i k, ∃ r : ℝ, X i k = (r : EReal)) (hW : ∀ h k, ∃ r : ℝ, W h k = (r : EReal))
    (i : Fin 100000) (h : Fin 16) : ∃ r : ℝ, emb X W i h = (r : EReal) := by
  choose x hx using hX
  choose w hw using hW
  choose n hn using fun r => nn_real r
  refine ⟨(∑ k : Fin 512, x i k * n (w h k)) * (1 / 512), ?_⟩
  unfold emb
  rw [inv512_eq, EReal.coe_mul, coe_sum]
  refine congrArg (· * _) (Finset.sum_congr rfl fun k _ => ?_)
  rw [hx, hw, hn, EReal.coe_mul]

/-! ## Row numbers and mask words -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- The row number of a cell addresses that cell: it is not negative and within range. -/
theorem row_ofNat (i : Fin 100000) : row (BitVec.ofNat 32 i.val) = i := by
  have hi : (BitVec.ofNat 32 i.val).toInt = (i.val : ℤ) := toInt_ofNat32 _ (by have := i.isLt; omega)
  have hc : IntOp.cmpi .slt (BitVec.ofNat 32 i.val) 0#32 = 0#1 := by
    rcases BitVec.eq_zero_or_eq_one (IntOp.cmpi .slt (BitVec.ofNat 32 i.val) 0#32) with h | h
    · exact h
    · rw [IntOp.cmpi_slt, hi, BitVec.toInt_zero] at h
      omega
  have hw : wrap (BitVec.ofNat 32 i.val) = BitVec.ofNat 32 i.val := by
    unfold wrap; rw [hc]; exact if_neg (by decide)
  apply Fin.ext
  show min (wrap (BitVec.ofNat 32 i.val)).toInt.toNat 99999 = i.val
  rw [hw, hi, Int.toNat_natCast]
  have := i.isLt; omega

/-- A mask word 0 or 1: as a float it is the word itself, and a select on "nonzero" between a real and
    the zero constant is the product with it. -/
theorem validf_of_mask {A : Fin 3 → Fin 3200000 → BitVec 32} {e : Fin 3200000}
    (h : A 2 e = 0#32 ∨ A 2 e = 1#32) :
    ∃ v : ℝ, validf A e = (v : EReal) ∧ (((A 2 e).toNat : ℝ) = v) ∧
      ∀ a : ℝ, Scalar.select (IntOp.cmpi .ne (A 2 e) 0#32) (a : EReal) zero = ((a * v : ℝ) : EReal) := by
  have c0 : IntOp.cmpi .ne (0#32) 0#32 = 0#1 := by decide
  have c1 : IntOp.cmpi .ne (1#32) 0#32 = 1#1 := by decide
  rcases h with h | h
  · refine ⟨0, ?_, ?_, fun a => ?_⟩
    · unfold validf; rw [h, c0]; simp
    · rw [h]; simp
    · rw [h, c0, zero_eq, mul_zero, EReal.coe_zero]; exact if_neg (by decide)
  · refine ⟨1, ?_, ?_, fun a => ?_⟩
    · unfold validf; rw [h, c1]; simp
    · rw [h]; simp
    · rw [h, c1, mul_one]; exact if_pos rfl

/-- Words added from 0 in list order: the word of the sum of their values. -/
theorem foldl_addi (f : Fin 32 → BitVec 32) (l : List (Fin 32)) (n : ℕ) :
    l.foldl (fun r j => IntOp.addi r (f j)) (BitVec.ofNat 32 n)
      = BitVec.ofNat 32 (n + (l.map fun j => (f j).toNat).sum) := by
  induction l generalizing n with
  | nil => simp
  | cons a l ih =>
    rw [List.foldl_cons, List.map_cons, List.sum_cons]
    have : IntOp.addi (BitVec.ofNat 32 n) (f a) = BitVec.ofNat 32 (n + (f a).toNat) := by
      unfold IntOp.addi
      apply BitVec.eq_of_toNat_eq
      simp only [BitVec.toNat_add, BitVec.toNat_ofNat]
      omega
    rw [this, ih, Nat.add_assoc]

/-- The 32 mask words of a cell, each 0 or 1, added as 32-bit integers: their number, unwrapped. -/
theorem icount_toInt {A : Fin 3 → Fin 3200000 → BitVec 32} (hm : ∀ e, A 2 e = 0#32 ∨ A 2 e = 1#32)
    (i : Fin 100000) : (icount A i).toInt = ((∑ j : Fin 32, (A 2 (edge i j)).toNat : ℕ) : ℤ) := by
  unfold icount
  have h0 : (0#32 : BitVec 32) = BitVec.ofNat 32 0 := rfl
  rw [h0, foldl_addi (fun j => A 2 (edge i j)), zero_add, ← Fin.sum_univ_def]
  refine toInt_ofNat32 _ ?_
  have hle : ∑ j : Fin 32, (A 2 (edge i j)).toNat ≤ ∑ _j : Fin 32, 1 :=
    Finset.sum_le_sum fun j _ => by
      rcases hm (edge i j) with h | h <;> rw [h] <;> decide
  have h32 : ∑ _j : Fin 32, 1 = 32 := by simp
  omega

/-! ## The two local scores -/

theorem slK_eq_slR {X : Fin 100000 → Fin 512 → EReal} {A : Fin 3 → Fin 3200000 → BitVec 32}
    {QW KW : Fin 16 → Fin 512 → EReal} (H : Hyp X A QW KW) (i : Fin 100000) (h : Fin 16) :
    slK X A QW KW i h = slR X A QW KW i h := by
  obtain ⟨q, hq⟩ := emb_real H.realX H.realQ i h
  choose k hk using fun j : Fin 32 => emb_real H.realX H.realK (row (A 0 (edge i j))) h
  choose v hv hvn hvs using fun j : Fin 32 => validf_of_mask (H.mask01 (edge i j))
  obtain ⟨ε, hε, heps⟩ := eps6_pos
  have hcK : cntK A i = ((∑ j, v j : ℝ) : EReal) := by
    unfold cntK; rw [zero_eq, zero_add, coe_sum]; exact Finset.sum_congr rfl fun j _ => hv j
  have hcR : cntR A i = ((∑ j, v j : ℝ) : EReal) := by
    unfold cntR; rw [icount_toInt H.mask01]
    refine congrArg _ ?_
    push_cast
    exact Finset.sum_congr rfl fun j _ => hvn j
  have hvnn : 0 ≤ ∑ j, v j := Finset.sum_nonneg fun j _ => by rw [← hvn j]; positivity
  have hdpos : 0 < (∑ j, v j) + ε := by positivity
  have hDK : cntK A i + eps6 = (((∑ j, v j) + ε : ℝ) : EReal) := by rw [hcK, heps, ← EReal.coe_add]
  have hDR : cntR A i + eps6 = (((∑ j, v j) + ε : ℝ) : EReal) := by rw [hcR, heps, ← EReal.coe_add]
  have hsc : ∀ j, score X A QW KW (edge i j) h = ((q * k j * v j : ℝ) : EReal) := by
    intro j; unfold score
    rw [H.target i j, row_ofNat, hq, hk j, ← EReal.coe_mul]; exact hvs j _
  have hagg : aggK X A KW i h = ((∑ j, k j * v j : ℝ) : EReal) := by
    unfold aggK; rw [zero_eq, zero_add, coe_sum]
    exact Finset.sum_congr rfl fun j _ => by rw [hk j, hv j, EReal.coe_mul]
  have hdiv : ∀ j, Ideal.div (score X A QW KW (edge i j) h) (((∑ j, v j) + ε : ℝ) : EReal)
      = ((q * k j * v j * (1 / ((∑ j, v j) + ε)) : ℝ) : EReal) := by
    intro j; rw [hsc j, Ideal.div_coe hdpos.ne', ← EReal.coe_mul]
  unfold slK slR
  rw [hDK, hDR, hagg, hq, zero_eq, zero_add, Ideal.div_coe hdpos.ne',
    Finset.sum_congr rfl fun j _ => hdiv j, ← coe_sum, ← EReal.coe_mul, ← EReal.coe_mul]
  refine congrArg _ ?_
  rw [Finset.mul_sum, Finset.sum_mul]
  exact Finset.sum_congr rfl fun j _ => by ring

theorem resK_eq_resR {X : Fin 100000 → Fin 512 → EReal} {A : Fin 3 → Fin 3200000 → BitVec 32}
    {QW KW : Fin 16 → Fin 512 → EReal} (H : Hyp X A QW KW) (VW : Fin 512 → Fin 16 → EReal)
    (ES : Fin 16 → EReal) (B : Fin 512 → EReal) :
    resK X A QW KW VW ES B = resR X A QW KW VW ES B := by
  unfold resK resR
  exact congrArg (res X QW VW ES B) (funext fun i => funext fun h => slK_eq_slR H i h)

end Cert.Spec

end
-- ==== Proof.PreHyp.lean ====
/-
  What the precondition says of the arrays, read back from the printed predicate: the conjunction of
  seven whole-array "all" tests is 1, so each test is 1 at every index.  |x| < +inf at an entry of
  the extended reals says the entry is a real; the mask row's test says each mask word is 0 or 1; the
  target row's test, read through the reshape of that row to [100000, 32], says the target of slot j of
  cell i is the word of i.
-/
import Idealize.ShloMosaic.Lib.ReduceAll
import Idealize.ShloMosaic.Lib.IdealHost
import Idealize.ShloMosaic.Lib.Pipeline.Value
import Idealize.ShloMosaic.Lib.ValueIdx
import Idealize.ShloMosaic.PureOps.Ideal.Laws
import proofs.«165512_j43946105373324_1_alg».proof.Pre_finite_inputs
import proofs.«165512_j43946105373324_1_alg».proof.Proof.Spec

noncomputable section

namespace Cert.PreHyp

open Idealize.ShloMosaic Idealize.ShloMosaic.ValueIdx
open Cert.Pre_finite_inputs

instance : Subsingleton S_.Idx := ⟨fun _ _ => funext fun d => d.elim0⟩

/-! ## One entry -/

/-- An extended real whose absolute value is below +inf is a real. -/
theorem real_of_abs_lt_top (v : EReal)
    (h : Ideal.cmp .olt (max v (-v)) (Ideal.ofBits .f32 0x7F800000#32) = 1#1) : ∃ r : ℝ, v = (r : EReal) := by
  have ht : Ideal.ofBits .f32 0x7F800000#32 = ⊤ := by simp [Ideal.ofBits, Ideal.ieee]
  rw [ht] at h
  induction v using EReal.rec with
  | bot => simp [Ideal.cmp] at h
  | coe r => exact ⟨r, rfl⟩
  | top => simp [Ideal.cmp] at h

/-- "all (|x| < +inf)" is 1: every entry of x is a real. -/
theorem real_of_all {S : Shape} {axes : List (Fin S.rank)} (hb : S_.BroadcastsInDim S (![] : Fin 0 → Fin S.rank))
    (hr : S.ReducesTo axes S_) (hS : 0 < S_.numel) (x : FVec Ideal S .f32)
    (h : Host.reduce IntOp.andi
        (cmpf .olt (Host.absf x) (broadcastInDim S ![] hb (constant (F := Ideal) S_ .f32 0x7F800000#32)))
        (constantI S_ 1 1#1) hr hS ix0 = 1#1)
    (i : S.Idx) : ∃ r : ℝ, x i = (r : EReal) := by
  have e := Host.reduce_andi_all _ _ hr hS ix0 h i
  exact real_of_abs_lt_top (x i) e

/-! ## A row of the edge table, and its reshape to cells by slots -/

/-- Row r of the [3, 3200000] table, sliced out and flattened, at e is the table at (r, e). -/
theorem row_read {α : Type} (r : Fin 3) (off : Fin S3x3200000.rank → Nat) (h0 : off 0 = r.val) (h1 : off 1 = 0)
    (hsl : S3x3200000.Slices off S1x3200000) (hsc : S1x3200000.ShapeCasts S3200000)
    (adj : S3x3200000.Idx → α) (e : Fin 3200000) :
    shapeCast S3200000 (extractStridedSlice S1x3200000 off adj hsl) hsc (ix1 e) = adj (ix2 r e) := by
  refine (shapeCast_apply _ hsc (ix1 e) (ix2 (0 : Fin 1) e) ?_).trans ?_
  · rw [Shape.rowMajor_val_two, Shape.rowMajor_val_one]
    show (0 : ℕ) * 3200000 + e.val = e.val
    omega
  · refine extractStridedSlice_apply off adj hsl (ix2 (0 : Fin 1) e) (ix2 r e) fun a => ?_
    match a with
    | ⟨0, _⟩ => show r.val = off 0 + 0; omega
    | ⟨1, _⟩ => show e.val = off 1 + e.val; omega

/-- The flattened row reshaped to [100000, 32] at (i, j) is the row at 32 i + j. -/
theorem cells_read {α : Type} (hsc : S3200000.ShapeCasts S100000x32) (v : S3200000.Idx → α)
    (i : Fin 100000) (j : Fin 32) :
    shapeCast S100000x32 v hsc (ix2 i j) = v (ix1 (Cert.Spec.edge i j)) := by
  refine shapeCast_apply _ hsc (ix2 i j) (ix1 (Cert.Spec.edge i j)) ?_
  rw [Shape.rowMajor_val_two, Shape.rowMajor_val_one]
  show 32 * i.val + j.val = i.val * 32 + j.val
  omega

/-! ## The two integer tests -/

/-- "all ((v == 0) | (v' == 1))" is 1: at every index v is 0 or v' is 1. -/
theorem zero_or_one_of_all {S : Shape} {axes : List (Fin S.rank)} (hb : S_.BroadcastsInDim S (![] : Fin 0 → Fin S.rank))
    (hr : S.ReducesTo axes S_) (hS : 0 < S_.numel) (v v' : IVec S 32)
    (h : Host.reduce IntOp.andi
        (ori (cmpi .eq v (broadcastInDim S ![] hb (constantI S_ 32 0#32)))
          (cmpi .eq v' (broadcastInDim S ![] hb (constantI S_ 32 1#32))))
        (constantI S_ 1 1#1) hr hS ix0 = 1#1)
    (i : S.Idx) : v i = 0#32 ∨ v' i = 1#32 := by
  have e := Host.reduce_andi_all _ _ hr hS ix0 h i
  have e' : IntOp.ori (IntOp.cmpi .eq (v i) 0#32) (IntOp.cmpi .eq (v' i) 1#32) = 1#1 := e
  rw [IntOp.ori_eq_one, IntOp.cmpi_eq, IntOp.cmpi_eq] at e'
  exact e'

/-- "all (v == iota along the cells)" is 1: v at (i, j) is the word of i. -/
theorem eq_iota_of_all {axes : List (Fin S100000x32.rank)} (hr : S100000x32.ReducesTo axes S_) (hS : 0 < S_.numel)
    (v : IVec S100000x32 32)
    (h : Host.reduce IntOp.andi (cmpi .eq v (iotaInDim S100000x32 32 0)) (constantI S_ 1 1#1) hr hS ix0 = 1#1)
    (i : Fin 100000) (j : Fin 32) : v (ix2 i j) = BitVec.ofNat 32 i.val := by
  have e := Host.reduce_andi_all _ _ hr hS ix0 h (ix2 i j)
  have e' : IntOp.cmpi .eq (v (ix2 i j)) (BitVec.ofNat 32 i.val) = 1#1 := e
  rw [IntOp.cmpi_eq] at e'
  exact e'

/-! ## The precondition gives the domain of agreement -/

theorem hyp_of_pre [Facts] (x : FVec Ideal S100000x512 .f32) (adj : IVec S3x3200000 32)
    (qw kw : FVec Ideal S16x512 .f32) (vw : FVec Ideal S512x16 .f32) (es : FVec Ideal S1x16 .f32)
    (b : FVec Ideal S1x512 .f32)
    (h : fn (F := Ideal) x adj qw kw vw es b = fun _ => 1#1) :
    Cert.Spec.Hyp (Cert.Spec.cur2 x) (Cert.Spec.cur2 adj) (Cert.Spec.cur2 qw) (Cert.Spec.cur2 kw) := by
  have h0 := congrFun h ix0
  dsimp only [fn, fn_part1, fn_part2, andi] at h0
  obtain ⟨h0, h45⟩ := IntOp.andi_eq_one.1 h0
  obtain ⟨h0, h38⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h12⟩ := IntOp.andi_eq_one.1 h0
  obtain ⟨h3, h7⟩ := IntOp.andi_eq_one.1 h0
  refine ⟨fun e => ?_, fun i j => ?_, fun i k => ?_, fun hh k => ?_, fun hh k => ?_⟩
  · have t := zero_or_one_of_all _ _ _ _ _ h38 (ix1 e)
    rw [row_read (2 : Fin 3) ![2, 0] rfl rfl _ _ adj e] at t
    exact t
  · have t := eq_iota_of_all _ _ _ h45 i j
    rw [cells_read, row_read (1 : Fin 3) ![1, 0] rfl rfl _ _ adj (Cert.Spec.edge i j)] at t
    exact t
  · exact real_of_all _ _ _ x h3 (ix2 i k)
  · exact real_of_all _ _ _ qw h7 (ix2 hh k)
  · exact real_of_all _ _ _ kw h12 (ix2 hh k)

end Cert.PreHyp

end
-- ==== Proof.lean ====
/-
  The certificate of a bilinear neighbourhood attention over 100000 cells, 512 genes, 16 heads and 32
  neighbour slots per cell: a program of two pipelined kernels (the query / key / ego embeddings of the
  cells, and the output projection) with the edge gather, the masked segment average and the
  normalisation between them on the host, against the plain array program.

  The two programs differ in two places. The kernel program multiplies a cell's OWN query embedding
  into the masked sum of its neighbours' key embeddings and divides once; the reference gathers a query
  embedding per edge by the edge's TARGET, masks the per-edge products, divides each and sums. And the
  kernel program counts the slots whose mask word is nonzero, where the reference adds the mask words as
  integers. Under the precondition — every float input finite, the mask words 0 or 1, and the target of
  slot j of cell i the cell i itself (the edge list grouped by target, 32 consecutive slots per cell) —
  the target gather reads the cell's own row, the two counts are one number, the divisor count + 1e-6 is
  a nonzero real and every embedding is a real, so the real factor and the real divisor move across the
  sum of 32 real terms: the two local scores are equal, and everything after them (ego score,
  normalisation over the heads, projection, bias) is the same function of them.

  Both results are read entry by entry as one specification, in its two arrangements: the kernel
  program's from its run over the two regions (each region's blocks of 4000 rows cover its arrays; the
  host stretches are read operation by operation), the reference's from its run written out as a list
  of host operations. The idealization rewrote nothing, so the kernel is its own idealization.
-/
import proofs.«165512_j43946105373324_1_alg».proof.Defs
import proofs.«165512_j43946105373324_1_alg».proof.Proof.Gen.Kernel
import proofs.«165512_j43946105373324_1_alg».proof.Proof.Gen.Kernel.Frame
import proofs.«165512_j43946105373324_1_alg».proof.Proof.Gen.KernelIdeal
import proofs.«165512_j43946105373324_1_alg».proof.Proof.Gen.KernelIdeal.Frame
import proofs.«165512_j43946105373324_1_alg».proof.Proof.Gen.ReferenceIdeal
import proofs.«165512_j43946105373324_1_alg».proof.Proof.Gen.Pre_finite_inputs
import proofs.«165512_j43946105373324_1_alg».proof.Proof.KerRun
import proofs.«165512_j43946105373324_1_alg».proof.Proof.KerValue
import proofs.«165512_j43946105373324_1_alg».proof.Proof.RefRun
import proofs.«165512_j43946105373324_1_alg».proof.Proof.RefRead4
import proofs.«165512_j43946105373324_1_alg».proof.Proof.SpecAlgebra
import proofs.«165512_j43946105373324_1_alg».proof.Proof.PreHyp
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_p : Cert.frame_Kernel := fun m ρ _ => Cert.Kernel.Gen.frame m ρ

/-- So does the kernel program read on the extended reals. -/
theorem frame_pi : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.RefValue.run m ρ)

/-- From memories agreeing on the arguments both programs end with one result: entry (p, d) of either is the
    specification at the argument arrays — in the first arrangement for the kernel program, in the second for
    the reference —, and under the precondition the two arrangements are one function. -/
theorem algebraic : Cert.algebraic_KernelIdeal_ReferenceIdeal := by
  intro m ρ m' ρ' hpre hagree
  refine ⟨fun c => Cert.KernelIdeal.Gen.W13 m ρ c (Proc.devRef .tc Cert.KernelIdeal.main_v56),
    Cert.KernelIdeal.KerValue.run_value m ρ, ?_⟩
  refine (θ_run Cert.ReferenceIdeal.defs _ _).mono (fun r h c => ⟨(h c).1.trans ?_, (h c).2⟩)
    (Cert.ReferenceIdeal.RefValue.run m' ρ')
  obtain ⟨a0, a1, a2, a3, a4, a5, a6⟩ := hagree c
  rw [a0, a1, a2, a3, a4, a5, a6]
  funext i
  obtain ⟨p, d, rfl⟩ : ∃ (p : Fin 100000) (d : Fin 512), i = ix2 p d := ⟨i 0, i 1, eq_ix2 i⟩
  refine (Cert.ReferenceIdeal.RefValue.refVal_apply _ _ _ _ _ _ _ p d).trans ?_
  refine Eq.trans ?_ (Cert.KernelIdeal.KerValue.result_apply m ρ c p d).symm
  exact (congrFun (congrFun (Cert.Spec.resK_eq_resR (Cert.PreHyp.hyp_of_pre _ _ _ _ _ _ _ (hpre c)) _ _ _) p) d).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
